-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "pos_radius_sq_minus_eps" .f32 0x3AB84E91#32 ((25330948477353 / 18014398509481984 : ℝ) : EReal)
  ∧ IdealRules.named_const.Statement Cert.KernelIdeal.κ "neg_radius_sq_minus_eps" .f32 0x3C23D69F#32 ((180142189023657 / 18014398509481984 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x3 : Shape := ⟨2, ![20000, 3]⟩
abbrev S20000x32 : Shape := ⟨2, ![20000, 32]⟩
abbrev S8192x2 : Shape := ⟨2, ![8192, 2]⟩
abbrev S3x3 : Shape := ⟨2, ![3, 3]⟩
abbrev S3x1 : Shape := ⟨2, ![3, 1]⟩
abbrev S_ : Shape := ⟨0, ![]⟩

class Facts : Prop where
  bcast_S_S20000x3 : S_.BroadcastsInDim S20000x3 (![] : Fin 0 → Fin S20000x3.rank)
  reducesTo_S20000x3_S_d0_1 : S20000x3.ReducesTo [0, 1] S_
  h_S_ : 0 < S_.numel
  bcast_S_S20000x32 : S_.BroadcastsInDim S20000x32 (![] : Fin 0 → Fin S20000x32.rank)
  reducesTo_S20000x32_S_d0_1 : S20000x32.ReducesTo [0, 1] S_
  bcast_S_S3x3 : S_.BroadcastsInDim S3x3 (![] : Fin 0 → Fin S3x3.rank)
  reducesTo_S3x3_S_d0_1 : S3x3.ReducesTo [0, 1] S_
  bcast_S_S3x1 : S_.BroadcastsInDim S3x1 (![] : Fin 0 → Fin S3x1.rank)
  reducesTo_S3x1_S_d0_1 : S3x1.ReducesTo [0, 1] S_

variable [Facts]

def fn_part1 {F : FTy → Type} [FloatOps F] (main_arg5 : FVec F S3x3 .f32) (main_arg6 : FVec F S3x1 .f32) (main_v13 : IVec S_ 1) (main_v16 : IVec S20000x32 1) : IVec S_ 1 :=
  let main_c_5 : IVec S_ 1 := constantI S_ 1 1#1
  let main_v17 : IVec S_ 1 := (fun x v => Host.reduce IntOp.andi x v reducesTo_S20000x32_S_d0_1 h_S_) main_v16 main_c_5
  let main_v18 : IVec S_ 1 := andi main_v13 main_v17
  let main_v19 : FVec F S3x3 .f32 := Host.absf main_arg5
  let main_cst_6 : FVec F S_ .f32 := constant S_ .f32 0x7F800000#32
  let main_v20 : FVec F S3x3 .f32 := broadcastInDim S3x3 ![] bcast_S_S3x3 main_cst_6
  let main_v21 : IVec S3x3 1 := cmpf .olt main_v19 main_v20
  let main_c_7 : IVec S_ 1 := constantI S_ 1 1#1
  let main_v22 : IVec S_ 1 := (fun x v => Host.reduce IntOp.andi x v reducesTo_S3x3_S_d0_1 h_S_) main_v21 main_c_7
  let main_v23 : IVec S_ 1 := andi main_v18 main_v22
  let main_v24 : FVec F S3x1 .f32 := Host.absf main_arg6
  let main_cst_8 : FVec F S_ .f32 := constant S_ .f32 0x7F800000#32
  let main_v25 : FVec F S3x1 .f32 := broadcastInDim S3x1 ![] bcast_S_S3x1 main_cst_8
  let main_v26 : IVec S3x1 1 := cmpf .olt main_v24 main_v25
  let main_c_9 : IVec S_ 1 := constantI S_ 1 1#1
  let main_v27 : IVec S_ 1 := (fun x v => Host.reduce IntOp.andi x v reducesTo_S3x1_S_d0_1 h_S_) main_v26 main_c_9
  let main_v28 : IVec S_ 1 := andi main_v23 main_v27
  main_v28

def fn {F : FTy → Type} [FloatOps F] (main_arg0 : FVec F S20000x3 .f32) (main_arg1 : FVec F S20000x3 .f32) (main_arg2 : FVec F S20000x32 .f32) (main_arg3 : FVec F S20000x32 .f32) (main_arg4 : IVec S8192x2 32) (main_arg5 : FVec F S3x3 .f32) (main_arg6 : FVec F S3x1 .f32) : IVec S_ 1 :=
  let main_v0 : FVec F S20000x3 .f32 := Host.absf main_arg0
  let main_cst : FVec F S_ .f32 := constant S_ .f32 0x7F800000#32
  let main_v1 : FVec F S20000x3 .f32 := broadcastInDim S20000x3 ![] bcast_S_S20000x3 main_cst
  let main_v2 : IVec S20000x3 1 := cmpf .olt main_v0 main_v1
  let main_c : IVec S_ 1 := constantI S_ 1 1#1
  let main_v3 : IVec S_ 1 := (fun x v => Host.reduce IntOp.andi x v reducesTo_S20000x3_S_d0_1 h_S_) main_v2 main_c
  let main_v4 : FVec F S20000x3 .f32 := Host.absf main_arg1
  let main_cst_0 : FVec F S_ .f32 := constant S_ .f32 0x7F800000#32
  let main_v5 : FVec F S20000x3 .f32 := broadcastInDim S20000x3 ![] bcast_S_S20000x3 main_cst_0
  let main_v6 : IVec S20000x3 1 := cmpf .olt main_v4 main_v5
  let main_c_1 : IVec S_ 1 := constantI S_ 1 1#1
  let main_v7 : IVec S_ 1 := (fun x v => Host.reduce IntOp.andi x v reducesTo_S20000x3_S_d0_1 h_S_) main_v6 main_c_1
  let main_v8 : IVec S_ 1 := andi main_v3 main_v7
  let main_v9 : FVec F S20000x32 .f32 := Host.absf main_arg2
  let main_cst_2 : FVec F S_ .f32 := constant S_ .f32 0x7F800000#32
  let main_v10 : FVec F S20000x32 .f32 := broadcastInDim S20000x32 ![] bcast_S_S20000x32 main_cst_2
  let main_v11 : IVec S20000x32 1 := cmpf .olt main_v9 main_v10
  let main_c_3 : IVec S_ 1 := constantI S_ 1 1#1
  let main_v12 : IVec S_ 1 := (fun x v => Host.reduce IntOp.andi x v reducesTo_S20000x32_S_d0_1 h_S_) main_v11 main_c_3
  let main_v13 : IVec S_ 1 := andi main_v8 main_v12
  let main_v14 : FVec F S20000x32 .f32 := Host.absf main_arg3
  let main_cst_4 : FVec F S_ .f32 := constant S_ .f32 0x7F800000#32
  let main_v15 : FVec F S20000x32 .f32 := broadcastInDim S20000x32 ![] bcast_S_S20000x32 main_cst_4
  let main_v16 : IVec S20000x32 1 := cmpf .olt main_v14 main_v15
  fn_part1 (F := F) main_arg5 main_arg6 main_v13 main_v16
-- ==== Kernel.lean ====
abbrev S20000x3 : Shape := ⟨2, ![20000, 3]⟩
abbrev S20000x32 : Shape := ⟨2, ![20000, 32]⟩
abbrev S8192x2 : Shape := ⟨2, ![8192, 2]⟩
abbrev S3x3 : Shape := ⟨2, ![3, 3]⟩
abbrev S3x1 : Shape := ⟨2, ![3, 1]⟩
abbrev S8192x1 : Shape := ⟨2, ![8192, 1]⟩
abbrev S8192 : Shape := ⟨1, ![8192]⟩
abbrev S_ : Shape := ⟨0, ![]⟩
abbrev S8192x3 : Shape := ⟨2, ![8192, 3]⟩
abbrev S8192x32 : Shape := ⟨2, ![8192, 32]⟩
abbrev S1x3 : Shape := ⟨2, ![1, 3]⟩
abbrev S1024x3 : Shape := ⟨2, ![1024, 3]⟩
abbrev S1024x32 : Shape := ⟨2, ![1024, 32]⟩
abbrev S1024 : Shape := ⟨1, ![1024]⟩
abbrev S1024x1024 : Shape := ⟨2, ![1024, 1024]⟩
abbrev S1024x1 : Shape := ⟨2, ![1024, 1]⟩
abbrev S1x1024 : Shape := ⟨2, ![1, 1024]⟩
abbrev S32x1024 : Shape := ⟨2, ![32, 1024]⟩

abbrev nBuf : Space → Nat
  | .hbm => 75
  | .vmem => 14
  | .smem => 0
  | _ => 0

abbrev bufTy : (tb : Table) → Fin (tcTables nBuf tb) → BufTy
  | .hbm, ⟨0, _⟩ => ⟨S20000x3, .f32⟩
  | .hbm, ⟨1, _⟩ => ⟨S20000x3, .f32⟩
  | .hbm, ⟨2, _⟩ => ⟨S20000x32, .f32⟩
  | .hbm, ⟨3, _⟩ => ⟨S20000x32, .f32⟩
  | .hbm, ⟨4, _⟩ => ⟨S8192x2, .i32⟩
  | .hbm, ⟨5, _⟩ => ⟨S3x3, .f32⟩
  | .hbm, ⟨6, _⟩ => ⟨S3x1, .f32⟩
  | .hbm, ⟨7, _⟩ => ⟨S8192x1, .i32⟩
  | .hbm, ⟨8, _⟩ => ⟨S8192, .i32⟩
  | .hbm, ⟨9, _⟩ => ⟨S8192x1, .i32⟩
  | .hbm, ⟨10, _⟩ => ⟨S8192, .i32⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S8192, .i32⟩
  | .hbm, ⟨18, _⟩ => ⟨S8192x1, .i32⟩
  | .hbm, ⟨19, _⟩ => ⟨S8192x3, .f32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S8192x1, .i32⟩
  | .hbm, ⟨28, _⟩ => ⟨S8192x3, .f32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S8192x1, .i32⟩
  | .hbm, ⟨37, _⟩ => ⟨S8192x32, .f32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S8192x1, .i32⟩
  | .hbm, ⟨46, _⟩ => ⟨S8192x32, .f32⟩
  | .hbm, ⟨47, _⟩ => ⟨S3x3, .f32⟩
  | .hbm, ⟨48, _⟩ => ⟨S8192x3, .f32⟩
  | .hbm, ⟨49, _⟩ => ⟨S1x3, .f32⟩
  | .hbm, ⟨50, _⟩ => ⟨S8192x3, .f32⟩
  | .hbm, ⟨51, _⟩ => ⟨S8192x3, .f32⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .local _ .vmem, ⟨0, _⟩ => ⟨S1024x3, .f32⟩
  | .local _ .vmem, ⟨1, _⟩ => ⟨S1024x3, .f32⟩
  | .local _ .vmem, ⟨2, _⟩ => ⟨S1024x3, .f32⟩
  | .local _ .vmem, ⟨3, _⟩ => ⟨S1024x3, .f32⟩
  | .local _ .vmem, ⟨4, _⟩ => ⟨S1024x32, .f32⟩
  | .local _ .vmem, ⟨5, _⟩ => ⟨S1024x32, .f32⟩
  | .local _ .vmem, ⟨6, _⟩ => ⟨S1024x32, .f32⟩
  | .local _ .vmem, ⟨7, _⟩ => ⟨S1024x32, .f32⟩
  | .local _ .vmem, ⟨8, _⟩ => ⟨S1024, .f32⟩
  | .local _ .vmem, ⟨9, _⟩ => ⟨S1024, .f32⟩
  | .local _ .vmem, ⟨10, _⟩ => ⟨S1024, .f32⟩
  | .local _ .vmem, ⟨11, _⟩ => ⟨S1024, .f32⟩
  | .local _ .vmem, ⟨12, _⟩ => ⟨S1024, .f32⟩
  | .local _ .vmem, ⟨13, _⟩ => ⟨S1024, .f32⟩
  | _, _ => ⟨S20000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37_0 : Ref sig .tc := ⟨.hbm, 52, rfl⟩
abbrev main_v37_1 : Ref sig .tc := ⟨.hbm, 53, rfl⟩
abbrev main_cst : Ref sig .tc := ⟨.hbm, 54, rfl⟩
abbrev main_v38 : Ref sig .tc := ⟨.hbm, 55, rfl⟩
abbrev main_v39 : Ref sig .tc := ⟨.hbm, 56, rfl⟩
abbrev main_call0_cst : Ref sig .tc := ⟨.hbm, 57, rfl⟩
abbrev main_call0_v0 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_call1_cst : Ref sig .tc := ⟨.hbm, 63, rfl⟩
abbrev main_call1_v0 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_cst_11 : Ref sig .tc := ⟨.hbm, 72, rfl⟩
abbrev main_v47 : Ref sig .tc := ⟨.hbm, 73, rfl⟩
abbrev main_v48 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v77 : BitVec 1 := Scalar.cmpi .eq arg1 c7_i32
  let v78 : BitVec 32 := Scalar.extui v77
  let c0_i32_24 : BitVec 32 := 0#32
  let v79 : BitVec 1 := Scalar.cmpi .ne v78 c0_i32_24
  v79

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  slices_S8192x2_S8192x1_0_0 : S8192x2.Slices ![0, 0] S8192x1
  shapeCasts_S8192x1_S8192 : S8192x1.ShapeCasts S8192
  slices_S8192x2_S8192x1_0_1 : S8192x2.Slices ![0, 1] S8192x1
  bcast_S_S8192 : S_.BroadcastsInDim S8192 (![] : Fin 0 → Fin S8192.rank)
  bcast_S8192_S8192x1_0 : S8192.BroadcastsInDim S8192x1 (![0] : Fin 1 → Fin S8192x1.rank)
  transposes_S3x3_S3x3_1_0 : S3x3.Transposes [1, 0] S3x3
  transposes_S3x1_S1x3_1_0 : S3x1.Transposes [1, 0] S1x3
  bcast_S1x3_S8192x3_0_1 : S1x3.BroadcastsInDim S8192x3 (![0, 1] : Fin 2 → Fin S8192x3.rank)
  inb_S1024_S1024_0 : ∀ a, (![0] : Fin 1 → Nat) a + S1024.size a ≤ S1024.size a
  h_S1024 : 0 < S1024.numel
  shapeCasts_S1024_S1024 : S1024.ShapeCasts S1024
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  slices_S1024x3_o0_0_S1024x1 : S1024x3.Slices ![0, 0] S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  slices_S1024x3_o0_1_S1024x1 : S1024x3.Slices ![0, 1] S1024x1
  slices_S1024x3_o0_2_S1024x1 : S1024x3.Slices ![0, 2] S1024x1
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  reduces_S1024x32_S1024 : S1024x32.Reduces [1] S1024
  shapeCasts_S1024_S1024x1 : S1024.ShapeCasts S1024x1
  bitsLt_bf16_f32 : FTy.bits .bf16 < FTy.bits .f32
  transposes_S1024x32_p1_0_S32x1024 : S1024x32.Transposes [1, 0] S32x1024
  reduces_S1024x1024_S1024 : S1024x1024.Reduces [1] S1024
  reducesTo_S8192_S_d0 : S8192.ReducesTo [0] S_
  h_S_ : 0 < S_.numel
  gather_S20000x3_S8192x1_S8192x3_1_0_n_n_0_1_13_wf : GatherDims.WF S20000x3 S8192x1 S8192x3 [1] [0] [] [0] [] 1 ![1, 3]
  gather_S20000x32_S8192x1_S8192x32_1_0_n_n_0_1_132_wf : GatherDims.WF S20000x32 S8192x1 S8192x32 [1] [0] [] [0] [] 1 ![1, 32]
  dot_S8192x3_S3x3_S8192x3_1_0_0_1_n_n_wf : DotDims.WF S8192x3 S3x3 S8192x3 [1] [0] [0] [1] [] []
  dot_S1024x32_S32x1024_S1024x1024_1_0_0_1_n_n_wf : DotDims.WF S1024x32 S32x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S8192x3.size a
  hwx0_0 : ∀ i : grid0.Coords, EltTy.bits .f32 = 32 ∨ (Rect.block (s := S8192x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S8192x3.size a
  hwx0_1 : ∀ i : grid0.Coords, EltTy.bits .f32 = 32 ∨ (Rect.block (s := S8192x3) S1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S8192x32.size a
  hwx0_2 : ∀ i : grid0.Coords, EltTy.bits .f32 = 32 ∨ (Rect.block (s := S8192x32) S1024x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S8192x32.size a
  hwx0_3 : ∀ i : grid0.Coords, EltTy.bits .f32 = 32 ∨ (Rect.block (s := S8192x32) S1024x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S8192.size a
  hwx0_4 : ∀ i : grid0.Coords, EltTy.bits .f32 = 32 ∨ (Rect.block (s := S8192) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S8192.size a
  hwx0_5 : ∀ i : grid0.Coords, EltTy.bits .f32 = 32 ∨ (Rect.block (s := S8192) S1024.size (cc0_transform_5 i) (hinb0_5 i)).WholeWords (EltTy.packing .f32)

variable [Facts₀]

def gather_S20000x3_S8192x1_S8192x3_1_0_n_n_0_1_13 : GatherDims S20000x3 S8192x1 S8192x3 where
  offsetDims := [1]
  collapsedSliceDims := [0]
  operandBatchingDims := []
  startIndicesBatchingDims := []
  startIndexMap := [0]
  indexVectorDim := 1
  sliceSizes := ![1, 3]
  wf := gather_S20000x3_S8192x1_S8192x3_1_0_n_n_0_1_13_wf
def gather_S20000x32_S8192x1_S8192x32_1_0_n_n_0_1_132 : GatherDims S20000x32 S8192x1 S8192x32 where
  offsetDims := [1]
  collapsedSliceDims := [0]
  operandBatchingDims := []
  startIndicesBatchingDims := []
  startIndexMap := [0]
  indexVectorDim := 1
  sliceSizes := ![1, 32]
  wf := gather_S20000x32_S8192x1_S8192x32_1_0_n_n_0_1_132_wf
def dot_S8192x3_S3x3_S8192x3_1_0_0_1_n_n : DotDims S8192x3 S3x3 S8192x3 where
  lhsContracting := [1]
  rhsContracting := [0]
  lhsNonContracting := [0]
  rhsNonContracting := [1]
  lhsBatch := []
  rhsBatch := []
  wf := dot_S8192x3_S3x3_S8192x3_1_0_0_1_n_n_wf
def dot_S1024x32_S32x1024_S1024x1024_1_0_0_1_n_n : DotDims S1024x32 S32x1024 S1024x1024 where
  lhsContracting := [1]
  rhsContracting := [0]
  lhsNonContracting := [0]
  rhsNonContracting := [1]
  lhsBatch := []
  rhsBatch := []
  wf := dot_S1024x32_S32x1024_S1024x1024_1_0_0_1_n_n_wf

abbrev win0_0 : Pipeline.Window sig grid0 :=
  Pipeline.Window.ofSpec (Memref.whole main_v36) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1024x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1024x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v37_0) S1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v37_1) S1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S20000x3 : Shape := ⟨2, ![20000, 3]⟩
abbrev S20000x32 : Shape := ⟨2, ![20000, 32]⟩
abbrev S8192x2 : Shape := ⟨2, ![8192, 2]⟩
abbrev S3x3 : Shape := ⟨2, ![3, 3]⟩
abbrev S3x1 : Shape := ⟨2, ![3, 1]⟩
abbrev S3x20000 : Shape := ⟨2, ![3, 20000]⟩
abbrev S8192x1 : Shape := ⟨2, ![8192, 1]⟩
abbrev S8192 : Shape := ⟨1, ![8192]⟩
abbrev S_ : Shape := ⟨0, ![]⟩
abbrev S8192x3 : Shape := ⟨2, ![8192, 3]⟩
abbrev S8192x32 : Shape := ⟨2, ![8192, 32]⟩
abbrev S1x8192 : Shape := ⟨2, ![1, 8192]⟩
abbrev S8192x8192 : Shape := ⟨2, ![8192, 8192]⟩
abbrev S3x8192 : Shape := ⟨2, ![3, 8192]⟩
abbrev S32x8192 : Shape := ⟨2, ![32, 8192]⟩

abbrev nBuf : Space → Nat
  | .hbm => 137
  | .vmem => 0
  | .smem => 0
  | _ => 0

abbrev hbmTy0_0 (i : Nat) : BufTy := match i % 128 with
  | 0 => ⟨S20000x3, .f32⟩
  | 1 => ⟨S20000x3, .f32⟩
  | 2 => ⟨S20000x32, .f32⟩
  | 3 => ⟨S20000x32, .f32⟩
  | 4 => ⟨S8192x2, .i32⟩
  | 5 => ⟨S3x3, .f32⟩
  | 6 => ⟨S3x1, .f32⟩
  | 7 => ⟨S3x20000, .f32⟩
  | 8 => ⟨S3x20000, .f32⟩
  | 9 => ⟨S3x20000, .f32⟩
  | 10 => ⟨S3x20000, .f32⟩
  | 11 => ⟨S20000x3, .f32⟩
  | 12 => ⟨S8192x1, .i32⟩
  | 13 => ⟨S8192, .i32⟩
  | 14 => ⟨S8192x1, .i32⟩
  | 15 => ⟨S8192, .i32⟩
  | 16 => ⟨S_, .i32⟩
  | 17 => ⟨S8192, .i32⟩
  | 18 => ⟨S8192, .i1⟩
  | 19 => ⟨S_, .i32⟩
  | 20 => ⟨S8192, .i32⟩
  | 21 => ⟨S8192, .i32⟩
  | 22 => ⟨S8192, .i32⟩
  | 23 => ⟨S8192x1, .i32⟩
  | 24 => ⟨S8192x3, .f32⟩
  | 25 => ⟨S_, .i32⟩
  | 26 => ⟨S8192, .i32⟩
  | 27 => ⟨S8192, .i1⟩
  | 28 => ⟨S_, .i32⟩
  | 29 => ⟨S8192, .i32⟩
  | 30 => ⟨S8192, .i32⟩
  | 31 => ⟨S8192, .i32⟩
  | 32 => ⟨S8192x1, .i32⟩
  | 33 => ⟨S8192x3, .f32⟩
  | 34 => ⟨S_, .i32⟩
  | 35 => ⟨S8192, .i32⟩
  | 36 => ⟨S8192, .i1⟩
  | 37 => ⟨S_, .i32⟩
  | 38 => ⟨S8192, .i32⟩
  | 39 => ⟨S8192, .i32⟩
  | 40 => ⟨S8192, .i32⟩
  | 41 => ⟨S8192x1, .i32⟩
  | 42 => ⟨S8192x32, .f32⟩
  | 43 => ⟨S_, .i32⟩
  | 44 => ⟨S8192, .i32⟩
  | 45 => ⟨S8192, .i1⟩
  | 46 => ⟨S_, .i32⟩
  | 47 => ⟨S8192, .i32⟩
  | 48 => ⟨S8192, .i32⟩
  | 49 => ⟨S8192, .i32⟩
  | 50 => ⟨S8192x1, .i32⟩
  | 51 => ⟨S8192x32, .f32⟩
  | 52 => ⟨S8192x3, .f32⟩
  | 53 => ⟨S_, .f32⟩
  | 54 => ⟨S8192, .f32⟩
  | 55 => ⟨S8192x1, .f32⟩
  | 56 => ⟨S8192x3, .f32⟩
  | 57 => ⟨S_, .f32⟩
  | 58 => ⟨S8192, .f32⟩
  | 59 => ⟨S1x8192, .f32⟩
  | 60 => ⟨S8192x8192, .f32⟩
  | 61 => ⟨S8192x8192, .f32⟩
  | 62 => ⟨S8192x8192, .f32⟩
  | 63 => ⟨S_, .f32⟩
  | 64 => ⟨S8192x3, .f32⟩
  | 65 => ⟨S8192x3, .f32⟩
  | 66 => ⟨S3x8192, .f32⟩
  | 67 => ⟨S8192x8192, .f32⟩
  | 68 => ⟨S8192x8192, .f32⟩
  | 69 => ⟨S_, .f32⟩
  | 70 => ⟨S8192x8192, .f32⟩
  | 71 => ⟨S8192x8192, .f32⟩
  | 72 => ⟨S_, .f32⟩
  | 73 => ⟨S8192x8192, .f32⟩
  | 74 => ⟨S8192x8192, .f32⟩
  | 75 => ⟨S8192x8192, .f32⟩
  | 76 => ⟨S8192x32, .f32⟩
  | 77 => ⟨S_, .f32⟩
  | 78 => ⟨S8192, .f32⟩
  | 79 => ⟨S8192x1, .f32⟩
  | 80 => ⟨S8192x32, .f32⟩
  | 81 => ⟨S_, .f32⟩
  | 82 => ⟨S8192, .f32⟩
  | 83 => ⟨S1x8192, .f32⟩
  | 84 => ⟨S8192x8192, .f32⟩
  | 85 => ⟨S8192x8192, .f32⟩
  | 86 => ⟨S8192x8192, .f32⟩
  | 87 => ⟨S_, .f32⟩
  | 88 => ⟨S8192x32, .f32⟩
  | 89 => ⟨S8192x32, .f32⟩
  | 90 => ⟨S32x8192, .f32⟩
  | 91 => ⟨S8192x8192, .f32⟩
  | 92 => ⟨S8192x8192, .f32⟩
  | 93 => ⟨S_, .f32⟩
  | 94 => ⟨S8192x8192, .f32⟩
  | 95 => ⟨S8192x8192, .f32⟩
  | 96 => ⟨S_, .f32⟩
  | 97 => ⟨S8192x8192, .f32⟩
  | 98 => ⟨S8192x8192, .f32⟩
  | 99 => ⟨S8192x8192, .f32⟩
  | 100 => ⟨S_, .f32⟩
  | 101 => ⟨S8192x8192, .f32⟩
  | 102 => ⟨S8192x8192, .i1⟩
  | 103 => ⟨S_, .f32⟩
  | 104 => ⟨S8192x8192, .f32⟩
  | 105 => ⟨S8192x8192, .i1⟩
  | 106 => ⟨S8192x8192, .f32⟩
  | 107 => ⟨S8192x8192, .f32⟩
  | 108 => ⟨S_, .f32⟩
  | 109 => ⟨S8192, .f32⟩
  | 110 => ⟨S_, .f32⟩
  | 111 => ⟨S_, .f32⟩
  | 112 => ⟨S8192x8192, .f32⟩
  | 113 => ⟨S8192x8192, .f32⟩
  | 114 => ⟨S_, .f32⟩
  | 115 => ⟨S8192, .f32⟩
  | 116 => ⟨S_, .f32⟩
  | 117 => ⟨S8192, .f32⟩
  | 118 => ⟨S8192, .f32⟩
  | 119 => ⟨S_, .f32⟩
  | 120 => ⟨S8192, .f32⟩
  | 121 => ⟨S8192, .f32⟩
  | 122 => ⟨S_, .f32⟩
  | 123 => ⟨S8192, .f32⟩
  | 124 => ⟨S8192, .f32⟩
  | 125 => ⟨S_, .f32⟩
  | 126 => ⟨S8192, .f32⟩
  | 127 => ⟨S8192, .f32⟩
  | _ => ⟨S20000x3, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | _ => ⟨S20000x3, .f32⟩

abbrev hbmTy (i : Nat) : BufTy := match i / 128 with
  | 0 => hbmTy0_0 i
  | 1 => hbmTy0_1 i
  | _ => ⟨S20000x3, .f32⟩

abbrev bufTy : (tb : Table) → Fin (tcTables nBuf tb) → BufTy
  | .hbm, ⟨i, _⟩ => hbmTy i
  | _, _ => ⟨S20000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_12 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_13 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_14 : Ref sig .tc := ⟨.hbm, 93, rfl⟩
abbrev main_v70 : Ref sig .tc := ⟨.hbm, 94, rfl⟩
abbrev main_v71 : Ref sig .tc := ⟨.hbm, 95, rfl⟩
abbrev main_cst_15 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_16 : Ref sig .tc := ⟨.hbm, 100, rfl⟩
abbrev main_v75 : Ref sig .tc := ⟨.hbm, 101, rfl⟩
abbrev main_v76 : Ref sig .tc := ⟨.hbm, 102, rfl⟩
abbrev main_cst_17 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_18 : Ref sig .tc := ⟨.hbm, 108, rfl⟩
abbrev main_v81 : Ref sig .tc := ⟨.hbm, 109, rfl⟩
abbrev main_cst_19 : Ref sig .tc := ⟨.hbm, 110, rfl⟩
abbrev main_call0_v0 : Ref sig .tc := ⟨.hbm, 111, rfl⟩
abbrev main_call0_v1 : Ref sig .tc := ⟨.hbm, 112, rfl⟩
abbrev main_v82 : Ref sig .tc := ⟨.hbm, 113, rfl⟩
abbrev main_cst_20 : Ref sig .tc := ⟨.hbm, 114, rfl⟩
abbrev main_v83 : Ref sig .tc := ⟨.hbm, 115, rfl⟩
abbrev main_cst_21 : Ref sig .tc := ⟨.hbm, 116, rfl⟩
abbrev main_v84 : Ref sig .tc := ⟨.hbm, 117, rfl⟩
abbrev main_v85 : Ref sig .tc := ⟨.hbm, 118, rfl⟩
abbrev main_call1_cst : Ref sig .tc := ⟨.hbm, 119, rfl⟩
abbrev main_call1_v0 : Ref sig .tc := ⟨.hbm, 120, rfl⟩
abbrev main_v86 : Ref sig .tc := ⟨.hbm, 121, rfl⟩
abbrev main_cst_22 : Ref sig .tc := ⟨.hbm, 122, rfl⟩
abbrev main_v87 : Ref sig .tc := ⟨.hbm, 123, rfl⟩
abbrev main_v88 : Ref sig .tc := ⟨.hbm, 124, rfl⟩
abbrev main_call2_cst : Ref sig .tc := ⟨.hbm, 125, rfl⟩
abbrev main_call2_v0 : Ref sig .tc := ⟨.hbm, 126, rfl⟩
abbrev main_v89 : Ref sig .tc := ⟨.hbm, 127, rfl⟩
abbrev main_cst_23 : Ref sig .tc := ⟨.hbm, 128, rfl⟩
abbrev main_v90 : Ref sig .tc := ⟨.hbm, 129, rfl⟩
abbrev main_cst_24 : Ref sig .tc := ⟨.hbm, 130, rfl⟩
abbrev main_v91 : Ref sig .tc := ⟨.hbm, 131, rfl⟩
abbrev main_cst_25 : Ref sig .tc := ⟨.hbm, 132, rfl⟩
abbrev main_v92 : Ref sig .tc := ⟨.hbm, 133, rfl⟩
abbrev main_cst_26 : Ref sig .tc := ⟨.hbm, 134, rfl⟩
abbrev main_v93 : Ref sig .tc := ⟨.hbm, 135, rfl⟩
abbrev main_v94 : Ref sig .tc := ⟨.hbm, 136, rfl⟩

abbrev nD : Nat := 1
abbrev τ : Topo := Topo.v7x

variable {F : FTy → Type} [FloatOps F]

class Facts₀ : Prop where
  transposes_S20000x3_S3x20000_1_0 : S20000x3.Transposes [1, 0] S3x20000
  bcast_S3x1_S3x20000_0_1 : S3x1.BroadcastsInDim S3x20000 (![0, 1] : Fin 2 → Fin S3x20000.rank)
  transposes_S3x20000_S20000x3_1_0 : S3x20000.Transposes [1, 0] S20000x3
  slices_S8192x2_S8192x1_0_0 : S8192x2.Slices ![0, 0] S8192x1
  shapeCasts_S8192x1_S8192 : S8192x1.ShapeCasts S8192
  slices_S8192x2_S8192x1_0_1 : S8192x2.Slices ![0, 1] S8192x1
  bcast_S_S8192 : S_.BroadcastsInDim S8192 (![] : Fin 0 → Fin S8192.rank)
  bcast_S8192_S8192x1_0 : S8192.BroadcastsInDim S8192x1 (![0] : Fin 1 → Fin S8192x1.rank)
  reducesTo_S8192x3_S8192_d1 : S8192x3.ReducesTo [1] S8192
  h_S_ : 0 < S_.numel
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x3 : S_.BroadcastsInDim S8192x3 (![] : Fin 0 → Fin S8192x3.rank)
  transposes_S8192x3_S3x8192_1_0 : S8192x3.Transposes [1, 0] S3x8192
  bcast_S_S8192x8192 : S_.BroadcastsInDim S8192x8192 (![] : Fin 0 → Fin S8192x8192.rank)
  reducesTo_S8192x32_S8192_d1 : S8192x32.ReducesTo [1] S8192
  bcast_S_S8192x32 : S_.BroadcastsInDim S8192x32 (![] : Fin 0 → Fin S8192x32.rank)
  transposes_S8192x32_S32x8192_1_0 : S8192x32.Transposes [1, 0] S32x8192
  reducesTo_S8192x8192_S8192_d1 : S8192x8192.ReducesTo [1] S8192
  reducesTo_S8192_S_d0 : S8192.ReducesTo [0] S_
  dot_S3x3_S3x20000_S3x20000_1_0_0_1_n_n_wf : DotDims.WF S3x3 S3x20000 S3x20000 [1] [0] [0] [1] [] []
  gather_S20000x3_S8192x1_S8192x3_1_0_n_n_0_1_13_wf : GatherDims.WF S20000x3 S8192x1 S8192x3 [1] [0] [] [0] [] 1 ![1, 3]
  gather_S20000x32_S8192x1_S8192x32_1_0_n_n_0_1_132_wf : GatherDims.WF S20000x32 S8192x1 S8192x32 [1] [0] [] [0] [] 1 ![1, 32]
  dot_S8192x3_S3x8192_S8192x8192_1_0_0_1_n_n_wf : DotDims.WF S8192x3 S3x8192 S8192x8192 [1] [0] [0] [1] [] []
  dot_S8192x32_S32x8192_S8192x8192_1_0_0_1_n_n_wf : DotDims.WF S8192x32 S32x8192 S8192x8192 [1] [0] [0] [1] [] []

variable [Facts₀]

def dot_S3x3_S3x20000_S3x20000_1_0_0_1_n_n : DotDims S3x3 S3x20000 S3x20000 where
  lhsContracting := [1]
  rhsContracting := [0]
  lhsNonContracting := [0]
  rhsNonContracting := [1]
  lhsBatch := []
  rhsBatch := []
  wf := dot_S3x3_S3x20000_S3x20000_1_0_0_1_n_n_wf
def gather_S20000x3_S8192x1_S8192x3_1_0_n_n_0_1_13 : GatherDims S20000x3 S8192x1 S8192x3 where
  offsetDims := [1]
  collapsedSliceDims := [0]
  operandBatchingDims := []
  startIndicesBatchingDims := []
  startIndexMap := [0]
  indexVectorDim := 1
  sliceSizes := ![1, 3]
  wf := gather_S20000x3_S8192x1_S8192x3_1_0_n_n_0_1_13_wf
def gather_S20000x32_S8192x1_S8192x32_1_0_n_n_0_1_132 : GatherDims S20000x32 S8192x1 S8192x32 where
  offsetDims := [1]
  collapsedSliceDims := [0]
  operandBatchingDims := []
  startIndicesBatchingDims := []
  startIndexMap := [0]
  indexVectorDim := 1
  sliceSizes := ![1, 32]
  wf := gather_S20000x32_S8192x1_S8192x32_1_0_n_n_0_1_132_wf
def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf
def dot_S8192x32_S32x8192_S8192x8192_1_0_0_1_n_n : DotDims S8192x32 S32x8192 S8192x8192 where
  lhsContracting := [1]
  rhsContracting := [0]
  lhsNonContracting := [0]
  rhsNonContracting := [1]
  lhsBatch := []
  rhsBatch := []
  wf := dot_S8192x32_S32x8192_S8192x8192_1_0_0_1_n_n_wf

class Facts : Prop extends Facts₀ where

variable [Facts]
-- ==== Proof.KerCases.lean ====
import proofs.«167056_j70995809402955_2_alg».proof.Proof.Gen.KernelIdeal.Frame
import Idealize.ShloMosaic.Lib.Pipeline.Value
import Idealize.ShloMosaic.Lib.Tactic
set_option maxRecDepth 16384
/-
  What the kernel's body leaves, case by case, in its two running buffers and its two outputs, as values of the
  loaded blocks: one step of the running maximum and of the running minimum per tile.
-/
noncomputable section
namespace Cert.KerCases
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F] [Named F]

theorem hz1 : (![0] : Fin 1 → Nat) = fun _ => 0 := funext fun a => by fin_cases a; rfl
theorem hz2 : (![0, 0] : Fin 2 → Nat) = fun _ => 0 := funext fun a => by fin_cases a <;> rfl

/-- One tile's step of the running maximum: the larger of the running value and the row maxima of the tile's selected
    squared feature distances. -/
def stepMax (x0 x1 : Vec F S1024x3 .f32) (x2 x3 : Vec F S1024x32 .f32) (s : Vec F S1024 .f32) : Vec F S1024 .f32 :=
  k0_pay2 (k0_pay8 x0 x1) (k0_pay10 x3) (k0_pay11 x2) (k0_pay12 x3) (k0_pay13 x2) s

/-- One tile's step of the running minimum. -/
def stepMin (x0 x1 : Vec F S1024x3 .f32) (x2 x3 : Vec F S1024x32 .f32) (s : Vec F S1024 .f32) : Vec F S1024 .f32 :=
  k0_pay3 (k0_pay8 x0 x1) (k0_pay10 x3) (k0_pay11 x2) (k0_pay12 x3) (k0_pay13 x2) s

/-! ## What each control case leaves

  At a row block's first tile the two running buffers are reset (to zero, to the squared fill) and then stepped; at
  the other tiles they are stepped from what the tile before left; at the last tile the outputs receive the square
  roots of the stepped buffers. -/

theorem caseA_max (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x32 .f32) (harg4 : arg4.IsWhole) (arg5 : Memref sig .tc .vmem S1024x32 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1024 .f32) (harg9 : arg9.IsWhole) (hc0 : cond0_0 i) (hc1 : ¬cond0_1 i) (x0 : Vec F S1024x3 .f32) (x1 : Vec F S1024x3 .f32) (x2 : Vec F S1024x32 .f32) (x3 : Vec F S1024x32 .f32) :
    sout0_A_0 c i arg2 harg2 arg3 harg3 arg4 harg4 arg5 harg5 arg6 harg6 arg7 harg7 arg8 harg8 arg9 harg9 hc0 hc1 x0 x1 x2 x3 = stepMax x0 x1 x2 x3 k0_pay6 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024) hz1, View.readCov_unit_zero (S := S1024) _ hz1]
  simp only [View.readAt_eq_ld, harg2.read_unread, harg3.read_unread, harg4.read_unread, harg5.read_unread, harg8.read_unread, harg9.read_unread,
    View.ld_unit_zero (S := S1024x3) hz2, View.ld_unit_zero (S := S1024x32) hz2, View.ld_unit_zero (S := S1024) hz1]
  rfl

theorem caseA_min (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x32 .f32) (harg4 : arg4.IsWhole) (arg5 : Memref sig .tc .vmem S1024x32 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1024 .f32) (harg9 : arg9.IsWhole) (hc0 : cond0_0 i) (hc1 : ¬cond0_1 i) (x0 : Vec F S1024x3 .f32) (x1 : Vec F S1024x3 .f32) (x2 : Vec F S1024x32 .f32) (x3 : Vec F S1024x32 .f32) :
    sout0_A_1 c i arg2 harg2 arg3 harg3 arg4 harg4 arg5 harg5 arg6 harg6 arg7 harg7 arg8 harg8 arg9 harg9 hc0 hc1 x0 x1 x2 x3 = stepMin x0 x1 x2 x3 k0_pay7 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024) hz1, View.readCov_unit_zero (S := S1024) _ hz1]
  simp only [View.readAt_eq_ld, harg2.read_unread, harg3.read_unread, harg4.read_unread, harg5.read_unread, harg8.read_unread, harg9.read_unread,
    View.ld_unit_zero (S := S1024x3) hz2, View.ld_unit_zero (S := S1024x32) hz2, View.ld_unit_zero (S := S1024) hz1]
  rfl

theorem caseB_max (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x32 .f32) (harg4 : arg4.IsWhole) (arg5 : Memref sig .tc .vmem S1024x32 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1024 .f32) (harg9 : arg9.IsWhole) (hc0 : ¬cond0_0 i) (hc1 : ¬cond0_1 i) (x0 : Vec F S1024x3 .f32) (x1 : Vec F S1024x3 .f32) (x2 : Vec F S1024x32 .f32) (x3 : Vec F S1024x32 .f32) (xs0 xs1 : Vec F S1024 .f32) :
    sout0_B_0 c i arg2 harg2 arg3 harg3 arg4 harg4 arg5 harg5 arg6 harg6 arg7 harg7 arg8 harg8 arg9 harg9 hc0 hc1 x0 x1 x2 x3 xs0 xs1 = stepMax x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz1]
  simp only [View.readAt_eq_ld, harg2.read_unread, harg3.read_unread, harg4.read_unread, harg5.read_unread, harg8.read_unread, harg9.read_unread,
    View.ld_unit_zero (S := S1024x3) hz2, View.ld_unit_zero (S := S1024x32) hz2, View.ld_unit_zero (S := S1024) hz1]
  rfl

theorem caseB_min (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x32 .f32) (harg4 : arg4.IsWhole) (arg5 : Memref sig .tc .vmem S1024x32 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1024 .f32) (harg9 : arg9.IsWhole) (hc0 : ¬cond0_0 i) (hc1 : ¬cond0_1 i) (x0 : Vec F S1024x3 .f32) (x1 : Vec F S1024x3 .f32) (x2 : Vec F S1024x32 .f32) (x3 : Vec F S1024x32 .f32) (xs0 xs1 : Vec F S1024 .f32) :
    sout0_B_1 c i arg2 harg2 arg3 harg3 arg4 harg4 arg5 harg5 arg6 harg6 arg7 harg7 arg8 harg8 arg9 harg9 hc0 hc1 x0 x1 x2 x3 xs0 xs1 = stepMin x0 x1 x2 x3 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz1]
  simp only [View.readAt_eq_ld, harg2.read_unread, harg3.read_unread, harg4.read_unread, harg5.read_unread, harg8.read_unread, harg9.read_unread,
    View.ld_unit_zero (S := S1024x3) hz2, View.ld_unit_zero (S := S1024x32) hz2, View.ld_unit_zero (S := S1024) hz1]
  rfl

theorem caseC_max (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x32 .f32) (harg4 : arg4.IsWhole) (arg5 : Memref sig .tc .vmem S1024x32 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1024 .f32) (harg9 : arg9.IsWhole) (hc0 : ¬cond0_0 i) (hc1 : cond0_1 i) (x0 : Vec F S1024x3 .f32) (x1 : Vec F S1024x3 .f32) (x2 : Vec F S1024x32 .f32) (x3 : Vec F S1024x32 .f32) (xs0 xs1 : Vec F S1024 .f32) :
    sout0_C_0 c i arg2 harg2 arg3 harg3 arg4 harg4 arg5 harg5 arg6 harg6 arg7 harg7 arg8 harg8 arg9 harg9 hc0 hc1 x0 x1 x2 x3 xs0 xs1 = stepMax x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz1]
  simp only [View.readAt_eq_ld, harg2.read_unread, harg3.read_unread, harg4.read_unread, harg5.read_unread, harg8.read_unread, harg9.read_unread,
    View.ld_unit_zero (S := S1024x3) hz2, View.ld_unit_zero (S := S1024x32) hz2, View.ld_unit_zero (S := S1024) hz1]
  rfl

theorem caseC_min (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x32 .f32) (harg4 : arg4.IsWhole) (arg5 : Memref sig .tc .vmem S1024x32 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1024 .f32) (harg9 : arg9.IsWhole) (hc0 : ¬cond0_0 i) (hc1 : cond0_1 i) (x0 : Vec F S1024x3 .f32) (x1 : Vec F S1024x3 .f32) (x2 : Vec F S1024x32 .f32) (x3 : Vec F S1024x32 .f32) (xs0 xs1 : Vec F S1024 .f32) :
    sout0_C_1 c i arg2 harg2 arg3 harg3 arg4 harg4 arg5 harg5 arg6 harg6 arg7 harg7 arg8 harg8 arg9 harg9 hc0 hc1 x0 x1 x2 x3 xs0 xs1 = stepMin x0 x1 x2 x3 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz1]
  simp only [View.readAt_eq_ld, harg2.read_unread, harg3.read_unread, harg4.read_unread, harg5.read_unread, harg8.read_unread, harg9.read_unread,
    View.ld_unit_zero (S := S1024x3) hz2, View.ld_unit_zero (S := S1024x32) hz2, View.ld_unit_zero (S := S1024) hz1]
  rfl

theorem caseC_out4 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x32 .f32) (harg4 : arg4.IsWhole) (arg5 : Memref sig .tc .vmem S1024x32 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1024 .f32) (harg9 : arg9.IsWhole) (hc0 : ¬cond0_0 i) (hc1 : cond0_1 i) (x0 : Vec F S1024x3 .f32) (x1 : Vec F S1024x3 .f32) (x2 : Vec F S1024x32 .f32) (x3 : Vec F S1024x32 .f32) (xs0 xs1 : Vec F S1024 .f32) :
    out0_C_4 c i arg2 harg2 arg3 harg3 arg4 harg4 arg5 harg5 arg6 harg6 arg7 harg7 arg8 harg8 arg9 harg9 hc0 hc1 x0 x1 x2 x3 xs0 xs1 = k0_pay4 (stepMax x0 x1 x2 x3 xs0) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz1, View.readCov_unit_zero (S := S1024) _ hz1]
  simp only [View.readAt_eq_ld, harg2.read_unread, harg3.read_unread, harg4.read_unread, harg5.read_unread, harg8.read_unread, harg9.read_unread,
    View.ld_unit_zero (S := S1024x3) hz2, View.ld_unit_zero (S := S1024x32) hz2, View.ld_unit_zero (S := S1024) hz1]
  rfl

theorem caseC_out5 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x32 .f32) (harg4 : arg4.IsWhole) (arg5 : Memref sig .tc .vmem S1024x32 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1024 .f32) (harg9 : arg9.IsWhole) (hc0 : ¬cond0_0 i) (hc1 : cond0_1 i) (x0 : Vec F S1024x3 .f32) (x1 : Vec F S1024x3 .f32) (x2 : Vec F S1024x32 .f32) (x3 : Vec F S1024x32 .f32) (xs0 xs1 : Vec F S1024 .f32) :
    out0_C_5 c i arg2 harg2 arg3 harg3 arg4 harg4 arg5 harg5 arg6 harg6 arg7 harg7 arg8 harg8 arg9 harg9 hc0 hc1 x0 x1 x2 x3 xs0 xs1 = k0_pay5 (stepMin x0 x1 x2 x3 xs1) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz1, View.readCov_unit_zero (S := S1024) _ hz1]
  simp only [View.readAt_eq_ld, harg2.read_unread, harg3.read_unread, harg4.read_unread, harg5.read_unread, harg8.read_unread, harg9.read_unread,
    View.ld_unit_zero (S := S1024x3) hz2, View.ld_unit_zero (S := S1024x32) hz2, View.ld_unit_zero (S := S1024) hz1]
  rfl

end Cert.KerCases
end
-- ==== Proof.KerLayout.lean ====
/-
  Three layout operations of small shapes read at an index: a column broadcast along its rows, a vector cast to a
  column, and a column transposed to a row.
-/
import Idealize.ShloMosaic.Lib.ValueIdx
import Idealize.ShloMosaic.Lib.ValueLayout
import Idealize.ShloMosaic.Lib.Pipeline.Value

namespace Cert.KerLayout

open Idealize.ShloMosaic Idealize.ShloMosaic.ValueIdx

variable {α : Type}

/-- An [a, 1] column broadcast to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] vector cast to an [a, 1] column reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.KerLayout
-- ==== Proof.KerPointDist.lean ====
/-
  The kernel's squared point distance at lane l of row r of a tile: the squared coordinate differences of the
  row's point and the lane's point, added up from zero.
-/
import proofs.«167056_j70995809402955_2_alg».proof.Proof.Gen.KernelIdeal.Skeleton
import proofs.«167056_j70995809402955_2_alg».proof.Proof.KerLayout
import Idealize.ShloMosaic.PureOps.Ideal.Laws

noncomputable section

namespace Cert.KerPay

open Idealize.ShloMosaic Idealize.ShloMosaic.ValueIdx Cert.KernelIdeal Cert.KernelIdeal.Gen Cert.KerLayout

variable {α : Type}

/-- A column of 1024 entries transposed to a row reads, at (u, l), the column at (l, u). -/
theorem transpose_col (v : S1024x1.Idx → α) (u : Fin 1) (l : Fin 1024) :
    transpose S1x1024 [1, 0] v transposes_S1024x1_p1_0_S1x1024 (ix2 u l) = v (ix2 l u) :=
  transpose_ix2_apply v _ _ _

/-- Column 0 of a block of points. -/
theorem slice_col0 (v : S1024x3.Idx → α) (r : Fin 1024) (u : Fin 1) :
    extractStridedSlice S1024x1 ![0, 0] v slices_S1024x3_o0_0_S1024x1 (ix2 r u) = v (ix2 r (0 : Fin 3)) :=
  slice2_axis1_apply 0 v _ r u (0 : Fin 3) (by have := u.isLt; show 0 = 0 + u.val; omega)

/-- Column 1 of a block of points. -/
theorem slice_col1 (v : S1024x3.Idx → α) (r : Fin 1024) (u : Fin 1) :
    extractStridedSlice S1024x1 ![0, 1] v slices_S1024x3_o0_1_S1024x1 (ix2 r u) = v (ix2 r (1 : Fin 3)) :=
  slice2_axis1_apply 1 v _ r u (1 : Fin 3) (by have := u.isLt; show 1 = 1 + u.val; omega)

/-- Column 2 of a block of points. -/
theorem slice_col2 (v : S1024x3.Idx → α) (r : Fin 1024) (u : Fin 1) :
    extractStridedSlice S1024x1 ![0, 2] v slices_S1024x3_o0_2_S1024x1 (ix2 r u) = v (ix2 r (2 : Fin 3)) :=
  slice2_axis1_apply 2 v _ r u (2 : Fin 3) (by have := u.isLt; show 2 = 2 + u.val; omega)

/-- Entry (r, l) of the tile of squared point distances, over the two blocks of points. -/
theorem pointDist_apply (x0 x1 : Vec Ideal S1024x3 .f32) (r l : Fin 1024) :
    k0_pay8 (F := Ideal) x0 x1 (ix2 r l)
      = ((Ideal.ofBits .f32 0x00000000#32 + (x0 (ix2 r (0 : Fin 3)) - x1 (ix2 l (0 : Fin 3))) * (x0 (ix2 r (0 : Fin 3)) - x1 (ix2 l (0 : Fin 3))))
          + (x0 (ix2 r (1 : Fin 3)) - x1 (ix2 l (1 : Fin 3))) * (x0 (ix2 r (1 : Fin 3)) - x1 (ix2 l (1 : Fin 3))))
          + (x0 (ix2 r (2 : Fin 3)) - x1 (ix2 l (2 : Fin 3))) * (x0 (ix2 r (2 : Fin 3)) - x1 (ix2 l (2 : Fin 3))) := by
  unfold k0_pay8
  simp only [addf_apply, mulf_apply, subf_apply, broadcast_apply, shapeCast_self,
    broadcastTo_a1_ab_apply, broadcastTo_1b_ab_apply, slice_col0, slice_col1, slice_col2]
  erw [transpose_col, transpose_col, transpose_col]
  simp only [slice_col0, slice_col1, slice_col2]
  rfl

end Cert.KerPay

end
-- ==== Proof.KerFeatDist.lean ====
/-
  The kernel's squared feature distance at lane l of row r of a tile: the squared norm of the row's features plus
  the squared norm of the lane's features minus twice their inner product, clamped at zero, plus epsilon.
  The inner product is the matrix product of the row block with the transposed lane block, read as a sum over
  the 32 feature coordinates.
-/
import proofs.«167056_j70995809402955_2_alg».proof.Proof.KerPointDist

noncomputable section

namespace Cert.KerPay

open Idealize.ShloMosaic Idealize.ShloMosaic.ValueIdx Cert.KernelIdeal Cert.KernelIdeal.Gen Cert.KerLayout

/-- The index a row sum over the 32 coordinates reads at row r, coordinate k. -/
theorem lift_row (r : Fin 1024) (k : Fin 32) : reduces_S1024x32_S1024.lift (ix1 r) k = ix2 r k :=
  funext fun a => Fin.ext (by match a with | ⟨0, _⟩ => rfl | ⟨1, _⟩ => rfl)

/-- The squared norm of row r of a feature block, kept as a column. -/
theorem rowSq_apply (x : Vec Ideal S1024x32 .f32) (r : Fin 1024) (u : Fin 1) :
    k0_pay11 (F := Ideal) x (ix2 r u) = ∑ c : Fin 32, x (ix2 r c) * x (ix2 r c) := by
  unfold k0_pay11 k0_pay9
  refine (shapeCast_a_a1_apply _ _ r u).trans ?_
  refine (Ideal.multiReduction_add_single _ 0x00000000#32 reduces_S1024x32_S1024 (.inl rfl) rfl (ix1 r)).trans ?_
  show (∑ k : Fin 32, (mulf (shapeCast S1024x32 x shapeCasts_S1024x32_S1024x32 : FVec Ideal S1024x32 .f32) (shapeCast S1024x32 x shapeCasts_S1024x32_S1024x32 : FVec Ideal S1024x32 .f32) : FVec Ideal S1024x32 .f32)
    (reduces_S1024x32_S1024.lift (ix1 r) k)) = _
  refine Finset.sum_congr rfl fun k _ => ?_
  rw [lift_row, shapeCast_self]
  rfl

/-- The squared norm of row l of a feature block, kept as a row. -/
theorem colSq_apply (x : Vec Ideal S1024x32 .f32) (u : Fin 1) (l : Fin 1024) :
    k0_pay12 (F := Ideal) x (ix2 u l) = ∑ c : Fin 32, x (ix2 l c) * x (ix2 l c) := by
  unfold k0_pay12 k0_pay10
  refine (transpose_col _ u l).trans ?_
  refine (shapeCast_a_a1_apply _ _ l u).trans ?_
  refine (Ideal.multiReduction_add_single _ 0x00000000#32 reduces_S1024x32_S1024 (.inl rfl) rfl (ix1 l)).trans ?_
  show (∑ k : Fin 32, (mulf (shapeCast S1024x32 x shapeCasts_S1024x32_S1024x32 : FVec Ideal S1024x32 .f32) (shapeCast S1024x32 x shapeCasts_S1024x32_S1024x32 : FVec Ideal S1024x32 .f32) : FVec Ideal S1024x32 .f32)
    (reduces_S1024x32_S1024.lift (ix1 l) k)) = _
  refine Finset.sum_congr rfl fun k _ => ?_
  rw [lift_row, shapeCast_self]
  rfl

theorem lhs_axis0 (i : S1024x1024.Idx) (q : dot_S1024x32_S32x1024_S1024x1024_1_0_0_1_n_n.contr.Idx) :
    (dot_S1024x32_S32x1024_S1024x1024_1_0_0_1_n_n.lhsIdx i q 0).val = (i 0).val := by
  unfold DotDims.lhsIdx
  rw [dif_neg (show ¬(0 : Fin S1024x32.rank) ∈ dot_S1024x32_S32x1024_S1024x1024_1_0_0_1_n_n.lhsBatch by decide), dif_pos (show (0 : Fin S1024x32.rank) ∈ dot_S1024x32_S32x1024_S1024x1024_1_0_0_1_n_n.lhsNonContracting by decide)]
  rfl
theorem lhs_axis1 (i : S1024x1024.Idx) (q : dot_S1024x32_S32x1024_S1024x1024_1_0_0_1_n_n.contr.Idx) :
    (dot_S1024x32_S32x1024_S1024x1024_1_0_0_1_n_n.lhsIdx i q 1).val = (q ⟨0, by decide⟩).val :=
  dot_S1024x32_S32x1024_S1024x1024_1_0_0_1_n_n.lhsIdx_val_of_single rfl i q
theorem rhs_axis0 (i : S1024x1024.Idx) (q : dot_S1024x32_S32x1024_S1024x1024_1_0_0_1_n_n.contr.Idx) :
    (dot_S1024x32_S32x1024_S1024x1024_1_0_0_1_n_n.rhsIdx i q 0).val = (q ⟨0, by decide⟩).val :=
  dot_S1024x32_S32x1024_S1024x1024_1_0_0_1_n_n.rhsIdx_val_of_single rfl i q
theorem rhs_axis1 (i : S1024x1024.Idx) (q : dot_S1024x32_S32x1024_S1024x1024_1_0_0_1_n_n.contr.Idx) :
    (dot_S1024x32_S32x1024_S1024x1024_1_0_0_1_n_n.rhsIdx i q 1).val = (i 1).val := by
  unfold DotDims.rhsIdx
  rw [dif_neg (show ¬(1 : Fin S32x1024.rank) ∈ dot_S1024x32_S32x1024_S1024x1024_1_0_0_1_n_n.rhsBatch by decide), dif_pos (show (1 : Fin S32x1024.rank) ∈ dot_S1024x32_S32x1024_S1024x1024_1_0_0_1_n_n.rhsNonContracting by decide)]
  rfl

/-- Entry (r, l) of the product of the row block with the transposed lane block: the inner product of the two
    feature rows. -/
theorem cross_apply (x2 x3 : Vec Ideal S1024x32 .f32) (r l : Fin 1024) :
    matmul (F := Ideal) dot_S1024x32_S32x1024_S1024x1024_1_0_0_1_n_n none (k0_pay13 (F := Ideal) x2)
        (transpose S32x1024 [1, 0] (truncf .bf16 (k0_pay10 (F := Ideal) x3) bitsLt_bf16_f32) transposes_S1024x32_p1_0_S32x1024)
        (constant S1024x1024 .f32 0x00000000#32) (ix2 r l)
      = ∑ c : Fin 32, x2 (ix2 r c) * x3 (ix2 l c) := by
  refine (Ideal.matmul_constant_zero_apply dot_S1024x32_S32x1024_S1024x1024_1_0_0_1_n_n none _ _ (ix2 r l)).trans ?_
  rw [← Equiv.sum_comp (contrEquiv1 dot_S1024x32_S32x1024_S1024x1024_1_0_0_1_n_n 32 rfl rfl).symm]
  refine Finset.sum_congr rfl fun k _ => ?_
  have hk := contrEquiv1_symm_val dot_S1024x32_S32x1024_S1024x1024_1_0_0_1_n_n 32 rfl rfl k
  have el : dot_S1024x32_S32x1024_S1024x1024_1_0_0_1_n_n.lhsIdx (ix2 r l) ((contrEquiv1 dot_S1024x32_S32x1024_S1024x1024_1_0_0_1_n_n 32 rfl rfl).symm k) = ix2 r k := funext fun a => Fin.ext (by
    match a with
    | ⟨0, _⟩ => exact lhs_axis0 _ _
    | ⟨1, _⟩ => exact (lhs_axis1 _ _).trans hk)
  have er : dot_S1024x32_S32x1024_S1024x1024_1_0_0_1_n_n.rhsIdx (ix2 r l) ((contrEquiv1 dot_S1024x32_S32x1024_S1024x1024_1_0_0_1_n_n 32 rfl rfl).symm k) = ix2 k l := funext fun a => Fin.ext (by
    match a with
    | ⟨0, _⟩ => exact (rhs_axis0 _ _).trans hk
    | ⟨1, _⟩ => exact rhs_axis1 _ _)
  rw [el, er]
  refine congrArg₂ (· * ·) ?_ ?_
  · unfold k0_pay13 k0_pay9
    show shapeCast S1024x32 x2 shapeCasts_S1024x32_S1024x32 (ix2 r k) = _
    rw [shapeCast_self]
  · refine (transpose_ix2_apply _ _ k l).trans ?_
    unfold k0_pay10
    show shapeCast S1024x32 x3 shapeCasts_S1024x32_S1024x32 (ix2 l k) = _
    rw [shapeCast_self]

/-- Entry (r, l) of the tile of squared feature distances, over the two blocks of features. -/
theorem featDist_apply (x2 x3 : Vec Ideal S1024x32 .f32) (r l : Fin 1024) :
    k0_pay1 (F := Ideal) (k0_pay10 x3) (k0_pay11 x2) (k0_pay12 x3) (k0_pay13 x2) (ix2 r l)
      = max (((∑ c : Fin 32, x2 (ix2 r c) * x2 (ix2 r c)) + (∑ c : Fin 32, x3 (ix2 l c) * x3 (ix2 l c)))
              - Ideal.ofBits .f32 0x40000000#32 * ∑ c : Fin 32, x2 (ix2 r c) * x3 (ix2 l c))
            (Ideal.ofBits .f32 0x00000000#32)
          + Ideal.ofBits .f32 0x33D6BF95#32 := by
  unfold k0_pay1
  simp only [addf_apply, mulf_apply, subf_apply, maximumf_apply, broadcast_apply,
    broadcastTo_a1_ab_apply, broadcastTo_1b_ab_apply]
  erw [rowSq_apply, colSq_apply, cross_apply]
  rfl

end Cert.KerPay

end
-- ==== Proof.KerTile.lean ====
/-
  One tile's step of the two running buffers, read at row r of the row block, at the ideal values: the larger of
  the running value and the maximum over the tile's 1024 lanes of the squared feature distance where the squared
  point distance is below the positive threshold (zero elsewhere); the smaller of the running value and the
  minimum over the lanes of the squared feature distance where the squared point distance is above the negative
  threshold (the squared fill elsewhere).
-/
import proofs.«167056_j70995809402955_2_alg».proof.Proof.KerCases
import proofs.«167056_j70995809402955_2_alg».proof.Proof.KerFeatDist
import Idealize.ShloMosaic.PureOps.IdealRules

noncomputable section

namespace Cert.KerTile

open Idealize.ShloMosaic Idealize.ShloMosaic.ValueIdx Cert.KernelIdeal Cert.KernelIdeal.Gen Cert.KerLayout Cert.KerPay Cert.KerCases

/-- A select on a strict less-than is an if. -/
theorem select_lt {α : Type} (a b : EReal) (x y : α) : Scalar.select (Ideal.cmp .olt a b) x y = if a < b then x else y := by
  by_cases h : a < b
  · have e : Ideal.cmp .olt a b = 1#1 := by simp [Ideal.cmp, h]
    rw [e, select_one, if_pos h]
  · have e : Ideal.cmp .olt a b = 0#1 := by simp [Ideal.cmp, h]
    rw [e, select_zero, if_neg h]

/-- A select on a strict greater-than is an if. -/
theorem select_gt {α : Type} (a b : EReal) (x y : α) : Scalar.select (Ideal.cmp .ogt a b) x y = if b < a then x else y := by
  by_cases h : b < a
  · have e : Ideal.cmp .ogt a b = 1#1 := by simp [Ideal.cmp, h]
    rw [e, select_one, if_pos h]
  · have e : Ideal.cmp .ogt a b = 0#1 := by simp [Ideal.cmp, h]
    rw [e, select_zero, if_neg h]

/-- The positive threshold of the squared domain, as the rational its name denotes. -/
theorem thrPos : Named.named (F := Ideal) Cert.KernelIdeal.κ "pos_radius_sq_minus_eps" (φ := .f32) 0x3AB84E91#32
    = ((25330948477353 / 18014398509481984 : ℝ) : EReal) :=
  IdealRules.named_const.ideal_named_scalar _ _ _ _ rfl

/-- The negative threshold of the squared domain, as the rational its name denotes. -/
theorem thrNeg : Named.named (F := Ideal) Cert.KernelIdeal.κ "neg_radius_sq_minus_eps" (φ := .f32) 0x3C23D69F#32
    = ((180142189023657 / 18014398509481984 : ℝ) : EReal) :=
  IdealRules.named_const.ideal_named_scalar _ _ _ _ rfl

/-- The squared point distance of row r of the first block and row l of the second. -/
def blkPoint (x0 x1 : Vec Ideal S1024x3 .f32) (r l : Fin 1024) : EReal :=
  ((Ideal.ofBits .f32 0x00000000#32 + (x0 (ix2 r (0 : Fin 3)) - x1 (ix2 l (0 : Fin 3))) * (x0 (ix2 r (0 : Fin 3)) - x1 (ix2 l (0 : Fin 3))))
      + (x0 (ix2 r (1 : Fin 3)) - x1 (ix2 l (1 : Fin 3))) * (x0 (ix2 r (1 : Fin 3)) - x1 (ix2 l (1 : Fin 3))))
      + (x0 (ix2 r (2 : Fin 3)) - x1 (ix2 l (2 : Fin 3))) * (x0 (ix2 r (2 : Fin 3)) - x1 (ix2 l (2 : Fin 3)))

/-- The squared feature distance of row r of the first block and row l of the second. -/
def blkFeat (x2 x3 : Vec Ideal S1024x32 .f32) (r l : Fin 1024) : EReal :=
  max (((∑ c : Fin 32, x2 (ix2 r c) * x2 (ix2 r c)) + (∑ c : Fin 32, x3 (ix2 l c) * x3 (ix2 l c)))
          - Ideal.ofBits .f32 0x40000000#32 * ∑ c : Fin 32, x2 (ix2 r c) * x3 (ix2 l c))
        (Ideal.ofBits .f32 0x00000000#32)
      + Ideal.ofBits .f32 0x33D6BF95#32

/-- The index a lane reduction of a 1024 x 1024 tile reads at row r, lane l. -/
theorem lift_tile (r l : Fin 1024) : reduces_S1024x1024_S1024.lift (ix1 r) l = ix2 r l :=
  funext fun a => Fin.ext (by match a with | ⟨0, _⟩ => rfl | ⟨1, _⟩ => rfl)

/-- A lane minimum over one axis, at the ideal values: the fold of min from the accumulator's value over that axis's
    coordinates. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

variable {F : FTy → Type} [FloatOps F] [Named F]

/-- The row maxima of a tile's squared feature distances where the squared point distance is below the positive
    threshold (zero elsewhere). -/
def rowMaxSel (v31 : FVec F S1024x1024 .f32) (v35 : FVec F S1024x32 .f32) (v38 : FVec F S1024x1 .f32) (v42 : FVec F S1x1024 .f32)
    (v43 : FVec F S1024x32 .bf16) : FVec F S1024 .f32 :=
  multiReduction .maximumf [1] S1024
    (select (cmpf .olt v31 (broadcast S1024x1024 (Named.named κ "pos_radius_sq_minus_eps" 0x3AB84E91#32 : F .f32)))
      (k0_pay1 v35 v38 v42 v43) (broadcast S1024x1024 (Scalar.ofBits .f32 0x00000000#32 : F .f32)))
    0xFF800000#32 reduces_S1024x1024_S1024 (.inl rfl) rfl

/-- The row minima of a tile's squared feature distances where the squared point distance is above the negative
    threshold (the squared fill elsewhere). -/
def rowMinSel (v31 : FVec F S1024x1024 .f32) (v35 : FVec F S1024x32 .f32) (v38 : FVec F S1024x1 .f32) (v42 : FVec F S1x1024 .f32)
    (v43 : FVec F S1024x32 .bf16) : FVec F S1024 .f32 :=
  multiReduction .minimumf [1] S1024
    (select (cmpf .ogt v31 (broadcast S1024x1024 (Named.named κ "neg_radius_sq_minus_eps" 0x3C23D69F#32 : F .f32)))
      (k0_pay1 v35 v38 v42 v43) (broadcast S1024x1024 (Scalar.ofBits .f32 0x501502F9#32 : F .f32)))
    0x7F800000#32 reduces_S1024x1024_S1024 (.inl rfl) rfl

/-- The stored running maximum is the larger of the loaded one and the row maxima. -/
theorem pay2_eq (v31 : FVec F S1024x1024 .f32) (v35 : FVec F S1024x32 .f32) (v38 : FVec F S1024x1 .f32) (v42 : FVec F S1x1024 .f32)
    (v43 : FVec F S1024x32 .bf16) (v65 : Vec F S1024 .f32) :
    k0_pay2 v31 v35 v38 v42 v43 v65 = maximumf v65 (rowMaxSel v31 v35 v38 v42 v43) := by
  unfold k0_pay2 rowMaxSel
  exact shapeCast_self _ _

/-- The stored running minimum is the smaller of the loaded one and the row minima. -/
theorem pay3_eq (v31 : FVec F S1024x1024 .f32) (v35 : FVec F S1024x32 .f32) (v38 : FVec F S1024x1 .f32) (v42 : FVec F S1x1024 .f32)
    (v43 : FVec F S1024x32 .bf16) (v71 : Vec F S1024 .f32) :
    k0_pay3 v31 v35 v38 v42 v43 v71 = minimumf v71 (rowMinSel v31 v35 v38 v42 v43) := by
  unfold k0_pay3 rowMinSel
  exact shapeCast_self _ _

/-- The row maxima at row r, over the blocks. -/
theorem rowMaxSel_apply (x0 x1 : Vec Ideal S1024x3 .f32) (x2 x3 : Vec Ideal S1024x32 .f32) (r : Fin 1024) :
    rowMaxSel (F := Ideal) (k0_pay8 x0 x1) (k0_pay10 x3) (k0_pay11 x2) (k0_pay12 x3) (k0_pay13 x2) (ix1 r)
      = (Finset.univ : Finset (Fin 1024)).fold max (Ideal.ofBits .f32 0xFF800000#32)
          (fun l => if blkPoint x0 x1 r l < ((25330948477353 / 18014398509481984 : ℝ) : EReal) then blkFeat x2 x3 r l
                    else Ideal.ofBits .f32 0x00000000#32) := by
  unfold rowMaxSel
  refine (Ideal.multiReduction_maximumf_single _ _ _ _ _ (ix1 r)).trans ?_
  refine congrArg (fun f : Fin 1024 → EReal => (Finset.univ : Finset (Fin 1024)).fold max (Ideal.ofBits .f32 0xFF800000#32) f) (funext fun (l : Fin 1024) => ?_)
  show select _ _ _ (reduces_S1024x1024_S1024.lift (ix1 r) l) = _
  rw [lift_tile, select_apply, cmpf_apply, broadcast_apply, broadcast_apply, pointDist_apply, featDist_apply]
  erw [thrPos]
  exact select_lt _ _ _ _

/-- The row minima at row r, over the blocks. -/
theorem rowMinSel_apply (x0 x1 : Vec Ideal S1024x3 .f32) (x2 x3 : Vec Ideal S1024x32 .f32) (r : Fin 1024) :
    rowMinSel (F := Ideal) (k0_pay8 x0 x1) (k0_pay10 x3) (k0_pay11 x2) (k0_pay12 x3) (k0_pay13 x2) (ix1 r)
      = (Finset.univ : Finset (Fin 1024)).fold min (Ideal.ofBits .f32 0x7F800000#32)
          (fun l => if ((180142189023657 / 18014398509481984 : ℝ) : EReal) < blkPoint x0 x1 r l then blkFeat x2 x3 r l
                    else Ideal.ofBits .f32 0x501502F9#32) := by
  unfold rowMinSel
  refine (multiReduction_minimumf_single _ _ _ _ _ (ix1 r)).trans ?_
  refine congrArg (fun f : Fin 1024 → EReal => (Finset.univ : Finset (Fin 1024)).fold min (Ideal.ofBits .f32 0x7F800000#32) f) (funext fun (l : Fin 1024) => ?_)
  show select _ _ _ (reduces_S1024x1024_S1024.lift (ix1 r) l) = _
  rw [lift_tile, select_apply, cmpf_apply, broadcast_apply, broadcast_apply, pointDist_apply, featDist_apply]
  erw [thrNeg]
  exact select_gt _ _ _ _

/-- One step of the running maximum at row r. -/
theorem stepMax_apply (x0 x1 : Vec Ideal S1024x3 .f32) (x2 x3 : Vec Ideal S1024x32 .f32) (s : Vec Ideal S1024 .f32) (r : Fin 1024) :
    stepMax (F := Ideal) x0 x1 x2 x3 s (ix1 r)
      = max (s (ix1 r)) ((Finset.univ : Finset (Fin 1024)).fold max (Ideal.ofBits .f32 0xFF800000#32)
          (fun l => if blkPoint x0 x1 r l < ((25330948477353 / 18014398509481984 : ℝ) : EReal) then blkFeat x2 x3 r l
                    else Ideal.ofBits .f32 0x00000000#32)) := by
  unfold stepMax
  rw [pay2_eq]
  exact congrArg (max (s (ix1 r))) (rowMaxSel_apply x0 x1 x2 x3 r)

/-- One step of the running minimum at row r. -/
theorem stepMin_apply (x0 x1 : Vec Ideal S1024x3 .f32) (x2 x3 : Vec Ideal S1024x32 .f32) (s : Vec Ideal S1024 .f32) (r : Fin 1024) :
    stepMin (F := Ideal) x0 x1 x2 x3 s (ix1 r)
      = min (s (ix1 r)) ((Finset.univ : Finset (Fin 1024)).fold min (Ideal.ofBits .f32 0x7F800000#32)
          (fun l => if ((180142189023657 / 18014398509481984 : ℝ) : EReal) < blkPoint x0 x1 r l then blkFeat x2 x3 r l
                    else Ideal.ofBits .f32 0x501502F9#32)) := by
  unfold stepMin
  rw [pay3_eq]
  exact congrArg (min (s (ix1 r))) (rowMinSel_apply x0 x1 x2 x3 r)

/-- The reset value of the running maximum. -/
theorem resetMax_apply (y : S1024.Idx) : k0_pay6 (F := Ideal) y = Ideal.ofBits .f32 0x00000000#32 := by
  unfold k0_pay6; rw [shapeCast_self]; rfl

/-- The reset value of the running minimum. -/
theorem resetMin_apply (y : S1024.Idx) : k0_pay7 (F := Ideal) y = Ideal.ofBits .f32 0x501502F9#32 := by
  unfold k0_pay7; rw [shapeCast_self]; rfl

/-- The outputs are the square roots of the running buffers. -/
theorem outMax_apply (s : Vec Ideal S1024 .f32) (y : S1024.Idx) : k0_pay4 (F := Ideal) s y = Ideal.sqrt (s y) := rfl
theorem outMin_apply (s : Vec Ideal S1024 .f32) (y : S1024.Idx) : k0_pay5 (F := Ideal) s y = Ideal.sqrt (s y) := rfl

end Cert.KerTile

end
-- ==== Proof.KerBlocks.lean ====
/-
  The blocks the kernel's windows stage at grid point t = 8 a + b, read off their arrays: the row-side windows
  (points and features of the rows) hold array rows 1024 a .. 1024 a + 1023, the lane-side windows (points and
  features of the columns) hold array rows 1024 b .. 1024 b + 1023; both outputs' blocks are rows 1024 a .. of theirs.
-/
import proofs.«167056_j70995809402955_2_alg».proof.Proof.Gen.KernelIdeal.Frame
import Idealize.ShloMosaic.Lib.Pipeline.Value
import Idealize.ShloMosaic.Lib.ValueIdx

set_option maxRecDepth 16384

noncomputable section

namespace Cert.KerBlocks

open Idealize.ShloMosaic Idealize.ShloMosaic.TcCoe Idealize.SL.Sem Idealize.ShloMosaic.ValueIdx
open Cert.KernelIdeal Cert.KernelIdeal.Gen

variable {F : FTy → Type} [FloatOps F] [Named F]
variable (m : (ℓ : Loc nD τ sig) → Buf (Elt F) ℓ)

/-- The printed index maps over the 8 x 8 grid: the row-side windows and the outputs follow the row block t / 8, the
    lane-side windows the tile t % 8; the second axis of an input window is never cut. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = t.val % 8 ∧ win0_3.index t (1 : Fin 2) = 0
    ∧ win0_4.index t (0 : Fin 1) = t.val / 8 ∧ win0_5.index t (0 : Fin 1) = t.val / 8 :=
  (by decide +kernel : ∀ t : Fin grid0.N, _)

/-- The row of the arrays that row r of row block t / 8 is. -/
def rowOf (t : Fin cfg0.N) (r : Fin 1024) : Fin 8192 :=
  ⟨1024 * (t.val / 8) + r.val, by have := t.isLt; have hN : cfg0.N = 64 := N_0; have := r.isLt; omega⟩

/-- The row of the arrays that lane l of tile t % 8 is. -/
def laneOf (t : Fin cfg0.N) (l : Fin 1024) : Fin 8192 :=
  ⟨1024 * (t.val % 8) + l.val, by have := l.isLt; omega⟩

/-- Window 0 (the rows' points). -/
theorem blk0 (c : Dev nD) (t : Fin cfg0.N) (r : Fin 1024) (k : Fin 3) :
    (iblk m c 0 t : Vec F S1024x3 .f32) (ix2 r k) = V m c main_v36 (ix2 (rowOf t r) k) := by
  obtain ⟨e0, e1, -⟩ := idx_facts t
  unfold iblk
  rw [View.read_apply]
  show V m c main_v36 _ = V m c main_v36 _
  congr 1
  funext a
  apply Fin.ext
  match a with
  | ⟨0, _⟩ => show win0_0.index t (0 : Fin 2) * 1024 + 1 * r.val = 1024 * (t.val / 8) + r.val; rw [e0]; omega
  | ⟨1, _⟩ => show win0_0.index t (1 : Fin 2) * 3 + 1 * k.val = k.val; rw [e1]; omega

/-- Window 1 (the lanes' points). -/
theorem blk1 (c : Dev nD) (t : Fin cfg0.N) (l : Fin 1024) (k : Fin 3) :
    (iblk m c 1 t : Vec F S1024x3 .f32) (ix2 l k) = V m c main_v17 (ix2 (laneOf t l) k) := by
  obtain ⟨-, -, e0, e1, -⟩ := idx_facts t
  unfold iblk
  rw [View.read_apply]
  show V m c main_v17 _ = V m c main_v17 _
  congr 1
  funext a
  apply Fin.ext
  match a with
  | ⟨0, _⟩ => show win0_1.index t (0 : Fin 2) * 1024 + 1 * l.val = 1024 * (t.val % 8) + l.val; rw [e0]; omega
  | ⟨1, _⟩ => show win0_1.index t (1 : Fin 2) * 3 + 1 * k.val = k.val; rw [e1]; omega

/-- Window 2 (the rows' features). -/
theorem blk2 (c : Dev nD) (t : Fin cfg0.N) (r : Fin 1024) (k : Fin 32) :
    (iblk m c 2 t : Vec F S1024x32 .f32) (ix2 r k) = V m c main_v24 (ix2 (rowOf t r) k) := by
  obtain ⟨-, -, -, -, e0, e1, -⟩ := idx_facts t
  unfold iblk
  rw [View.read_apply]
  show V m c main_v24 _ = V m c main_v24 _
  congr 1
  funext a
  apply Fin.ext
  match a with
  | ⟨0, _⟩ => show win0_2.index t (0 : Fin 2) * 1024 + 1 * r.val = 1024 * (t.val / 8) + r.val; rw [e0]; omega
  | ⟨1, _⟩ => show win0_2.index t (1 : Fin 2) * 32 + 1 * k.val = k.val; rw [e1]; omega

/-- Window 3 (the lanes' features). -/
theorem blk3 (c : Dev nD) (t : Fin cfg0.N) (l : Fin 1024) (k : Fin 32) :
    (iblk m c 3 t : Vec F S1024x32 .f32) (ix2 l k) = V m c main_v31 (ix2 (laneOf t l) k) := by
  obtain ⟨-, -, -, -, -, -, e0, e1, -⟩ := idx_facts t
  unfold iblk
  rw [View.read_apply]
  show V m c main_v31 _ = V m c main_v31 _
  congr 1
  funext a
  apply Fin.ext
  match a with
  | ⟨0, _⟩ => show win0_3.index t (0 : Fin 2) * 1024 + 1 * l.val = 1024 * (t.val % 8) + l.val; rw [e0]; omega
  | ⟨1, _⟩ => show win0_3.index t (1 : Fin 2) * 32 + 1 * k.val = k.val; rw [e1]; omega

end Cert.KerBlocks

end
-- ==== Proof.MathConsts.lean ====
/-
  The values of the float words that occur in the two programs, as extended reals, and the two identities that
  tie the squared-domain thresholds to the radii.

  A 32-bit pattern with sign 0, biased exponent E and fraction T denotes (2^23 + T) * 2^(E - 150); the all-ones
  exponent with zero fraction is an infinity. Each word below is evaluated once, here.
-/
import Idealize.ShloMosaic.PureOps.Ideal
import Idealize.ShloMosaic.PureOps.Ideal.Laws

noncomputable section

namespace Cert.Math

open Idealize.ShloMosaic

/-- The epsilon under the square roots: 14073749 / 2^47. -/
theorem ofBits_eps : Ideal.ofBits .f32 0x33D6BF95#32 = ((14073749 / 140737488355328 : ℝ) : EReal) := by
  simp [Ideal.ofBits, Ideal.ieee, -EReal.coe_mul]; norm_num

/-- The positive radius: 5033165 / 2^27. -/
theorem ofBits_rp : Ideal.ofBits .f32 0x3D19999A#32 = ((5033165 / 134217728 : ℝ) : EReal) := by
  simp [Ideal.ofBits, Ideal.ieee, -EReal.coe_mul]; norm_num

/-- The negative radius (and the positive margin): 13421773 / 2^27. -/
theorem ofBits_rn : Ideal.ofBits .f32 0x3DCCCCCD#32 = ((13421773 / 134217728 : ℝ) : EReal) := by
  simp [Ideal.ofBits, Ideal.ieee, -EReal.coe_mul]; norm_num

/-- The fill: 100000. -/
theorem ofBits_big : Ideal.ofBits .f32 0x47C35000#32 = ((100000 : ℝ) : EReal) := by
  simp [Ideal.ofBits, Ideal.ieee, -EReal.coe_mul]; norm_num

/-- The squared fill: 10^10. -/
theorem ofBits_bigSq : Ideal.ofBits .f32 0x501502F9#32 = ((10000000000 : ℝ) : EReal) := by
  simp [Ideal.ofBits, Ideal.ieee, -EReal.coe_mul]; norm_num

/-- The negative margin: 11744051 / 2^23. -/
theorem ofBits_mneg : Ideal.ofBits .f32 0x3FB33333#32 = ((11744051 / 8388608 : ℝ) : EReal) := by
  simp [Ideal.ofBits, Ideal.ieee, -EReal.coe_mul]; norm_num

/-- The row count: 8192. -/
theorem ofBits_cnt : Ideal.ofBits .f32 0x46000000#32 = ((8192 : ℝ) : EReal) := by
  simp [Ideal.ofBits, Ideal.ieee, -EReal.coe_mul]; norm_num

/-- The word 2.0 denotes 2. -/
theorem ofBits_two : Ideal.ofBits .f32 0x40000000#32 = ((2 : ℝ) : EReal) := by
  simp [Ideal.ofBits, Ideal.ieee, -EReal.coe_mul]; norm_num

/-- The word +0.0 denotes 0. -/
theorem ofBits_zero : Ideal.ofBits .f32 0x00000000#32 = 0 := Ideal.ofBits_zero_f32

/-- The word -inf denotes the bottom element. -/
theorem ofBits_neg_inf : Ideal.ofBits .f32 0xFF800000#32 = ⊥ := by
  simp [Ideal.ofBits, Ideal.ieee]

/-- The word +inf denotes the top element. -/
theorem ofBits_pos_inf : Ideal.ofBits .f32 0x7F800000#32 = ⊤ := by
  simp [Ideal.ofBits, Ideal.ieee]

/-- The positive squared-domain threshold is rp * rp - eps. -/
theorem tp_eq : (25330948477353 / 18014398509481984 : ℝ)
    = (5033165 / 134217728) * (5033165 / 134217728) - 14073749 / 140737488355328 := by norm_num

/-- The negative squared-domain threshold is rn * rn - eps. -/
theorem tn_eq : (180142189023657 / 18014398509481984 : ℝ)
    = (13421773 / 134217728) * (13421773 / 134217728) - 14073749 / 140737488355328 := by norm_num

end Cert.Math

end
-- ==== Proof.Spec.lean ====
/-
  The two programs' results as closed forms, index by index, over the four selected arrays.

  P, Q : 8192 points in space (rows of 3 coordinates); A, B : 8192 feature rows (32 coordinates each).
  Both programs compute, for every row i, the largest feature distance among the columns j whose point
  distance is below a radius, and the smallest among those whose point distance is above another radius,
  and then average two hinge losses over the rows.

  The reference form takes square roots first and tests the distances themselves; it spells the squared
  distance as |x|^2 + |y|^2 - (2x).y, clamped at zero. The kernel form tests the squared point distance,
  spelled as the sum of the squared coordinate differences, against squared-domain thresholds, carries the
  squared feature distance through a running maximum (from 0) and a running minimum (from the squared fill)
  over eight column tiles of 1024 lanes, and takes one square root per row at the end.
-/
import Idealize.ShloMosaic.PureOps.Ideal
import Mathlib.Algebra.BigOperators.Fin

noncomputable section

namespace Cert.Spec

open Idealize.ShloMosaic

/-- The number of rows, and of columns. -/
abbrev N : ℕ := 8192

/-- The constants both forms mention, as extended reals. -/
structure Consts where
  /-- the epsilon added under every square root -/
  eps : EReal
  /-- the radius below which a column is a positive -/
  rp : EReal
  /-- the radius above which a column is a negative -/
  rn : EReal
  /-- the squared-domain threshold for positives -/
  tp : EReal
  /-- the squared-domain threshold for negatives -/
  tn : EReal
  /-- what a row with no negative gets -/
  big : EReal
  /-- the same in the squared domain -/
  bigSq : EReal
  /-- the positive margin -/
  mpos : EReal
  /-- the negative margin -/
  mneg : EReal
  /-- the number of rows as a float -/
  cnt : EReal

variable (k : Consts) (P Q : Fin N → Fin 3 → EReal) (A B : Fin N → Fin 32 → EReal)

/-- max x 0 -/
def relu (x : EReal) : EReal := max x 0

/-! ## The reference form -/

/-- |x_i|^2 + |y_j|^2 - (2 x_i) . y_j, clamped at zero, plus epsilon. -/
def gemmSq {d : ℕ} (X Y : Fin N → Fin d → EReal) (i j : Fin N) : EReal :=
  max (((∑ c, X i c * X i c) + (∑ c, Y j c * Y j c)) - ∑ c, (2 * X i c) * Y j c) 0 + k.eps

/-- The distance of row i of X and row j of Y. -/
def dist {d : ℕ} (X Y : Fin N → Fin d → EReal) (i j : Fin N) : EReal := Ideal.sqrt (gemmSq k X Y i j)

/-- The largest feature distance over the columns within the positive radius (0 where a column is not). -/
def refFpos (i : Fin N) : EReal :=
  (Finset.univ : Finset (Fin N)).fold max ⊥ (fun j => dist k A B i j * (if dist k P Q i j < k.rp then 1 else 0))

/-- The smallest feature distance over the columns beyond the negative radius (the fill where a column is not). -/
def refCneg (i : Fin N) : EReal :=
  (Finset.univ : Finset (Fin N)).fold min ⊤ (fun j => if k.rn < dist k P Q i j then dist k A B i j else k.big)

/-- The mean of the positive hinge plus the mean of the negative hinge. -/
def lossOf (fpos cneg : Fin N → EReal) : EReal :=
  Ideal.div (∑ i, relu (fpos i - k.mpos)) k.cnt + Ideal.div (∑ i, relu (k.mneg - cneg i)) k.cnt

def refLoss : EReal := lossOf k (refFpos k P Q A B) (refCneg k P Q A B)

/-! ## The kernel form -/

/-- The squared point distance as the sum of the squared coordinate differences, added up from zero. -/
def diffSq (i j : Fin N) : EReal :=
  ((0 + (P i 0 - Q j 0) * (P i 0 - Q j 0)) + (P i 1 - Q j 1) * (P i 1 - Q j 1)) + (P i 2 - Q j 2) * (P i 2 - Q j 2)

/-- |a_i|^2 + |b_j|^2 - 2 (a_i . b_j), clamped at zero, plus epsilon. -/
def featSq (i j : Fin N) : EReal :=
  max (((∑ c, A i c * A i c) + (∑ c, B j c * B j c)) - 2 * ∑ c, A i c * B j c) 0 + k.eps

/-- The squared feature distance where the column is a positive, else 0. -/
def selPos (i j : Fin N) : EReal := if diffSq P Q i j < k.tp then featSq k A B i j else 0

/-- The squared feature distance where the column is a negative, else the squared fill. -/
def selNeg (i j : Fin N) : EReal := if k.tn < diffSq P Q i j then featSq k A B i j else k.bigSq

/-- The column that lane l of tile b is (tiles of 1024 columns; reduced mod 8192 so that it is total). -/
def col (b : ℕ) (l : Fin 1024) : Fin N := ⟨(1024 * b + l.val) % 8192, Nat.mod_lt _ (by norm_num)⟩

/-- The maximum of selPos over the lanes of tile b. -/
def tileMax (i : Fin N) (b : ℕ) : EReal :=
  (Finset.univ : Finset (Fin 1024)).fold max ⊥ (fun l => selPos k P Q A B i (col b l))

/-- The minimum of selNeg over the lanes of tile b. -/
def tileMin (i : Fin N) (b : ℕ) : EReal :=
  (Finset.univ : Finset (Fin 1024)).fold min ⊤ (fun l => selNeg k P Q A B i (col b l))

/-- The running maximum after tiles 0 .. b: it starts from 0 at tile 0. -/
def accMax (i : Fin N) : ℕ → EReal
  | 0 => max 0 (tileMax k P Q A B i 0)
  | b + 1 => max (accMax i b) (tileMax k P Q A B i (b + 1))

/-- The running minimum after tiles 0 .. b: it starts from the squared fill at tile 0. -/
def accMin (i : Fin N) : ℕ → EReal
  | 0 => min k.bigSq (tileMin k P Q A B i 0)
  | b + 1 => min (accMin i b) (tileMin k P Q A B i (b + 1))

/-- One square root per row, after the eighth tile. -/
def kerFpos (i : Fin N) : EReal := Ideal.sqrt (accMax k P Q A B i 7)
def kerCneg (i : Fin N) : EReal := Ideal.sqrt (accMin k P Q A B i 7)

def kerLoss : EReal := lossOf k (kerFpos k P Q A B) (kerCneg k P Q A B)

/-- The constants of this pair of programs. The words both programs print are kept as the f32 patterns they are
    printed as; the two squared-domain thresholds are the exact rationals rp * rp - eps and rn * rn - eps. -/
def consts : Consts where
  eps := Ideal.ofBits .f32 0x33D6BF95#32
  rp := Ideal.ofBits .f32 0x3D19999A#32
  rn := Ideal.ofBits .f32 0x3DCCCCCD#32
  tp := ((25330948477353 / 18014398509481984 : ℝ) : EReal)
  tn := ((180142189023657 / 18014398509481984 : ℝ) : EReal)
  big := Ideal.ofBits .f32 0x47C35000#32
  bigSq := Ideal.ofBits .f32 0x501502F9#32
  mpos := Ideal.ofBits .f32 0x3DCCCCCD#32
  mneg := Ideal.ofBits .f32 0x3FB33333#32
  cnt := Ideal.ofBits .f32 0x46000000#32

end Cert.Spec

end
-- ==== Proof.KerChain.lean ====
/-
  What the two running buffers and the two outputs hold after every grid point t = 8 a + b, by induction on the
  point: at row r of row block a the running maximum (minimum) of the closed form after tiles 0 .. b of array
  row 1024 a + r, over the four arrays the pallas_call is launched on; at a last tile (b = 7) the outputs hold
  the square roots.
-/
import proofs.«167056_j70995809402955_2_alg».proof.Proof.KerTile
import proofs.«167056_j70995809402955_2_alg».proof.Proof.KerBlocks
import proofs.«167056_j70995809402955_2_alg».proof.Proof.MathConsts
import proofs.«167056_j70995809402955_2_alg».proof.Proof.Spec

set_option maxRecDepth 16384

noncomputable section

namespace Cert.KerChain

open Idealize.ShloMosaic Idealize.ShloMosaic.TcCoe Idealize.SL.Sem Idealize.ShloMosaic.ValueIdx
open Cert.KernelIdeal Cert.KernelIdeal.Gen Cert.KerCases Cert.KerTile Cert.KerBlocks Cert.Math

variable (m : (ℓ : Loc nD τ sig) → Buf (Elt Ideal) ℓ)

/-- The four arrays the pallas_call is launched on, by row and coordinate. -/
def kP (c : Dev nD) : Fin 8192 → Fin 3 → EReal := fun i k => V m c main_v36 (ix2 i k)
def kQ (c : Dev nD) : Fin 8192 → Fin 3 → EReal := fun i k => V m c main_v17 (ix2 i k)
def kA (c : Dev nD) : Fin 8192 → Fin 32 → EReal := fun i k => V m c main_v24 (ix2 i k)
def kB (c : Dev nD) : Fin 8192 → Fin 32 → EReal := fun i k => V m c main_v31 (ix2 i k)

/-- The lanes of tile t % 8 are the closed form's columns of that tile. -/
theorem laneOf_eq_col (t : Fin cfg0.N) (l : Fin 1024) : laneOf t l = Spec.col (t.val % 8) l := by
  apply Fin.ext
  have hl : l.val < 1024 := l.isLt
  have hb : t.val % 8 < 8 := Nat.mod_lt _ (by norm_num)
  exact (Nat.mod_eq_of_lt (show 1024 * (t.val % 8) + l.val < 8192 by omega)).symm

theorem coe_two : ((2 : ℝ) : EReal) = 2 := rfl

/-- The squared point distance of the blocks at (r, l) is the closed form's at the array rows. -/
theorem blkPoint_eq (c : Dev nD) (t : Fin cfg0.N) (r l : Fin 1024) :
    blkPoint (iblk m c 0 t) (iblk m c 1 t) r l = Spec.diffSq (kP m c) (kQ m c) (rowOf t r) (Spec.col (t.val % 8) l) := by
  rw [← laneOf_eq_col]
  unfold blkPoint Spec.diffSq kP kQ
  rw [ofBits_zero, blk0 m c t r 0, blk0 m c t r 1, blk0 m c t r 2, blk1 m c t l 0, blk1 m c t l 1, blk1 m c t l 2]

/-- The squared feature distance of the blocks at (r, l) is the closed form's at the array rows. -/
theorem blkFeat_eq (c : Dev nD) (t : Fin cfg0.N) (r l : Fin 1024) :
    blkFeat (iblk m c 2 t) (iblk m c 3 t) r l = Spec.featSq Spec.consts (kA m c) (kB m c) (rowOf t r) (Spec.col (t.val % 8) l) := by
  rw [← laneOf_eq_col]
  unfold blkFeat Spec.featSq kA kB
  rw [ofBits_zero, ofBits_two, coe_two]
  simp only [blk2 m c t, blk3 m c t]
  rfl

/-- One step of the running maximum over the staged blocks is the closed form's tile maximum joined in. -/
theorem stepMax_blocks (c : Dev nD) (t : Fin cfg0.N) (s : Vec Ideal S1024 .f32) (r : Fin 1024) :
    stepMax (F := Ideal) (iblk m c 0 t) (iblk m c 1 t) (iblk m c 2 t) (iblk m c 3 t) s (ix1 r)
      = max (s (ix1 r)) (Spec.tileMax Spec.consts (kP m c) (kQ m c) (kA m c) (kB m c) (rowOf t r) (t.val % 8)) := by
  rw [stepMax_apply]
  refine congrArg (max (s (ix1 r))) ?_
  unfold Spec.tileMax
  rw [ofBits_neg_inf]
  refine congrArg (fun f : Fin 1024 → EReal => (Finset.univ : Finset (Fin 1024)).fold max ⊥ f) (funext fun l => ?_)
  unfold Spec.selPos
  rw [blkPoint_eq, blkFeat_eq, ofBits_zero]
  rfl

/-- One step of the running minimum over the staged blocks is the closed form's tile minimum joined in. -/
theorem stepMin_blocks (c : Dev nD) (t : Fin cfg0.N) (s : Vec Ideal S1024 .f32) (r : Fin 1024) :
    stepMin (F := Ideal) (iblk m c 0 t) (iblk m c 1 t) (iblk m c 2 t) (iblk m c 3 t) s (ix1 r)
      = min (s (ix1 r)) (Spec.tileMin Spec.consts (kP m c) (kQ m c) (kA m c) (kB m c) (rowOf t r) (t.val % 8)) := by
  rw [stepMin_apply]
  refine congrArg (min (s (ix1 r))) ?_
  unfold Spec.tileMin
  rw [ofBits_pos_inf]
  refine congrArg (fun f : Fin 1024 → EReal => (Finset.univ : Finset (Fin 1024)).fold min ⊤ f) (funext fun l => ?_)
  unfold Spec.selNeg
  rw [blkPoint_eq, blkFeat_eq]
  rfl

/-! ## The induction over the grid points -/

/-- The closed form's running maximum at the rows of point n's row block, after point n's tile. -/
def accMaxAt (c : Dev nD) (n : ℕ) (h : n < cfg0.N) : Vec Ideal S1024 .f32 := fun y =>
  Spec.accMax Spec.consts (kP m c) (kQ m c) (kA m c) (kB m c) (rowOf ⟨n, h⟩ (y 0)) (n % 8)

/-- The closed form's running minimum at the rows of point n's row block, after point n's tile. -/
def accMinAt (c : Dev nD) (n : ℕ) (h : n < cfg0.N) : Vec Ideal S1024 .f32 := fun y =>
  Spec.accMin Spec.consts (kP m c) (kQ m c) (kA m c) (kB m c) (rowOf ⟨n, h⟩ (y 0)) (n % 8)

/-- At a row block's first tile the running maximum restarts from zero. -/
theorem stepMax_first (c : Dev nD) (n : ℕ) (h : n < cfg0.N) (h0 : n % 8 = 0) :
    stepMax (F := Ideal) (iblk m c 0 ⟨n, h⟩) (iblk m c 1 ⟨n, h⟩) (iblk m c 2 ⟨n, h⟩) (iblk m c 3 ⟨n, h⟩) (k0_pay6 (F := Ideal)) = accMaxAt m c n h := by
  funext y
  obtain ⟨r, rfl⟩ : ∃ r : Fin 1024, y = ix1 r := ⟨y 0, eq_ix1 y⟩
  rw [stepMax_blocks, resetMax_apply, ofBits_zero]
  show max 0 (Spec.tileMax _ _ _ _ _ (rowOf ⟨n, h⟩ r) (n % 8)) = Spec.accMax _ _ _ _ _ (rowOf ⟨n, h⟩ r) (n % 8)
  rw [h0]
  rfl

/-- At a row block's first tile the running minimum restarts from the squared fill. -/
theorem stepMin_first (c : Dev nD) (n : ℕ) (h : n < cfg0.N) (h0 : n % 8 = 0) :
    stepMin (F := Ideal) (iblk m c 0 ⟨n, h⟩) (iblk m c 1 ⟨n, h⟩) (iblk m c 2 ⟨n, h⟩) (iblk m c 3 ⟨n, h⟩) (k0_pay7 (F := Ideal)) = accMinAt m c n h := by
  funext y
  obtain ⟨r, rfl⟩ : ∃ r : Fin 1024, y = ix1 r := ⟨y 0, eq_ix1 y⟩
  rw [stepMin_blocks, resetMin_apply]
  show min _ (Spec.tileMin _ _ _ _ _ (rowOf ⟨n, h⟩ r) (n % 8)) = Spec.accMin _ _ _ _ _ (rowOf ⟨n, h⟩ r) (n % 8)
  rw [h0]
  rfl

/-- Within a row block the rows do not change from one point to the next. -/
theorem rowOf_succ (n : ℕ) (h : n + 1 < cfg0.N) (h0 : ¬(n + 1) % 8 = 0) (r : Fin 1024) :
    rowOf ⟨n, Nat.lt_of_succ_lt h⟩ r = rowOf ⟨n + 1, h⟩ r := by
  apply Fin.ext
  show 1024 * (n / 8) + r.val = 1024 * ((n + 1) / 8) + r.val
  omega

/-- At a later tile the running maximum is stepped from what the tile before left. -/
theorem stepMax_next (c : Dev nD) (n : ℕ) (h : n + 1 < cfg0.N) (h0 : ¬(n + 1) % 8 = 0) :
    stepMax (F := Ideal) (iblk m c 0 ⟨n + 1, h⟩) (iblk m c 1 ⟨n + 1, h⟩) (iblk m c 2 ⟨n + 1, h⟩) (iblk m c 3 ⟨n + 1, h⟩)
      (accMaxAt m c n (Nat.lt_of_succ_lt h)) = accMaxAt m c (n + 1) h := by
  funext y
  obtain ⟨r, rfl⟩ : ∃ r : Fin 1024, y = ix1 r := ⟨y 0, eq_ix1 y⟩
  rw [stepMax_blocks]
  have e8 : (n + 1) % 8 = n % 8 + 1 := by omega
  show max (Spec.accMax _ _ _ _ _ (rowOf ⟨n, Nat.lt_of_succ_lt h⟩ r) (n % 8)) (Spec.tileMax _ _ _ _ _ (rowOf ⟨n + 1, h⟩ r) ((n + 1) % 8))
    = Spec.accMax _ _ _ _ _ (rowOf ⟨n + 1, h⟩ r) ((n + 1) % 8)
  rw [rowOf_succ n h h0, e8]
  rfl

/-- At a later tile the running minimum is stepped from what the tile before left. -/
theorem stepMin_next (c : Dev nD) (n : ℕ) (h : n + 1 < cfg0.N) (h0 : ¬(n + 1) % 8 = 0) :
    stepMin (F := Ideal) (iblk m c 0 ⟨n + 1, h⟩) (iblk m c 1 ⟨n + 1, h⟩) (iblk m c 2 ⟨n + 1, h⟩) (iblk m c 3 ⟨n + 1, h⟩)
      (accMinAt m c n (Nat.lt_of_succ_lt h)) = accMinAt m c (n + 1) h := by
  funext y
  obtain ⟨r, rfl⟩ : ∃ r : Fin 1024, y = ix1 r := ⟨y 0, eq_ix1 y⟩
  rw [stepMin_blocks]
  have e8 : (n + 1) % 8 = n % 8 + 1 := by omega
  show min (Spec.accMin _ _ _ _ _ (rowOf ⟨n, Nat.lt_of_succ_lt h⟩ r) (n % 8)) (Spec.tileMin _ _ _ _ _ (rowOf ⟨n + 1, h⟩ r) ((n + 1) % 8))
    = Spec.accMin _ _ _ _ _ (rowOf ⟨n + 1, h⟩ r) ((n + 1) % 8)
  rw [rowOf_succ n h h0, e8]
  rfl

/-- After every grid point the two running buffers hold the closed form's running maximum and minimum. -/
theorem scratch_eq (c : Dev nD) : ∀ (n : ℕ) (h : n < cfg0.N),
    (outsAt0 m c n h).2.2.1 = accMaxAt m c n h ∧ (outsAt0 m c n h).2.2.2 = accMinAt m c n h
  | 0, h => by
    have e := outsAt0_A m c ⟨0, h⟩ rfl (by show ¬(0 % 8 = 7); decide)
    constructor
    · rw [e]; dsimp only; rw [caseA_max]; exact stepMax_first m c 0 h rfl
    · rw [e]; dsimp only; rw [caseA_min]; exact stepMin_first m c 0 h rfl
  | n + 1, h => by
    obtain ⟨ihM, ihm⟩ := scratch_eq c n (Nat.lt_of_succ_lt h)
    by_cases h0 : (n + 1) % 8 = 0
    · have h1 : ¬(n + 1) % 8 = 7 := by omega
      have e := outsAt0_A m c ⟨n + 1, h⟩ h0 h1
      constructor
      · rw [e]; dsimp only; rw [caseA_max]; exact stepMax_first m c (n + 1) h h0
      · rw [e]; dsimp only; rw [caseA_min]; exact stepMin_first m c (n + 1) h h0
    · by_cases h1 : (n + 1) % 8 = 7
      · have e := outsAt0_C m c ⟨n + 1, h⟩ h0 h1
        constructor
        · rw [e]; dsimp only; rw [caseC_max]
          show stepMax _ _ _ _ (outsAt0 m c n _).2.2.1 = _
          rw [ihM]; exact stepMax_next m c n h h0
        · rw [e]; dsimp only; rw [caseC_min]
          show stepMin _ _ _ _ (outsAt0 m c n _).2.2.2 = _
          rw [ihm]; exact stepMin_next m c n h h0
      · have e := outsAt0_B m c ⟨n + 1, h⟩ h0 h1
        constructor
        · rw [e]; dsimp only; rw [caseB_max]
          show stepMax _ _ _ _ (outsAt0 m c n _).2.2.1 = _
          rw [ihM]; exact stepMax_next m c n h h0
        · rw [e]; dsimp only; rw [caseB_min]
          show stepMin _ _ _ _ (outsAt0 m c n _).2.2.2 = _
          rw [ihm]; exact stepMin_next m c n h h0

/-- At a row block's last tile the first output holds the closed form's largest positive distance of its rows. -/
theorem out4_eq (c : Dev nD) (t : Fin cfg0.N) (h7 : t.val % 8 = 7) :
    (outsAt0 m c t.val t.isLt).1 = fun y => Spec.kerFpos Spec.consts (kP m c) (kQ m c) (kA m c) (kB m c) (rowOf t (y 0)) := by
  obtain ⟨n, hn⟩ := t
  cases n with
  | zero => exact absurd h7 (by show ¬(0 % 8 = 7); decide)
  | succ n =>
    have h0 : ¬(n + 1) % 8 = 0 := by dsimp only at h7; omega
    have e := outsAt0_C m c ⟨n + 1, hn⟩ h0 h7
    rw [e]; dsimp only; rw [caseC_out4]
    show k0_pay4 (stepMax _ _ _ _ (outsAt0 m c n _).2.2.1) = _
    rw [(scratch_eq m c n (Nat.lt_of_succ_lt hn)).1, stepMax_next m c n hn h0]
    funext y
    show Ideal.sqrt (Spec.accMax _ _ _ _ _ (rowOf ⟨n + 1, hn⟩ (y 0)) ((n + 1) % 8)) = _
    rw [show (n + 1) % 8 = 7 from h7]
    rfl

/-- At a row block's last tile the second output holds the closed form's smallest negative distance of its rows. -/
theorem out5_eq (c : Dev nD) (t : Fin cfg0.N) (h7 : t.val % 8 = 7) :
    (outsAt0 m c t.val t.isLt).2.1 = fun y => Spec.kerCneg Spec.consts (kP m c) (kQ m c) (kA m c) (kB m c) (rowOf t (y 0)) := by
  obtain ⟨n, hn⟩ := t
  cases n with
  | zero => exact absurd h7 (by show ¬(0 % 8 = 7); decide)
  | succ n =>
    have h0 : ¬(n + 1) % 8 = 0 := by dsimp only at h7; omega
    have e := outsAt0_C m c ⟨n + 1, hn⟩ h0 h7
    rw [e]; dsimp only; rw [caseC_out5]
    show k0_pay5 (stepMin _ _ _ _ (outsAt0 m c n _).2.2.2) = _
    rw [(scratch_eq m c n (Nat.lt_of_succ_lt hn)).2, stepMin_next m c n hn h0]
    funext y
    show Ideal.sqrt (Spec.accMin _ _ _ _ _ (rowOf ⟨n + 1, hn⟩ (y 0)) ((n + 1) % 8)) = _
    rw [show (n + 1) % 8 = 7 from h7]
    rfl

end Cert.KerChain

end
-- ==== Proof.KerFinal.lean ====
/-
  From blocks to arrays: each of the kernel's two output arrays is covered by the blocks its row blocks' last
  tiles write back, so after the run it holds, row by row, the closed form's largest positive feature distance
  (the first) and smallest negative feature distance (the second) of the four staged arrays.
-/
import proofs.«167056_j70995809402955_2_alg».proof.Proof.KerChain

set_option maxRecDepth 16384

noncomputable section

namespace Cert.KerFinal

open Idealize.ShloMosaic Idealize.ShloMosaic.TcCoe Idealize.SL.Sem Idealize.ShloMosaic.ValueIdx
open Idealize.ShloMosaic.Pipeline (Dat)
open Cert.KernelIdeal Cert.KernelIdeal.Gen Cert.KerBlocks Cert.KerChain

variable (m : (ℓ : Loc nD τ sig) → Buf (Elt Ideal) ℓ)

/-- A function of the row as contents of an array of 8192 rows. -/
def rowsArr (g : Fin 8192 → EReal) : S8192.Idx → EReal := fun y => g (y 0)

/-- The closed form's largest positive feature distance, row by row, as contents of the first output array. -/
def fposArr (c : Dev nD) : S8192.Idx → EReal :=
  rowsArr (Spec.kerFpos Spec.consts (kP m c) (kQ m c) (kA m c) (kB m c))

/-- The closed form's smallest negative feature distance, row by row, as contents of the second output array. -/
def cnegArr (c : Dev nD) : S8192.Idx → EReal :=
  rowsArr (Spec.kerCneg Spec.consts (kP m c) (kQ m c) (kA m c) (kB m c))

/-- An index of output 4's array is in point t's block iff it is in the block's range of rows. -/
theorem mem_blk4 (t : Fin cfg0.N) (i : S8192.Idx) :
    i ∈ ((cfg0.win 4).blk t).view.set ↔ ∀ a : Fin 1, win0_4.index t a * S1024.size a ≤ (i a).val ∧ (i a).val < win0_4.index t a * S1024.size a + S1024.size a := by
  show i ∈ ((View.whole main_v37_0).slice (win0_4.rect t)).set ↔ _
  rw [View.set_slice_whole, Rect.mem_set_unit]
  exact Iff.rfl

/-- Row block t / 8 of a row-indexed array of output 4, read through point t's block. -/
theorem read_blk4 (g : Fin 8192 → EReal) (t : Fin cfg0.N) :
    (fun y : S1024.Idx => g (rowOf t (y 0))) = ((cfg0.win 4).blk t).view.read (Elt Ideal) (rowsArr g) := by
  have e4 : win0_4.index t (0 : Fin 1) = t.val / 8 := (idx_facts t).2.2.2.2.2.2.2.2.1
  funext j
  show g (rowOf t (j 0)) = g ((((cfg0.win 4).blk t).view.emb j) 0)
  refine congrArg g (Fin.ext ?_)
  show 1024 * (t.val / 8) + (j 0).val = win0_4.index t (0 : Fin 1) * 1024 + 1 * (j 0).val
  rw [e4]; omega

/-- What a row block's last tile writes back into output 4 is that row block of the largest positive feature distances. -/
theorem flushed4_eq (c : Dev nD) (t : Fin cfg0.N) (hf : (cfg0.win 4).flush t = true) :
    (dats m 0 c).flushed 4 t = ((cfg0.win 4).blk t).view.read (Elt Ideal) (fposArr m c) := by
  have h7 : t.val % 8 = 7 := (flush0_4 t).mp hf
  show (cfg0.win 4).cut (grid0.coords t) ((dats m 0 c).after 4 t) = _
  rw [after0_4, out4_eq m c t h7]
  exact read_blk4 (Spec.kerFpos Spec.consts (kP m c) (kQ m c) (kA m c) (kB m c)) t

/-- The row blocks' last tiles cover output 4's array, so it ends holding the largest positive feature distances. -/
theorem final4 (c : Dev nD) : (dats m 0 c).arrAt 4 cfg0.N = fposArr m c :=
  (dats m 0 c).arrAt_eq_of_cover 4 (fposArr m c) (flushed4_eq m c) fun i => by
    have hN : cfg0.N = 64 := N_0
    have hN' : grid0.N = 64 := N_0
    have hi : (i 0).val < 8192 := (i 0).isLt
    have hq : (i 0).val / 1024 < 8 := by omega
    have ht : 8 * ((i 0).val / 1024) + 7 < cfg0.N := by omega
    refine ⟨⟨8 * ((i 0).val / 1024) + 7, ht⟩, (flush0_4 _).mpr (by show (8 * ((i 0).val / 1024) + 7) % 8 = 7; omega), ?_⟩
    rw [mem_blk4]
    intro a
    have e4 : win0_4.index ⟨8 * ((i 0).val / 1024) + 7, ht⟩ (0 : Fin 1) = (8 * ((i 0).val / 1024) + 7) / 8 := (idx_facts _).2.2.2.2.2.2.2.2.1
    match a with
    | ⟨0, _⟩ =>
      show win0_4.index ⟨8 * ((i 0).val / 1024) + 7, ht⟩ (0 : Fin 1) * 1024 ≤ (i 0).val
        ∧ (i 0).val < win0_4.index ⟨8 * ((i 0).val / 1024) + 7, ht⟩ (0 : Fin 1) * 1024 + 1024
      rw [e4]; omega

/-- An index of output 5's array is in point t's block iff it is in the block's range of rows. -/
theorem mem_blk5 (t : Fin cfg0.N) (i : S8192.Idx) :
    i ∈ ((cfg0.win 5).blk t).view.set ↔ ∀ a : Fin 1, win0_5.index t a * S1024.size a ≤ (i a).val ∧ (i a).val < win0_5.index t a * S1024.size a + S1024.size a := by
  show i ∈ ((View.whole main_v37_1).slice (win0_5.rect t)).set ↔ _
  rw [View.set_slice_whole, Rect.mem_set_unit]
  exact Iff.rfl

/-- Row block t / 8 of a row-indexed array of output 5, read through point t's block. -/
theorem read_blk5 (g : Fin 8192 → EReal) (t : Fin cfg0.N) :
    (fun y : S1024.Idx => g (rowOf t (y 0))) = ((cfg0.win 5).blk t).view.read (Elt Ideal) (rowsArr g) := by
  have e4 : win0_5.index t (0 : Fin 1) = t.val / 8 := (idx_facts t).2.2.2.2.2.2.2.2.2
  funext j
  show g (rowOf t (j 0)) = g ((((cfg0.win 5).blk t).view.emb j) 0)
  refine congrArg g (Fin.ext ?_)
  show 1024 * (t.val / 8) + (j 0).val = win0_5.index t (0 : Fin 1) * 1024 + 1 * (j 0).val
  rw [e4]; omega

/-- What a row block's last tile writes back into output 5 is that row block of the smallest negative feature distances. -/
theorem flushed5_eq (c : Dev nD) (t : Fin cfg0.N) (hf : (cfg0.win 5).flush t = true) :
    (dats m 0 c).flushed 5 t = ((cfg0.win 5).blk t).view.read (Elt Ideal) (cnegArr m c) := by
  have h7 : t.val % 8 = 7 := (flush0_5 t).mp hf
  show (cfg0.win 5).cut (grid0.coords t) ((dats m 0 c).after 5 t) = _
  rw [after0_5, out5_eq m c t h7]
  exact read_blk5 (Spec.kerCneg Spec.consts (kP m c) (kQ m c) (kA m c) (kB m c)) t

/-- The row blocks' last tiles cover output 5's array, so it ends holding the smallest negative feature distances. -/
theorem final5 (c : Dev nD) : (dats m 0 c).arrAt 5 cfg0.N = cnegArr m c :=
  (dats m 0 c).arrAt_eq_of_cover 5 (cnegArr m c) (flushed5_eq m c) fun i => by
    have hN : cfg0.N = 64 := N_0
    have hN' : grid0.N = 64 := N_0
    have hi : (i 0).val < 8192 := (i 0).isLt
    have hq : (i 0).val / 1024 < 8 := by omega
    have ht : 8 * ((i 0).val / 1024) + 7 < cfg0.N := by omega
    refine ⟨⟨8 * ((i 0).val / 1024) + 7, ht⟩, (flush0_5 _).mpr (by show (8 * ((i 0).val / 1024) + 7) % 8 = 7; omega), ?_⟩
    rw [mem_blk5]
    intro a
    have e4 : win0_5.index ⟨8 * ((i 0).val / 1024) + 7, ht⟩ (0 : Fin 1) = (8 * ((i 0).val / 1024) + 7) / 8 := (idx_facts _).2.2.2.2.2.2.2.2.2
    match a with
    | ⟨0, _⟩ =>
      show win0_5.index ⟨8 * ((i 0).val / 1024) + 7, ht⟩ (0 : Fin 1) * 1024 ≤ (i 0).val
        ∧ (i 0).val < win0_5.index ⟨8 * ((i 0).val / 1024) + 7, ht⟩ (0 : Fin 1) * 1024 + 1024
      rw [e4]; omega

end Cert.KerFinal

end
-- ==== Proof.KerHostTail.lean ====
/-
  The kernel program's host lines after the region: the two hinges of the kernel's two outputs, their means over the
  8192 rows and the sum of the two means — the specification's lossOf of the two output arrays.
-/
import proofs.«167056_j70995809402955_2_alg».proof.Proof.Gen.KernelIdeal.Frame
import proofs.«167056_j70995809402955_2_alg».proof.Proof.Spec
import Idealize.ShloMosaic.Lib.ValueIdx
import Idealize.ShloMosaic.Lib.Pipeline.Value
import Idealize.ShloMosaic.PureOps.Ideal.Laws

noncomputable section

namespace Cert.KerHost

open Cert.KernelIdeal Cert.KernelIdeal.Gen Idealize.ShloMosaic Idealize.ShloMosaic.TcCoe Idealize.SL.Sem
open Idealize.ShloMosaic.StableHlo (after_cons after_nil)

variable (m : (ℓ : Loc nD τ sig) → Buf (Elt Ideal) ℓ) (c : Dev nD)

open Idealize.ShloMosaic.ValueIdx

/-- A rank-1 index set is its one coordinate's range, so a sum over it is the sum over the coordinate. -/
theorem sum_idx1 {n : Nat} (f : (⟨1, ![n]⟩ : Shape).Idx → EReal) : ∑ j, f j = ∑ i : Fin n, f (ix1 i) := by
  let e : (⟨1, ![n]⟩ : Shape).Idx ≃ Fin n :=
    { toFun := fun j => j 0, invFun := fun i => ix1 i, left_inv := fun j => (eq_ix1 j).symm, right_inv := fun _ => rfl }
  rw [← Equiv.sum_comp e.symm f]
  rfl

/-- A scalar word broadcast over the rows reads as the word's value at every row. -/
theorem bcast_word (w : BitVec 32) (i : S8192.Idx) :
    broadcastInDim S8192 ![] bcast_S_S8192 (constant (F := Ideal) S_ .f32 w) i = Ideal.ofBits .f32 w :=
  broadcastInDim_apply _ bcast_S_S8192 (constant (F := Ideal) S_ .f32 w) i (fun a => a.elim0) (fun a => a.elim0)

/-- The sum of a row array from the zero word, divided by the count word: the division of the sum over the rows. -/
theorem mean_of (X : (⟨S8192, .f32⟩ : BufTy).Contents (Elt Ideal)) (z : S_.Idx) :
    Host.divf (F := Ideal)
        (Host.reduceAdd (F := Ideal) X (constant (F := Ideal) S_ .f32 0x00000000#32) reducesTo_S8192_S_d0 h_S_)
        (constant (F := Ideal) S_ .f32 0x46000000#32) z
      = Ideal.div (∑ i : Fin 8192, X (ix1 i)) (Ideal.ofBits .f32 0x46000000#32) := by
  show Ideal.div (Host.reduceAdd (F := Ideal) X (constant (F := Ideal) S_ .f32 0x00000000#32) reducesTo_S8192_S_d0 h_S_ z)
      (Ideal.ofBits .f32 0x46000000#32) = _
  simp only [Host.reduceAdd, Ideal.hostReduceAdd_def]
  rw [Ideal.hostReduceAdd_total reducesTo_S8192_S_d0 (fun b => b.elim0) X _ z]
  show Ideal.div (Ideal.ofBits .f32 0x00000000#32 + _) _ = _
  rw [Ideal.ofBits_zero_f32, zero_add, sum_idx1]

/-- The host tail over any two row arrays. -/
theorem tail_of (A4 A5 : (⟨S8192, .f32⟩ : BufTy).Contents (Elt Ideal)) :
    addf (F := Ideal) (φ := .f32)
        (Host.divf (F := Ideal)
          (Host.reduceAdd (F := Ideal)
            (maximumf (F := Ideal)
              (subf (F := Ideal) A4 (broadcastInDim S8192 ![] bcast_S_S8192 (constant (F := Ideal) S_ .f32 0x3DCCCCCD#32)))
              (broadcastInDim S8192 ![] bcast_S_S8192 (constant (F := Ideal) S_ .f32 0x00000000#32)))
            (constant (F := Ideal) S_ .f32 0x00000000#32) reducesTo_S8192_S_d0 h_S_)
          (constant (F := Ideal) S_ .f32 0x46000000#32))
        (Host.divf (F := Ideal)
          (Host.reduceAdd (F := Ideal)
            (maximumf (F := Ideal)
              (subf (F := Ideal) (broadcastInDim S8192 ![] bcast_S_S8192 (constant (F := Ideal) S_ .f32 0x3FB33333#32)) A5)
              (broadcastInDim S8192 ![] bcast_S_S8192 (constant (F := Ideal) S_ .f32 0x00000000#32)))
            (constant (F := Ideal) S_ .f32 0x00000000#32) reducesTo_S8192_S_d0 h_S_)
          (constant (F := Ideal) S_ .f32 0x46000000#32))
      = fun _ => Cert.Spec.lossOf Cert.Spec.consts (fun i : Fin 8192 => A4 (ix1 i)) (fun i : Fin 8192 => A5 (ix1 i)) := by
  funext z
  refine (congrArg₂ (· + ·) (mean_of _ z) (mean_of _ z)).trans ?_
  unfold Cert.Spec.lossOf Cert.Spec.relu
  refine congrArg₂ (· + ·) (congrArg (Ideal.div · _) (Finset.sum_congr rfl fun i _ => ?_))
    (congrArg (Ideal.div · _) (Finset.sum_congr rfl fun i _ => ?_))
  · show max (A4 (ix1 i) - broadcastInDim S8192 ![] bcast_S_S8192 (constant (F := Ideal) S_ .f32 0x3DCCCCCD#32) (ix1 i))
        (broadcastInDim S8192 ![] bcast_S_S8192 (constant (F := Ideal) S_ .f32 0x00000000#32) (ix1 i)) = _
    rw [bcast_word, bcast_word, Ideal.ofBits_zero_f32]
    rfl
  · show max (broadcastInDim S8192 ![] bcast_S_S8192 (constant (F := Ideal) S_ .f32 0x3FB33333#32) (ix1 i) - A5 (ix1 i))
        (broadcastInDim S8192 ![] bcast_S_S8192 (constant (F := Ideal) S_ .f32 0x00000000#32) (ix1 i)) = _
    rw [bcast_word, bcast_word, Ideal.ofBits_zero_f32]
    rfl

/-- Window 4's array is the first kernel output, window 5's the second. -/
theorem arr4 : Pipeline.withArrays (cfgs 0).spec c (V0 m c) (fun w => (dats m 0 c).arrAt w (cfgs 0).N) (Proc.devRef .tc main_v37_0)
    = (dats m 0 c).arrAt 4 (cfgs 0).N :=
  Pipeline.withArrays_arr spec0 launch0.win.arr_inj c _ _ 4
theorem arr5 : Pipeline.withArrays (cfgs 0).spec c (V0 m c) (fun w => (dats m 0 c).arrAt w (cfgs 0).N) (Proc.devRef .tc main_v37_1)
    = (dats m 0 c).arrAt 5 (cfgs 0).N :=
  Pipeline.withArrays_arr spec0 launch0.win.arr_inj c _ _ 5

set_option maxHeartbeats 400000 in
/-- What the program's result buffer holds after the lines that follow the region. -/
theorem tail_value :
    Pipeline.afterTail₀ cfgs (dats m) 0 (V0 m) [hostOps1, hostOps1_1, hostOps1_2, hostOps1_3, hostOps1_4] c main_v48
      = fun _ => Cert.Spec.lossOf Cert.Spec.consts
          (fun i : Fin 8192 => (dats m 0 c).arrAt 4 cfg0.N (ix1 i))
          (fun i : Fin 8192 => (dats m 0 c).arrAt 5 cfg0.N (ix1 i)) := by
  unfold Pipeline.afterTail₀
  simp only [hostOps1, hostOps1_1, hostOps1_2, hostOps1_3, hostOps1_4, List.flatten_cons, List.flatten_nil, List.append_nil,
    List.cons_append, List.nil_append]
  after_results_simp
  rw [arr4, arr5]
  exact tail_of _ _

/-- The result buffer is unscoped and is no window's array: it is among the buffers the region leaves alone. -/
theorem v48_mem : main_v48 ∈ Pipeline.restRefs sig (cfgs 0).spec :=
  Pipeline.mem_restRefs_of main_v48 (by decide) (by decide)

/-- So a final memory that satisfies the frame's post holds, at the result buffer, the loss of the two outputs. -/
theorem result_of_post (r : PUnit × MemSt nD τ sig (Elt Ideal))
    (h : Pipeline.FramePost cfgs (dats m) 0
      (Pipeline.afterTail₀ cfgs (dats m) 0 (V0 m) [hostOps1, hostOps1_1, hostOps1_2, hostOps1_3, hostOps1_4]) r) :
    r.2.mem ((c.tc : Thread nD τ).loc main_v48)
      = fun _ => Cert.Spec.lossOf Cert.Spec.consts
          (fun i : Fin 8192 => (dats m 0 c).arrAt 4 cfg0.N (ix1 i))
          (fun i : Fin 8192 => (dats m 0 c).arrAt 5 cfg0.N (ix1 i)) :=
  ((h c).2 main_v48 v48_mem).trans (tail_value m c)

end Cert.KerHost

end
-- ==== Proof.KerRun.lean ====
/-
  The idealized kernel program's run, read: every weakly fair execution ends with the result at the closed form's
  loss (kernel form) of the four arrays the pallas_call is launched on, and with the arguments unchanged.
-/
import proofs.«167056_j70995809402955_2_alg».proof.Proof.KerFinal
import proofs.«167056_j70995809402955_2_alg».proof.Proof.KerHostTail

set_option maxRecDepth 16384

noncomputable section

namespace Cert.KerRun

open Idealize.ShloMosaic Idealize.ShloMosaic.TcCoe Idealize.SL.Sem Idealize.ShloMosaic.ValueIdx
open Cert.KernelIdeal Cert.KernelIdeal.Gen Cert.KerChain Cert.KerFinal

variable (m : (ℓ : Loc nD τ sig) → Buf (Elt Ideal) ℓ) (ρ : Dev nD → PrngReg)

/-- The host tail's loss over the two output arrays is the closed form's loss in the kernel form. -/
theorem loss_eq (c : Dev nD) :
    (fun _ : S_.Idx => Spec.lossOf Spec.consts (fun i : Fin 8192 => (dats m 0 c).arrAt 4 cfg0.N (ix1 i))
        (fun i : Fin 8192 => (dats m 0 c).arrAt 5 cfg0.N (ix1 i)))
      = fun _ => Spec.kerLoss Spec.consts (kP m c) (kQ m c) (kA m c) (kB m c) := by
  rw [final4, final5]
  rfl

/-- The run: the result at the closed form's loss, the arguments unchanged. -/
theorem run : θ_run defs (onTc (τ := τ) (main (F := Ideal))) ⟨m, fun _ => 0, ρ⟩ (fun r => ∀ c : Dev nD,
      r.2.mem ((c.tc : Thread nD τ).loc main_v48) = (fun _ => Spec.kerLoss Spec.consts (kP m c) (kQ m c) (kA m c) (kB m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(Cert.KerHost.result_of_post m c r h).trans (loss_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩) (run_main m ρ)

end Cert.KerRun

end
-- ==== Proof.KerHostPre.lean ====
/-
  The kernel program's host lines before the region: the three selected arrays that are plain row selections are the
  reference's own selections of the same rows, and the selected source points are the selected rows moved by the
  rigid motion.
-/
import proofs.«167056_j70995809402955_2_alg».proof.Proof.Gen.KernelIdeal.Frame
import proofs.«167056_j70995809402955_2_alg».proof.Proof.Gen.ReferenceIdeal.Read

noncomputable section

namespace Cert.KerHost

open Cert.KernelIdeal Cert.KernelIdeal.Gen Idealize.ShloMosaic Idealize.ShloMosaic.TcCoe Idealize.SL.Sem
open Idealize.ShloMosaic.StableHlo (after_cons after_nil)

variable (m : (ℓ : Loc nD τ sig) → Buf (Elt Ideal) ℓ) (c : Dev nD)

/-- The selected target points: the reference's selection of the same rows. -/
theorem V_v17 :
    (V m c main_v17 : S8192x3.Idx → EReal)
      = Cert.ReferenceIdeal.Read.val_main_v22 (F := Ideal) (m ((c : Thread nD τ).loc main_arg1)) (m ((c : Thread nD τ).loc main_arg4)) := by
  show StableHlo.after hostOps0 (fun b => m (c, b)) (Proc.devRef .tc main_v17) = _
  after_results_simp
  rfl

/-- The selected source features: the reference's selection of the same rows. -/
theorem V_v24 :
    (V m c main_v24 : S8192x32.Idx → EReal)
      = Cert.ReferenceIdeal.Read.val_main_v29 (F := Ideal) (m ((c : Thread nD τ).loc main_arg2)) (m ((c : Thread nD τ).loc main_arg4)) := by
  show StableHlo.after hostOps0 (fun b => m (c, b)) (Proc.devRef .tc main_v24) = _
  after_results_simp
  rfl

/-- The selected target features: the reference's selection of the same rows. -/
theorem V_v31 :
    (V m c main_v31 : S8192x32.Idx → EReal)
      = Cert.ReferenceIdeal.Read.val_main_v36 (F := Ideal) (m ((c : Thread nD τ).loc main_arg3)) (m ((c : Thread nD τ).loc main_arg4)) := by
  show StableHlo.after hostOps0 (fun b => m (c, b)) (Proc.devRef .tc main_v31) = _
  after_results_simp
  rfl

/-- The selected source points: the rows the reference's index stage picks, times the transposed rotation, plus the
    transposed translation broadcast down the rows. -/
theorem V_v36 :
    (V m c main_v36 : S8192x3.Idx → EReal)
      = addf (F := Ideal) (φ := .f32)
          (Host.dotGeneral (F := Ideal) (φ₁ := .f32) (φ₂ := .f32) dot_S8192x3_S3x3_S8192x3_1_0_0_1_n_n none
            (Host.gather gather_S20000x3_S8192x1_S8192x3_1_0_n_n_0_1_13 (m ((c : Thread nD τ).loc main_arg0))
              (Cert.ReferenceIdeal.Read.val_main_v14 (F := Ideal) (m ((c : Thread nD τ).loc main_arg4))))
            (transpose S3x3 [1, 0] (m ((c : Thread nD τ).loc main_arg5)) transposes_S3x3_S3x3_1_0))
          (broadcastInDim S8192x3 ![0, 1] bcast_S1x3_S8192x3_0_1
            (transpose S1x3 [1, 0] (m ((c : Thread nD τ).loc main_arg6)) transposes_S3x1_S1x3_1_0)) := by
  show StableHlo.after hostOps0 (fun b => m (c, b)) (Proc.devRef .tc main_v36) = _
  after_results_simp
  rfl

end Cert.KerHost

end
-- ==== Proof.GathRows.lean ====
/-
  The gather of rows, read at an index.

  With offset axis 1, collapsed axis 0, start index map [0], the index vector on axis 1 of the start indices and
  slice sizes [1, C], result element (i, c) is the operand at (r, c), where r is the start index idx[i, 0] read as
  a signed integer and clamped into [0, N - 1] (the slice of one row must fit).
-/
import proofs.«167056_j70995809402955_2_alg».proof.Defs
import Idealize.ShloMosaic.Lib.ValueIdx

noncomputable section

namespace Cert.GathRows

open Idealize.ShloMosaic Idealize.ShloMosaic.ValueIdx

variable {α : Type}

/-- The row a start index names: the word read signed, clamped into [0, N - 1]. -/
def rowOf (N : ℕ) (hN : 0 < N) {w : ℕ} (b : BitVec w) : Fin N :=
  ⟨min b.toInt.toNat (N - 1), by omega⟩

/-- The row of the 20000-row tables a 32-bit start index names. -/
abbrev row (b : BitVec 32) : Fin 20000 := rowOf 20000 (by norm_num) b

/-- The dimension numbers of a gather of rows of an N x C operand at R x 1 start indices. -/
abbrev rowsDims (N R C : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gather of rows read at (i, c): the operand at the clamped row idx[i, 0] names, column c. -/
theorem gather_rows_apply {N R C w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (i : Fin R) (c : Fin C) :
    Host.gather (rowsDims N R C wf) x idx (ix2 i c)
      = x (ix2 (rowOf N hN (idx (ix2 i (0 : Fin 1)))) c) := by
  unfold Host.gather
  congr 1
  funext a
  refine Fin.ext ?_
  match a with
  | ⟨0, _⟩ =>
    show (rowsDims N R C wf).start (ix2 i c) idx 0 + (rowsDims N R C wf).batchCoord (ix2 i c) 0
        + (rowsDims N R C wf).offCoord (ix2 i c) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx (ix2 i c)
        ⟨List.idxOf (0 : Fin 2) (rowsDims N R C wf).startIndexMap,
          List.idxOf_lt_length_iff.2 (List.mem_singleton.mpr rfl)⟩ = ix2 i (0 : Fin 1) := by
      funext b
      refine Fin.ext ?_
      match b with
      | ⟨0, _⟩ => rfl
      | ⟨1, _⟩ => rfl
    rw [hsi]
    rfl
  | ⟨1, _⟩ =>
    show (rowsDims N R C wf).start (ix2 i c) idx 1 + (rowsDims N R C wf).batchCoord (ix2 i c) 1
        + (rowsDims N R C wf).offCoord (ix2 i c) 1 = c.val
    rw [GatherDims.batchCoord_eq_zero _ _ _ List.not_mem_nil]
    have hs : (rowsDims N R C wf).start (ix2 i c) idx 1 = 0 := by
      unfold GatherDims.start
      rw [dif_neg (show (1 : Fin 2) ∉ (rowsDims N R C wf).startIndexMap from
        (by decide : (1 : Fin 2) ∉ ([0] : List (Fin 2))))]
    have hk : (1 : Fin 2) ∈ (rowsDims N R C wf).sKept :=
      (GatherDims.mem_sKept _ _).mpr ⟨(by decide : (1 : Fin 2) ∉ ([0] : List (Fin 2))), List.not_mem_nil⟩
    rw [hs]
    unfold GatherDims.offCoord
    rw [dif_pos hk, Nat.zero_add]
    rfl

/-! ## The records of the two programs -/

section Kernel

variable [Cert.KernelIdeal.Facts₀]

/-- The kernel program's gather of 3-column rows at (i, c). -/
theorem kernel_gather3_apply (x : Cert.KernelIdeal.S20000x3.Idx → α) (idx : IVec Cert.KernelIdeal.S8192x1 32)
    (i : Fin 8192) (c : Fin 3) :
    Host.gather Cert.KernelIdeal.gather_S20000x3_S8192x1_S8192x3_1_0_n_n_0_1_13 x idx (ix2 i c)
      = x (ix2 (row (idx (ix2 i (0 : Fin 1)))) c) :=
  gather_rows_apply (by norm_num)
    Cert.KernelIdeal.Facts₀.gather_S20000x3_S8192x1_S8192x3_1_0_n_n_0_1_13_wf x idx i c

/-- The kernel program's gather of 32-column rows at (i, c). -/
theorem kernel_gather32_apply (x : Cert.KernelIdeal.S20000x32.Idx → α) (idx : IVec Cert.KernelIdeal.S8192x1 32)
    (i : Fin 8192) (c : Fin 32) :
    Host.gather Cert.KernelIdeal.gather_S20000x32_S8192x1_S8192x32_1_0_n_n_0_1_132 x idx (ix2 i c)
      = x (ix2 (row (idx (ix2 i (0 : Fin 1)))) c) :=
  gather_rows_apply (by norm_num)
    Cert.KernelIdeal.Facts₀.gather_S20000x32_S8192x1_S8192x32_1_0_n_n_0_1_132_wf x idx i c

end Kernel

section Reference

variable [Cert.ReferenceIdeal.Facts₀]

/-- The reference program's gather of 3-column rows at (i, c). -/
theorem reference_gather3_apply (x : Cert.ReferenceIdeal.S20000x3.Idx → α)
    (idx : IVec Cert.ReferenceIdeal.S8192x1 32) (i : Fin 8192) (c : Fin 3) :
    Host.gather Cert.ReferenceIdeal.gather_S20000x3_S8192x1_S8192x3_1_0_n_n_0_1_13 x idx (ix2 i c)
      = x (ix2 (row (idx (ix2 i (0 : Fin 1)))) c) :=
  gather_rows_apply (by norm_num)
    Cert.ReferenceIdeal.Facts₀.gather_S20000x3_S8192x1_S8192x3_1_0_n_n_0_1_13_wf x idx i c

/-- The reference program's gather of 32-column rows at (i, c). -/
theorem reference_gather32_apply (x : Cert.ReferenceIdeal.S20000x32.Idx → α)
    (idx : IVec Cert.ReferenceIdeal.S8192x1 32) (i : Fin 8192) (c : Fin 32) :
    Host.gather Cert.ReferenceIdeal.gather_S20000x32_S8192x1_S8192x32_1_0_n_n_0_1_132 x idx (ix2 i c)
      = x (ix2 (row (idx (ix2 i (0 : Fin 1)))) c) :=
  gather_rows_apply (by norm_num)
    Cert.ReferenceIdeal.Facts₀.gather_S20000x32_S8192x1_S8192x32_1_0_n_n_0_1_132_wf x idx i c

end Reference

section Both

variable [Cert.KernelIdeal.Facts₀] [Cert.ReferenceIdeal.Facts₀]

/-- The two programs' records for 3-column rows are the same record. -/
theorem gather3_records_eq :
    Cert.KernelIdeal.gather_S20000x3_S8192x1_S8192x3_1_0_n_n_0_1_13
      = Cert.ReferenceIdeal.gather_S20000x3_S8192x1_S8192x3_1_0_n_n_0_1_13 := rfl

/-- The two programs' records for 32-column rows are the same record. -/
theorem gather32_records_eq :
    Cert.KernelIdeal.gather_S20000x32_S8192x1_S8192x32_1_0_n_n_0_1_132
      = Cert.ReferenceIdeal.gather_S20000x32_S8192x1_S8192x32_1_0_n_n_0_1_132 := rfl

end Both

end Cert.GathRows

end
-- ==== Proof.RefSel.lean ====
/-
  The reference's four selected arrays, as functions of the program's arguments: the rows of the transformed
  source points, of the target points, and of the two feature tables that the correspondence columns pick.
-/
import proofs.«167056_j70995809402955_2_alg».proof.Proof.Gen.ReferenceIdeal.Read
import proofs.«167056_j70995809402955_2_alg».proof.Proof.Spec

noncomputable section

namespace Cert.RefValue

open Cert.ReferenceIdeal Cert.ReferenceIdeal.Gen Cert.ReferenceIdeal.Read Idealize.ShloMosaic Idealize.ShloMosaic.ValueIdx

/-- The selected source points (after the rigid motion): 8192 rows of 3 coordinates. -/
def refP (x0 : (⟨S20000x3, .f32⟩ : BufTy).Contents (Elt Ideal)) (x4 : (⟨S8192x2, .i32⟩ : BufTy).Contents (Elt Ideal))
    (x5 : (⟨S3x3, .f32⟩ : BufTy).Contents (Elt Ideal)) (x6 : (⟨S3x1, .f32⟩ : BufTy).Contents (Elt Ideal)) :
    Fin 8192 → Fin 3 → EReal :=
  fun i c => val_main_v15 (F := Ideal) x0 x4 x5 x6 (ix2 i c)

/-- The selected target points. -/
def refQ (x1 : (⟨S20000x3, .f32⟩ : BufTy).Contents (Elt Ideal)) (x4 : (⟨S8192x2, .i32⟩ : BufTy).Contents (Elt Ideal)) :
    Fin 8192 → Fin 3 → EReal :=
  fun i c => val_main_v22 (F := Ideal) x1 x4 (ix2 i c)

/-- The selected source features: 8192 rows of 32 coordinates. -/
def refA (x2 : (⟨S20000x32, .f32⟩ : BufTy).Contents (Elt Ideal)) (x4 : (⟨S8192x2, .i32⟩ : BufTy).Contents (Elt Ideal)) :
    Fin 8192 → Fin 32 → EReal :=
  fun i c => val_main_v29 (F := Ideal) x2 x4 (ix2 i c)

/-- The selected target features. -/
def refB (x3 : (⟨S20000x32, .f32⟩ : BufTy).Contents (Elt Ideal)) (x4 : (⟨S8192x2, .i32⟩ : BufTy).Contents (Elt Ideal)) :
    Fin 8192 → Fin 32 → EReal :=
  fun i c => val_main_v36 (F := Ideal) x3 x4 (ix2 i c)

end Cert.RefValue

end
-- ==== Proof.MathSqrt.lean ====
/-
  The square root on the extended reals is monotone, so it passes through maxima, minima and the folds of them;
  and a hinge of a clipped minimum is the hinge of the minimum once the clip is at or above the margin.
-/
import Idealize.ShloMosaic.PureOps.Ideal
import Mathlib.Analysis.Real.Sqrt
import Mathlib.Data.Finset.Fold
import Mathlib.Data.EReal.Operations

noncomputable section

namespace Cert.Math

open Idealize.ShloMosaic

/-- The square root is monotone: below zero it is the bottom element, from zero on it is the real root. -/
theorem sqrt_mono : Monotone Ideal.sqrt := by
  intro x y h
  induction x using EReal.rec with
  | bot => rw [Ideal.sqrt_bot]; exact bot_le
  | top =>
    have hy : y = ⊤ := top_le_iff.mp h
    subst hy; exact le_rfl
  | coe r =>
    induction y using EReal.rec with
    | bot => exact absurd (le_bot_iff.mp h) (EReal.coe_ne_bot r)
    | top => rw [Ideal.sqrt_top]; exact le_top
    | coe s =>
      have hrs : r ≤ s := EReal.coe_le_coe_iff.mp h
      rw [Ideal.sqrt_coe, Ideal.sqrt_coe]
      split_ifs with h1 h2 h2
      · exact le_rfl
      · exact bot_le
      · exact absurd (lt_of_le_of_lt hrs h2) h1
      · exact EReal.coe_le_coe_iff.mpr (Real.sqrt_le_sqrt hrs)

theorem sqrt_max (x y : EReal) : Ideal.sqrt (max x y) = max (Ideal.sqrt x) (Ideal.sqrt y) :=
  sqrt_mono.map_max

theorem sqrt_min (x y : EReal) : Ideal.sqrt (min x y) = min (Ideal.sqrt x) (Ideal.sqrt y) :=
  sqrt_mono.map_min

/-- The root of a fold of maxima is the fold of the maxima of the roots. -/
theorem sqrt_fold_max {ι : Type*} (s : Finset ι) (b : EReal) (f : ι → EReal) :
    Ideal.sqrt (s.fold max b f) = s.fold max (Ideal.sqrt b) (fun j => Ideal.sqrt (f j)) :=
  (Finset.fold_hom (op := max) (op' := max) (m := Ideal.sqrt) (fun x y => sqrt_max x y)).symm

/-- The root of a fold of minima is the fold of the minima of the roots. -/
theorem sqrt_fold_min {ι : Type*} (s : Finset ι) (b : EReal) (f : ι → EReal) :
    Ideal.sqrt (s.fold min b f) = s.fold min (Ideal.sqrt b) (fun j => Ideal.sqrt (f j)) :=
  (Finset.fold_hom (op := min) (op' := min) (m := Ideal.sqrt) (fun x y => sqrt_min x y)).symm

theorem sqrt_zero : Ideal.sqrt 0 = 0 := by
  rw [← EReal.coe_zero, Ideal.sqrt_coe, if_neg (lt_irrefl _), Real.sqrt_zero]

/-- The root of a nonnegative real is the real root. -/
theorem sqrt_coe_of_nonneg {r : ℝ} (h : 0 ≤ r) : Ideal.sqrt (r : EReal) = (Real.sqrt r : EReal) := by
  rw [Ideal.sqrt_coe, if_neg (not_lt.mpr h)]

/-- The root of a nonnegative extended real is nonnegative. -/
theorem sqrt_nonneg {x : EReal} (h : 0 ≤ x) : 0 ≤ Ideal.sqrt x := by
  have := sqrt_mono h
  rwa [sqrt_zero] at this

/-- A hinge max (m - ., 0) does not see a clip of its argument at b when m <= b: past the clip both sides are 0. -/
theorem hinge_clip {m b : ℝ} (hmb : m ≤ b) (x : EReal) :
    max ((m : EReal) - min (b : EReal) x) 0 = max ((m : EReal) - x) 0 := by
  rcases le_total x (b : EReal) with h | h
  · rw [min_eq_right h]
  · rw [min_eq_left h]
    have h1 : (m : EReal) - (b : EReal) ≤ 0 := by
      rw [← EReal.coe_sub, ← EReal.coe_zero, EReal.coe_le_coe_iff]; linarith
    have h2 : (m : EReal) - x ≤ 0 := le_trans (EReal.sub_le_sub le_rfl h) h1
    rw [max_eq_right h1, max_eq_right h2]

end Cert.Math

end
-- ==== Proof.MathReal.lean ====
/-
  With real entries every quantity of the two forms is a real number.

  The squared point distance: the sum over the three coordinates of (p_c - q_c)^2 equals
  |p|^2 + |q|^2 - sum (2 p_c) q_c and is nonnegative, so the clamp at zero is the identity on it. The squared
  feature distance: 2 * sum a_c b_c = sum (2 a_c) b_c, so the two spellings agree. The tests of a point distance
  sqrt (d + eps) against a radius r are the tests of d against r * r - eps.
-/
import proofs.«167056_j70995809402955_2_alg».proof.Proof.Spec
import proofs.«167056_j70995809402955_2_alg».proof.Proof.MathSqrt
import Mathlib.Analysis.Real.Sqrt
import Mathlib.Data.EReal.Operations
import Mathlib.Algebra.BigOperators.Fin
import Mathlib.Tactic.Ring
import Mathlib.Tactic.Linarith

noncomputable section

namespace Cert.Math

open Idealize.ShloMosaic Cert.Spec

/-- The coercion of the reals into the extended reals passes through finite sums. -/
theorem coe_sum {ι : Type*} (s : Finset ι) (f : ι → ℝ) :
    ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

theorem coe_two : ((2 : ℝ) : EReal) = 2 := rfl

/-- |x_i|^2 + |y_j|^2 - sum (2 x_i) y_j on real rows. -/
def gram {d : ℕ} (x y : Fin N → Fin d → ℝ) (i j : Fin N) : ℝ :=
  ((∑ c, x i c * x i c) + (∑ c, y j c * y j c)) - ∑ c, (2 * x i c) * y j c

/-- The sum of the three squared coordinate differences. -/
def dsq (p q : Fin N → Fin 3 → ℝ) (i j : Fin N) : ℝ :=
  (p i 0 - q j 0) * (p i 0 - q j 0) + (p i 1 - q j 1) * (p i 1 - q j 1)
    + (p i 2 - q j 2) * (p i 2 - q j 2)

theorem dsq_nonneg (p q : Fin N → Fin 3 → ℝ) (i j : Fin N) : 0 ≤ dsq p q i j :=
  add_nonneg (add_nonneg (mul_self_nonneg _) (mul_self_nonneg _)) (mul_self_nonneg _)

/-- In three coordinates the expanded form is the sum of the squared differences. -/
theorem gram_three (p q : Fin N → Fin 3 → ℝ) (i j : Fin N) : gram p q i j = dsq p q i j := by
  simp only [gram, dsq, Fin.sum_univ_three]
  ring

section

variable (k : Consts)

/-- The reference's clamped squared distance of rows with real entries. -/
theorem gemmSq_coe {e : ℝ} (he : k.eps = (e : EReal)) {d : ℕ} {X Y : Fin N → Fin d → EReal}
    {x y : Fin N → Fin d → ℝ}
    (hX : ∀ i c, X i c = (x i c : EReal)) (hY : ∀ i c, Y i c = (y i c : EReal)) (i j : Fin N) :
    gemmSq k X Y i j = ((max (gram x y i j) 0 + e : ℝ) : EReal) := by
  simp only [gemmSq, gram, hX, hY, he, EReal.coe_add, EReal.coe_sub, EReal.coe_mul, coe_max, coe_sum,
    EReal.coe_zero, coe_two]

/-- 2 * sum a_c b_c = sum (2 a_c) b_c on rows with real entries. -/
theorem two_mul_sum {d : ℕ} {X Y : Fin N → Fin d → EReal} {x y : Fin N → Fin d → ℝ}
    (hX : ∀ i c, X i c = (x i c : EReal)) (hY : ∀ i c, Y i c = (y i c : EReal)) (i j : Fin N) :
    (2 : EReal) * ∑ c, X i c * Y j c = ∑ c, (2 * X i c) * Y j c := by
  simp only [hX, hY, ← coe_two, ← EReal.coe_mul, ← coe_sum]
  rw [Finset.mul_sum]
  simp only [mul_assoc]

/-- The kernel's spelling of the squared feature distance is the reference's. -/
theorem featSq_eq_gemmSq {A B : Fin N → Fin 32 → EReal} {a b : Fin N → Fin 32 → ℝ}
    (hA : ∀ i c, A i c = (a i c : EReal)) (hB : ∀ i c, B i c = (b i c : EReal)) (i j : Fin N) :
    featSq k A B i j = gemmSq k A B i j := by
  unfold featSq gemmSq
  rw [two_mul_sum hA hB]

/-- The squared feature distance is nonnegative when epsilon is. -/
theorem featSq_nonneg (A B : Fin N → Fin 32 → EReal) (h0 : 0 ≤ k.eps) (i j : Fin N) :
    0 ≤ featSq k A B i j :=
  add_nonneg (le_max_right _ _) h0

variable {P Q : Fin N → Fin 3 → EReal} {p q : Fin N → Fin 3 → ℝ}

/-- The kernel's squared point distance. -/
theorem diffSq_coe (hP : ∀ i c, P i c = (p i c : EReal)) (hQ : ∀ i c, Q i c = (q i c : EReal))
    (i j : Fin N) : diffSq P Q i j = (dsq p q i j : EReal) := by
  simp only [diffSq, dsq, hP, hQ, zero_add, EReal.coe_add, EReal.coe_mul, EReal.coe_sub]

/-- The reference's squared point distance: the clamp is the identity. -/
theorem gemmSq_points {e : ℝ} (he : k.eps = (e : EReal))
    (hP : ∀ i c, P i c = (p i c : EReal)) (hQ : ∀ i c, Q i c = (q i c : EReal)) (i j : Fin N) :
    gemmSq k P Q i j = ((dsq p q i j + e : ℝ) : EReal) := by
  rw [gemmSq_coe k he hP hQ, gram_three, max_eq_left (dsq_nonneg p q i j)]

/-- The reference's point distance. -/
theorem dist_points {e : ℝ} (he : k.eps = (e : EReal)) (he0 : 0 ≤ e)
    (hP : ∀ i c, P i c = (p i c : EReal)) (hQ : ∀ i c, Q i c = (q i c : EReal)) (i j : Fin N) :
    Spec.dist k P Q i j = (Real.sqrt (dsq p q i j + e) : EReal) := by
  rw [Spec.dist, gemmSq_points k he hP hQ, sqrt_coe_of_nonneg (add_nonneg (dsq_nonneg p q i j) he0)]

/-- The test of the point distance against the positive radius r is the test of the squared distance
    against r * r - eps. -/
theorem pos_test_iff {e : ℝ} (he : k.eps = (e : EReal)) (he0 : 0 ≤ e)
    (hP : ∀ i c, P i c = (p i c : EReal)) (hQ : ∀ i c, Q i c = (q i c : EReal))
    {r t : ℝ} (hr : k.rp = (r : EReal)) (hr0 : 0 < r)
    (ht : k.tp = (t : EReal)) (htr : t = r * r - e) (i j : Fin N) :
    Spec.dist k P Q i j < k.rp ↔ diffSq P Q i j < k.tp := by
  rw [dist_points k he he0 hP hQ, diffSq_coe hP hQ, hr, ht, EReal.coe_lt_coe_iff, EReal.coe_lt_coe_iff,
    Real.sqrt_lt' hr0, htr, lt_sub_iff_add_lt, sq]

/-- The test of the point distance against the negative radius r is the test of the squared distance
    against r * r - eps. -/
theorem neg_test_iff {e : ℝ} (he : k.eps = (e : EReal)) (he0 : 0 ≤ e)
    (hP : ∀ i c, P i c = (p i c : EReal)) (hQ : ∀ i c, Q i c = (q i c : EReal))
    {r t : ℝ} (hr : k.rn = (r : EReal)) (hr0 : 0 ≤ r)
    (ht : k.tn = (t : EReal)) (htr : t = r * r - e) (i j : Fin N) :
    k.rn < Spec.dist k P Q i j ↔ k.tn < diffSq P Q i j := by
  rw [dist_points k he he0 hP hQ, diffSq_coe hP hQ, hr, ht, EReal.coe_lt_coe_iff, EReal.coe_lt_coe_iff,
    Real.lt_sqrt hr0, htr, sub_lt_iff_lt_add, sq]

end

end Cert.Math

end
-- ==== Proof.BridgeRef.lean ====
/-
  The reference's four selected arrays, entry by entry.

  The reference applies the rigid motion to every source row and then picks rows: entry (i, c) of the selected
  source points is sum_b R[c, b] * x[r, b] + t[c], where r is the row the i-th correspondence names. The other
  three arrays are picked rows of the arguments themselves. When the arguments have real entries, so have the
  four selected arrays.
-/
import proofs.«167056_j70995809402955_2_alg».proof.Proof.Gen.ReferenceIdeal.Read
import proofs.«167056_j70995809402955_2_alg».proof.Proof.RefSel
import proofs.«167056_j70995809402955_2_alg».proof.Proof.GathRows
import proofs.«167056_j70995809402955_2_alg».proof.Proof.MathReal

noncomputable section

namespace Cert.Bridge

open Cert.ReferenceIdeal Cert.ReferenceIdeal.Gen Cert.ReferenceIdeal.Read Idealize.ShloMosaic
  Idealize.ShloMosaic.ValueIdx Cert.GathRows

/-- Entry (i, c) of the reference's selected source points: the rigid motion applied to the row the i-th
    correspondence names. -/
theorem refP_apply (x0 : (⟨S20000x3, .f32⟩ : BufTy).Contents (Elt Ideal))
    (x4 : (⟨S8192x2, .i32⟩ : BufTy).Contents (Elt Ideal))
    (x5 : (⟨S3x3, .f32⟩ : BufTy).Contents (Elt Ideal)) (x6 : (⟨S3x1, .f32⟩ : BufTy).Contents (Elt Ideal))
    (i : Fin 8192) (c : Fin 3) :
    Cert.RefValue.refP x0 x4 x5 x6 i c
      = (∑ b : Fin 3, x5 (ix2 c b)
          * x0 (ix2 (row (val_main_v14 (F := Ideal) x4 (ix2 i (0 : Fin 1)))) b))
        + x6 (ix2 c (0 : Fin 1)) := by
  unfold Cert.RefValue.refP val_main_v15
  rw [reference_gather3_apply]
  generalize row (val_main_v14 (F := Ideal) x4 (ix2 i (0 : Fin 1))) = r
  rw [val_main_v4_apply, val_main_v3_apply, val_main_v1_apply, val_main_v2_apply]
  simp only [val_main_v0_apply]
  have e1 : ∀ k : Fin 3, lidx_main_v1 (idx_main_v4 (ix2 r c)) k = ix2 c k := fun k =>
    funext fun a => by
      match a with
      | ⟨0, _⟩ => rfl
      | ⟨1, _⟩ => rfl
  have e2 : ∀ k : Fin 3, idx_main_v0 (ridx_main_v1 (idx_main_v4 (ix2 r c)) k) = ix2 r k := fun k =>
    funext fun a => by
      match a with
      | ⟨0, _⟩ => rfl
      | ⟨1, _⟩ => rfl
  have e3 : idx_main_v2 (idx_main_v4 (ix2 r c)) = ix2 c (0 : Fin 1) :=
    funext fun a => by
      match a with
      | ⟨0, _⟩ => rfl
      | ⟨1, _⟩ => rfl
  simp only [e1, e2, e3]
  rfl

/-- Entry (i, c) of the reference's selected target points: a picked row of the argument. -/
theorem refQ_apply (x1 : (⟨S20000x3, .f32⟩ : BufTy).Contents (Elt Ideal))
    (x4 : (⟨S8192x2, .i32⟩ : BufTy).Contents (Elt Ideal)) (i : Fin 8192) (c : Fin 3) :
    Cert.RefValue.refQ x1 x4 i c
      = x1 (ix2 (row (val_main_v21 (F := Ideal) x4 (ix2 i (0 : Fin 1)))) c) := by
  unfold Cert.RefValue.refQ val_main_v22
  rw [reference_gather3_apply]

/-- Entry (i, c) of the reference's selected source features: a picked row of the argument. -/
theorem refA_apply (x2 : (⟨S20000x32, .f32⟩ : BufTy).Contents (Elt Ideal))
    (x4 : (⟨S8192x2, .i32⟩ : BufTy).Contents (Elt Ideal)) (i : Fin 8192) (c : Fin 32) :
    Cert.RefValue.refA x2 x4 i c
      = x2 (ix2 (row (val_main_v28 (F := Ideal) x4 (ix2 i (0 : Fin 1)))) c) := by
  unfold Cert.RefValue.refA val_main_v29
  rw [reference_gather32_apply]

/-- Entry (i, c) of the reference's selected target features: a picked row of the argument. -/
theorem refB_apply (x3 : (⟨S20000x32, .f32⟩ : BufTy).Contents (Elt Ideal))
    (x4 : (⟨S8192x2, .i32⟩ : BufTy).Contents (Elt Ideal)) (i : Fin 8192) (c : Fin 32) :
    Cert.RefValue.refB x3 x4 i c
      = x3 (ix2 (row (val_main_v35 (F := Ideal) x4 (ix2 i (0 : Fin 1)))) c) := by
  unfold Cert.RefValue.refB val_main_v36
  rw [reference_gather32_apply]

/-- A finite sum of real numbers is a real number. -/
theorem sum_real {ι : Type*} (s : Finset ι) (f : ι → EReal) (h : ∀ b, ∃ r : ℝ, f b = (r : EReal)) :
    ∃ r : ℝ, ∑ b ∈ s, f b = (r : EReal) := by
  choose g hg using h
  exact ⟨∑ b ∈ s, g b, by rw [Cert.Math.coe_sum]; exact Finset.sum_congr rfl (fun b _ => hg b)⟩

/-- With real arguments the selected source points are real. -/
theorem refP_real (x0 : (⟨S20000x3, .f32⟩ : BufTy).Contents (Elt Ideal))
    (x4 : (⟨S8192x2, .i32⟩ : BufTy).Contents (Elt Ideal))
    (x5 : (⟨S3x3, .f32⟩ : BufTy).Contents (Elt Ideal)) (x6 : (⟨S3x1, .f32⟩ : BufTy).Contents (Elt Ideal))
    (h0 : ∀ j, ∃ r : ℝ, x0 j = (r : EReal)) (h5 : ∀ j, ∃ r : ℝ, x5 j = (r : EReal))
    (h6 : ∀ j, ∃ r : ℝ, x6 j = (r : EReal)) (i : Fin 8192) (c : Fin 3) :
    ∃ r : ℝ, Cert.RefValue.refP x0 x4 x5 x6 i c = (r : EReal) := by
  rw [refP_apply]
  obtain ⟨s, hs⟩ := sum_real Finset.univ
    (fun b : Fin 3 => x5 (ix2 c b)
      * x0 (ix2 (row (val_main_v14 (F := Ideal) x4 (ix2 i (0 : Fin 1)))) b))
    (fun b => by
      obtain ⟨u, hu⟩ := h5 (ix2 c b)
      obtain ⟨v, hv⟩ := h0 (ix2 (row (val_main_v14 (F := Ideal) x4 (ix2 i (0 : Fin 1)))) b)
      exact ⟨u * v, by rw [hu, hv, EReal.coe_mul]⟩)
  obtain ⟨t, ht⟩ := h6 (ix2 c (0 : Fin 1))
  exact ⟨s + t, by rw [hs, ht, EReal.coe_add]⟩

/-- With real arguments the selected target points are real. -/
theorem refQ_real (x1 : (⟨S20000x3, .f32⟩ : BufTy).Contents (Elt Ideal))
    (x4 : (⟨S8192x2, .i32⟩ : BufTy).Contents (Elt Ideal))
    (h1 : ∀ j, ∃ r : ℝ, x1 j = (r : EReal)) (i : Fin 8192) (c : Fin 3) :
    ∃ r : ℝ, Cert.RefValue.refQ x1 x4 i c = (r : EReal) := by
  rw [refQ_apply]; exact h1 _

/-- With real arguments the selected source features are real. -/
theorem refA_real (x2 : (⟨S20000x32, .f32⟩ : BufTy).Contents (Elt Ideal))
    (x4 : (⟨S8192x2, .i32⟩ : BufTy).Contents (Elt Ideal))
    (h2 : ∀ j, ∃ r : ℝ, x2 j = (r : EReal)) (i : Fin 8192) (c : Fin 32) :
    ∃ r : ℝ, Cert.RefValue.refA x2 x4 i c = (r : EReal) := by
  rw [refA_apply]; exact h2 _

/-- With real arguments the selected target features are real. -/
theorem refB_real (x3 : (⟨S20000x32, .f32⟩ : BufTy).Contents (Elt Ideal))
    (x4 : (⟨S8192x2, .i32⟩ : BufTy).Contents (Elt Ideal))
    (h3 : ∀ j, ∃ r : ℝ, x3 j = (r : EReal)) (i : Fin 8192) (c : Fin 32) :
    ∃ r : ℝ, Cert.RefValue.refB x3 x4 i c = (r : EReal) := by
  rw [refB_apply]; exact h3 _

end Cert.Bridge

end
-- ==== Proof.BridgeKer.lean ====
/-
  The kernel's selected source points, entry by entry, and their agreement with the reference's.

  The kernel picks the rows first and then applies the rigid motion to the 8192 picked rows: entry (i, c) is
  sum_b x[r, b] * R[c, b] + t[c], where r is the row the i-th start index names. That is the reference's entry
  with each product commuted.
-/
import proofs.«167056_j70995809402955_2_alg».proof.KernelIdeal
import proofs.«167056_j70995809402955_2_alg».proof.Proof.GathRows
import proofs.«167056_j70995809402955_2_alg».proof.Proof.BridgeRef
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.ValueIdx Cert.GathRows

section Kernel

open Cert.KernelIdeal Cert.KernelIdeal.Facts₀

variable [Cert.KernelIdeal.Facts₀]

/-- The kernel program's source points for an index column: the picked rows times the transposed rotation, plus
    the translation broadcast over the rows. -/
def kerPts (x0 : FVec Ideal S20000x3 .f32) (x5 : FVec Ideal S3x3 .f32) (x6 : FVec Ideal S3x1 .f32)
    (idx : IVec S8192x1 32) : FVec Ideal S8192x3 .f32 :=
  addf
    (Host.dotGeneral (F := Ideal) (φ₁ := .f32) (φ₂ := .f32) dot_S8192x3_S3x3_S8192x3_1_0_0_1_n_n none
      (Host.gather gather_S20000x3_S8192x1_S8192x3_1_0_n_n_0_1_13 x0 idx)
      (transpose S3x3 [1, 0] x5 transposes_S3x3_S3x3_1_0))
    (broadcastInDim S8192x3 ![0, 1] bcast_S1x3_S8192x3_0_1
      (transpose S1x3 [1, 0] x6 transposes_S3x1_S1x3_1_0))

theorem lhs_pts_0 (j : S8192x3.Idx) (q : dot_S8192x3_S3x3_S8192x3_1_0_0_1_n_n.contr.Idx) :
    (dot_S8192x3_S3x3_S8192x3_1_0_0_1_n_n.lhsIdx j q 0).val = (j 0).val := by
  unfold DotDims.lhsIdx
  rw [dif_neg (show ¬(0 : Fin S8192x3.rank) ∈ dot_S8192x3_S3x3_S8192x3_1_0_0_1_n_n.lhsBatch from
      (by decide : ¬(0 : Fin 2) ∈ ([] : List (Fin 2)))),
    dif_pos (show (0 : Fin S8192x3.rank) ∈ dot_S8192x3_S3x3_S8192x3_1_0_0_1_n_n.lhsNonContracting from
      (by decide : (0 : Fin 2) ∈ ([0] : List (Fin 2))))]
  rfl

theorem rhs_pts_1 (j : S8192x3.Idx) (q : dot_S8192x3_S3x3_S8192x3_1_0_0_1_n_n.contr.Idx) :
    (dot_S8192x3_S3x3_S8192x3_1_0_0_1_n_n.rhsIdx j q 1).val = (j 1).val := by
  unfold DotDims.rhsIdx
  rw [dif_neg (show ¬(1 : Fin S3x3.rank) ∈ dot_S8192x3_S3x3_S8192x3_1_0_0_1_n_n.rhsBatch from
      (by decide : ¬(1 : Fin 2) ∈ ([] : List (Fin 2)))),
    dif_pos (show (1 : Fin S3x3.rank) ∈ dot_S8192x3_S3x3_S8192x3_1_0_0_1_n_n.rhsNonContracting from
      (by decide : (1 : Fin 2) ∈ ([1] : List (Fin 2))))]
  rfl

/-- Entry (i, c) of the kernel's source points. -/
theorem kerPts_apply (x0 : FVec Ideal S20000x3 .f32) (x5 : FVec Ideal S3x3 .f32) (x6 : FVec Ideal S3x1 .f32)
    (idx : IVec S8192x1 32) (i : Fin 8192) (c : Fin 3) :
    kerPts x0 x5 x6 idx (ix2 i c)
      = (∑ b : Fin 3, x0 (ix2 (row (idx (ix2 i (0 : Fin 1)))) b) * x5 (ix2 c b))
        + x6 (ix2 c (0 : Fin 1)) := by
  have hdot : Host.dotGeneral (F := Ideal) (φ₁ := .f32) (φ₂ := .f32) dot_S8192x3_S3x3_S8192x3_1_0_0_1_n_n none
      (Host.gather gather_S20000x3_S8192x1_S8192x3_1_0_n_n_0_1_13 x0 idx)
      (transpose S3x3 [1, 0] x5 transposes_S3x3_S3x3_1_0) (ix2 i c)
      = ∑ b : Fin 3, x0 (ix2 (row (idx (ix2 i (0 : Fin 1)))) b) * x5 (ix2 c b) := by
    simp only [Host.dotGeneral]
    rw [Ideal.dotGeneral_apply,
      ← Equiv.sum_comp (ValueIdx.contrEquiv1 dot_S8192x3_S3x3_S8192x3_1_0_0_1_n_n 3 rfl rfl).symm]
    refine Finset.sum_congr rfl fun k _ => ?_
    have hk := ValueIdx.contrEquiv1_symm_val dot_S8192x3_S3x3_S8192x3_1_0_0_1_n_n 3 rfl rfl k
    have el : dot_S8192x3_S3x3_S8192x3_1_0_0_1_n_n.lhsIdx (ix2 i c)
        ((ValueIdx.contrEquiv1 dot_S8192x3_S3x3_S8192x3_1_0_0_1_n_n 3 rfl rfl).symm k) = ix2 i k :=
      funext fun a => Fin.ext (by
        match a with
        | ⟨0, _⟩ => exact lhs_pts_0 _ _
        | ⟨1, _⟩ =>
          exact (dot_S8192x3_S3x3_S8192x3_1_0_0_1_n_n.lhsIdx_val_of_single rfl _ _).trans hk)
    have er : dot_S8192x3_S3x3_S8192x3_1_0_0_1_n_n.rhsIdx (ix2 i c)
        ((ValueIdx.contrEquiv1 dot_S8192x3_S3x3_S8192x3_1_0_0_1_n_n 3 rfl rfl).symm k) = ix2 k c :=
      funext fun a => Fin.ext (by
        match a with
        | ⟨0, _⟩ =>
          exact (dot_S8192x3_S3x3_S8192x3_1_0_0_1_n_n.rhsIdx_val_of_single rfl _ _).trans hk
        | ⟨1, _⟩ => exact rhs_pts_1 _ _)
    rw [el, er, kernel_gather3_apply,
      transpose_apply [1, 0] x5 transposes_S3x3_S3x3_1_0 (ix2 k c) (ix2 c k) (fun b => match b with
        | ⟨0, _⟩ => rfl
        | ⟨1, _⟩ => rfl)]
  have hadd : broadcastInDim S8192x3 ![0, 1] bcast_S1x3_S8192x3_0_1
      (transpose S1x3 [1, 0] x6 transposes_S3x1_S1x3_1_0) (ix2 i c) = x6 (ix2 c (0 : Fin 1)) := by
    rw [broadcastInDim_apply _ bcast_S1x3_S8192x3_0_1 _ (ix2 i c) (ix2 (0 : Fin 1) c) (fun a => match a with
        | ⟨0, _⟩ => by show 0 = if (1 : Nat) = 1 then 0 else i.val; rw [if_pos rfl]
        | ⟨1, _⟩ => by show c.val = if (3 : Nat) = 1 then 0 else c.val; rw [if_neg (by decide)]),
      transpose_apply [1, 0] x6 transposes_S3x1_S1x3_1_0 (ix2 (0 : Fin 1) c) (ix2 c (0 : Fin 1))
        (fun b => match b with
          | ⟨0, _⟩ => rfl
          | ⟨1, _⟩ => rfl)]
  exact congrArg₂ (· + ·) hdot hadd

end Kernel

/-- For the reference's own index column the kernel's source points are the reference's selected source points:
    the products are commuted term by term. -/
theorem kerPts_eq_refP [Cert.KernelIdeal.Facts₀]
    (x0 : (⟨Cert.ReferenceIdeal.S20000x3, .f32⟩ : BufTy).Contents (Elt Ideal))
    (x4 : (⟨Cert.ReferenceIdeal.S8192x2, .i32⟩ : BufTy).Contents (Elt Ideal))
    (x5 : (⟨Cert.ReferenceIdeal.S3x3, .f32⟩ : BufTy).Contents (Elt Ideal))
    (x6 : (⟨Cert.ReferenceIdeal.S3x1, .f32⟩ : BufTy).Contents (Elt Ideal)) :
    (fun i c => kerPts x0 x5 x6 (Cert.ReferenceIdeal.Read.val_main_v14 (F := Ideal) x4) (ix2 i c))
      = Cert.RefValue.refP x0 x4 x5 x6 := by
  funext i c
  rw [kerPts_apply, refP_apply]
  congr 1
  exact Finset.sum_congr rfl (fun b _ => mul_comm _ _)

end Cert.Bridge

end
-- ==== Proof.RefDistP.lean ====
/-
  The reference's point distance at (i, j): the square root of |p_i|^2 + |q_j|^2 - (2 p_i) . q_j, clamped at
  zero, plus epsilon — the specification's dist of the two selected point arrays.
-/
import proofs.«167056_j70995809402955_2_alg».proof.Proof.RefSel

noncomputable section

namespace Cert.RefValue

open Cert.ReferenceIdeal Cert.ReferenceIdeal.Gen Cert.ReferenceIdeal.Read Idealize.ShloMosaic Idealize.ShloMosaic.ValueIdx

variable (x0 x1 : (⟨S20000x3, .f32⟩ : BufTy).Contents (Elt Ideal)) (x4 : (⟨S8192x2, .i32⟩ : BufTy).Contents (Elt Ideal))
  (x5 : (⟨S3x3, .f32⟩ : BufTy).Contents (Elt Ideal)) (x6 : (⟨S3x1, .f32⟩ : BufTy).Contents (Elt Ideal))

/-- The word for 2.0 is the real number two. -/
theorem two_word : Ideal.ofBits .f32 0x40000000#32 = 2 := by
  simp [Ideal.ofBits, Ideal.ieee, -EReal.coe_mul] <;> norm_num
  first | rfl | norm_cast

/-- The squared norm of row i of the left array, broadcast along the columns. -/
theorem ptsRowSq (i j : Fin 8192) :
    val_main_v43 (F := Ideal) x0 x4 x5 x6 (ix2 i j) = ∑ c, refP x0 x4 x5 x6 i c * refP x0 x4 x5 x6 i c := by
  rw [val_main_v43_apply, val_main_v39_apply, val_main_v38_apply, val_main_cst_apply, Ideal.ofBits_def,
    Ideal.ofBits_zero_f32, zero_add]
  refine Finset.sum_congr rfl fun k _ => ?_
  rw [val_main_v37_apply, Ideal.mulf_def]
  have e : idx_main_v38 (idx_main_v39 (idx_main_v43 (ix2 i j))) k = ix2 i k :=
    funext fun a => Fin.ext (by match a with | ⟨0, _⟩ => rfl | ⟨1, _⟩ => rfl)
  rw [e]
  rfl

/-- The squared norm of row j of the right array, broadcast along the rows. -/
theorem ptsColSq (i j : Fin 8192) :
    val_main_v44 (F := Ideal) x1 x4 (ix2 i j) = ∑ c, refQ x1 x4 j c * refQ x1 x4 j c := by
  rw [val_main_v44_apply, val_main_v42_apply, val_main_v41_apply, val_main_cst_7_apply, Ideal.ofBits_def,
    Ideal.ofBits_zero_f32, zero_add]
  refine Finset.sum_congr rfl fun k _ => ?_
  rw [val_main_v40_apply, Ideal.mulf_def]
  have e : idx_main_v41 (idx_main_v42 (idx_main_v44 (ix2 i j))) k = ix2 j k :=
    funext fun a => Fin.ext (by match a with | ⟨0, _⟩ => rfl | ⟨1, _⟩ => rfl)
  rw [e]
  rfl

/-- The product of twice the left array with the transposed right array, at (i, j). -/
theorem ptsDot (i j : Fin 8192) :
    val_main_v49 (F := Ideal) x0 x1 x4 x5 x6 (ix2 i j) = ∑ c, (2 * refP x0 x4 x5 x6 i c) * refQ x1 x4 j c := by
  rw [val_main_v49_apply]
  refine Finset.sum_congr rfl fun k _ => ?_
  rw [val_main_v47_apply, val_main_v46_apply, val_main_cst_8_apply, val_main_v48_apply, Ideal.mulf_def,
    Ideal.ofBits_def, two_word]
  have el : lidx_main_v49 (ix2 i j) k = ix2 i k :=
    funext fun a => Fin.ext (by match a with | ⟨0, _⟩ => rfl | ⟨1, _⟩ => rfl)
  have er : idx_main_v48 (ridx_main_v49 (ix2 i j) k) = ix2 j k :=
    funext fun a => Fin.ext (by match a with | ⟨0, _⟩ => rfl | ⟨1, _⟩ => rfl)
  rw [el, er]
  rfl

/-- The distance of row i of the left array and row j of the right one. -/
theorem ptsDist (i j : Fin 8192) :
    val_main_v55 (F := Ideal) x0 x1 x4 x5 x6 (ix2 i j) = Spec.dist Spec.consts (refP x0 x4 x5 x6) (refQ x1 x4) i j := by
  rw [val_main_v55_apply, val_main_v54_apply, val_main_v52_apply, val_main_v50_apply, val_main_v45_apply,
    val_main_v53_apply, val_main_cst_10_apply, val_main_v51_apply, val_main_cst_9_apply,
    ptsRowSq, ptsColSq, ptsDot, Ideal.hostUnary_sqrt_def, Ideal.addf_def, Ideal.addf_def, Ideal.maximumf_def,
    Ideal.subf_def, Ideal.ofBits_def, Ideal.ofBits_def, Ideal.ofBits_zero_f32]
  rfl

end Cert.RefValue

end
-- ==== Proof.RefDistF.lean ====
/-
  The reference's feature distance at (i, j): the same form over the two selected feature arrays (32 coordinates).
-/
import proofs.«167056_j70995809402955_2_alg».proof.Proof.RefDistP

noncomputable section

namespace Cert.RefValue

open Cert.ReferenceIdeal Cert.ReferenceIdeal.Gen Cert.ReferenceIdeal.Read Idealize.ShloMosaic Idealize.ShloMosaic.ValueIdx

variable (x2 x3 : (⟨S20000x32, .f32⟩ : BufTy).Contents (Elt Ideal)) (x4 : (⟨S8192x2, .i32⟩ : BufTy).Contents (Elt Ideal))

/-- The squared norm of row i of the left array, broadcast along the columns. -/
theorem featRowSq (i j : Fin 8192) :
    val_main_v62 (F := Ideal) x2 x4 (ix2 i j) = ∑ c, refA x2 x4 i c * refA x2 x4 i c := by
  rw [val_main_v62_apply, val_main_v58_apply, val_main_v57_apply, val_main_cst_11_apply, Ideal.ofBits_def,
    Ideal.ofBits_zero_f32, zero_add]
  refine Finset.sum_congr rfl fun k _ => ?_
  rw [val_main_v56_apply, Ideal.mulf_def]
  have e : idx_main_v57 (idx_main_v58 (idx_main_v62 (ix2 i j))) k = ix2 i k :=
    funext fun a => Fin.ext (by match a with | ⟨0, _⟩ => rfl | ⟨1, _⟩ => rfl)
  rw [e]
  rfl

/-- The squared norm of row j of the right array, broadcast along the rows. -/
theorem featColSq (i j : Fin 8192) :
    val_main_v63 (F := Ideal) x3 x4 (ix2 i j) = ∑ c, refB x3 x4 j c * refB x3 x4 j c := by
  rw [val_main_v63_apply, val_main_v61_apply, val_main_v60_apply, val_main_cst_12_apply, Ideal.ofBits_def,
    Ideal.ofBits_zero_f32, zero_add]
  refine Finset.sum_congr rfl fun k _ => ?_
  rw [val_main_v59_apply, Ideal.mulf_def]
  have e : idx_main_v60 (idx_main_v61 (idx_main_v63 (ix2 i j))) k = ix2 j k :=
    funext fun a => Fin.ext (by match a with | ⟨0, _⟩ => rfl | ⟨1, _⟩ => rfl)
  rw [e]
  rfl

/-- The product of twice the left array with the transposed right array, at (i, j). -/
theorem featDot (i j : Fin 8192) :
    val_main_v68 (F := Ideal) x2 x3 x4 (ix2 i j) = ∑ c, (2 * refA x2 x4 i c) * refB x3 x4 j c := by
  rw [val_main_v68_apply]
  refine Finset.sum_congr rfl fun k _ => ?_
  rw [val_main_v66_apply, val_main_v65_apply, val_main_cst_13_apply, val_main_v67_apply, Ideal.mulf_def,
    Ideal.ofBits_def, two_word]
  have el : lidx_main_v68 (ix2 i j) k = ix2 i k :=
    funext fun a => Fin.ext (by match a with | ⟨0, _⟩ => rfl | ⟨1, _⟩ => rfl)
  have er : idx_main_v67 (ridx_main_v68 (ix2 i j) k) = ix2 j k :=
    funext fun a => Fin.ext (by match a with | ⟨0, _⟩ => rfl | ⟨1, _⟩ => rfl)
  rw [el, er]
  rfl

/-- The distance of row i of the left array and row j of the right one. -/
theorem featDist (i j : Fin 8192) :
    val_main_v74 (F := Ideal) x2 x3 x4 (ix2 i j) = Spec.dist Spec.consts (refA x2 x4) (refB x3 x4) i j := by
  rw [val_main_v74_apply, val_main_v73_apply, val_main_v71_apply, val_main_v69_apply, val_main_v64_apply,
    val_main_v72_apply, val_main_cst_15_apply, val_main_v70_apply, val_main_cst_14_apply,
    featRowSq, featColSq, featDot, Ideal.hostUnary_sqrt_def, Ideal.addf_def, Ideal.addf_def, Ideal.maximumf_def,
    Ideal.subf_def, Ideal.ofBits_def, Ideal.ofBits_def, Ideal.ofBits_zero_f32]
  rfl

end Cert.RefValue

end
-- ==== Proof.RefMask.lean ====
/-
  The two masked feature-distance arrays of the reference at (i, j): the feature distance times the indicator of
  "the point distance is below the positive radius", and the feature distance where the point distance is above
  the negative radius, the fill value elsewhere.
-/
import proofs.«167056_j70995809402955_2_alg».proof.Proof.RefDistF

noncomputable section

namespace Cert.RefValue

open Cert.ReferenceIdeal Cert.ReferenceIdeal.Gen Cert.ReferenceIdeal.Read Idealize.ShloMosaic Idealize.ShloMosaic.ValueIdx

variable (x0 x1 : (⟨S20000x3, .f32⟩ : BufTy).Contents (Elt Ideal)) (x2 x3 : (⟨S20000x32, .f32⟩ : BufTy).Contents (Elt Ideal))
  (x4 : (⟨S8192x2, .i32⟩ : BufTy).Contents (Elt Ideal)) (x5 : (⟨S3x3, .f32⟩ : BufTy).Contents (Elt Ideal))
  (x6 : (⟨S3x1, .f32⟩ : BufTy).Contents (Elt Ideal))

/-- The one-bit result of "a < b", converted to a float, is the indicator of a < b. -/
theorem lt_word (a b : EReal) :
    FloatOps.uitofp (F := Ideal) .f32 (Ideal.cmp .olt a b) = if a < b then 1 else 0 := by
  show (((Ideal.cmp .olt a b).toNat : ℝ) : EReal) = _
  by_cases h : a < b
  · rw [if_pos h]; simp [Ideal.cmp, h]
  · rw [if_neg h]; simp [Ideal.cmp, h]

/-- A select on the one-bit result of "a > b" is the if on b < a. -/
theorem select_gt (a b x y : EReal) :
    Scalar.select (Ideal.cmp .ogt a b) x y = if b < a then x else y := by
  by_cases h : b < a
  · rw [if_pos h]; simp [Ideal.cmp, h, Scalar.select]
  · rw [if_neg h]; simp [Ideal.cmp, h, Scalar.select]

/-- The feature distance times the indicator of a positive column. -/
theorem maskPos (i j : Fin 8192) :
    val_main_v80 (F := Ideal) x0 x1 x2 x3 x4 x5 x6 (ix2 i j)
      = Spec.dist Spec.consts (refA x2 x4) (refB x3 x4) i j
          * (if Spec.dist Spec.consts (refP x0 x4 x5 x6) (refQ x1 x4) i j < Spec.consts.rp then 1 else 0) := by
  rw [val_main_v80_apply, val_main_v79_apply, val_main_v76_apply, val_main_v75_apply, val_main_cst_16_apply,
    featDist, ptsDist, Ideal.mulf_def, Ideal.cmpf_def, Ideal.ofBits_def, lt_word]
  rfl

/-- The feature distance at a negative column, the fill value elsewhere. -/
theorem selNeg (i j : Fin 8192) :
    val_main_v82 (F := Ideal) x0 x1 x2 x3 x4 x5 x6 (ix2 i j)
      = if Spec.consts.rn < Spec.dist Spec.consts (refP x0 x4 x5 x6) (refQ x1 x4) i j
          then Spec.dist Spec.consts (refA x2 x4) (refB x3 x4) i j else Spec.consts.big := by
  rw [val_main_v82_apply, val_main_v78_apply, val_main_v77_apply, val_main_cst_17_apply, val_main_call0_v1_apply,
    val_main_call0_v0_apply, val_main_cst_19_apply, featDist, ptsDist, Ideal.cmpf_def, Ideal.ofBits_def, Ideal.ofBits_def,
    select_gt]
  rfl

end Cert.RefValue

end
-- ==== Proof.RefFolds.lean ====
/-
  The reference's two row folds. A reduce over the column axis with a commutative, associative body is the fold
  over the 8192 columns from the initial word; the initial words are the two infinities, the bottom and the top of
  the extended reals, so the maximum of the masked distances is the specification's refFpos and the minimum of the
  selected ones its refCneg.
-/
import proofs.«167056_j70995809402955_2_alg».proof.Proof.RefMask

noncomputable section

namespace Cert.RefValue

open Cert.ReferenceIdeal Cert.ReferenceIdeal.Gen Cert.ReferenceIdeal.Read Idealize.ShloMosaic Idealize.ShloMosaic.ValueIdx

variable (x0 x1 : (⟨S20000x3, .f32⟩ : BufTy).Contents (Elt Ideal)) (x2 x3 : (⟨S20000x32, .f32⟩ : BufTy).Contents (Elt Ideal))
  (x4 : (⟨S8192x2, .i32⟩ : BufTy).Contents (Elt Ideal)) (x5 : (⟨S3x3, .f32⟩ : BufTy).Contents (Elt Ideal))
  (x6 : (⟨S3x1, .f32⟩ : BufTy).Contents (Elt Ideal))

/-- The word 0xFF800000 is minus infinity. -/
theorem neg_inf_word : Ideal.ofBits .f32 0xFF800000#32 = ⊥ := by simp [Ideal.ofBits, Ideal.ieee]

/-- The word 0x7F800000 is plus infinity. -/
theorem pos_inf_word : Ideal.ofBits .f32 0x7F800000#32 = ⊤ := by simp [Ideal.ofBits, Ideal.ieee]

/-- Dropping the column axis of an 8192 x 8192 array leaves the 8192 rows. -/
theorem dropCols : S8192x8192.Reduces [1] S8192 := by decide

/-- Row i with column k put back is the index (i, k). -/
theorem lift_eq (i k : Fin 8192) : dropCols.lift (ix1 i) k = ix2 i k :=
  funext fun a => Fin.ext (by match a with | ⟨0, _⟩ => rfl | ⟨1, _⟩ => rfl)

/-- A maximum-reduce over the columns from minus infinity, at row i: the fold of max from the bottom over the columns. -/
theorem rowMax (x : S8192x8192.Idx → EReal) (i : Fin 8192) :
    Host.reduce (FloatOps.maximumf (F := Ideal) (φ := .f32)) x (val_main_cst_18 (F := Ideal))
        reducesTo_S8192x8192_S8192_d1 h_S_ (ix1 i)
      = (Finset.univ : Finset (Fin 8192)).fold max ⊥ (fun j => x (ix2 i j)) := by
  rw [Host.reduce_eq_fold_single _ x _ reducesTo_S8192x8192_S8192_d1 dropCols h_S_ (ix1 i), val_main_cst_18_apply,
    Ideal.ofBits_def, neg_inf_word]
  have e : (x ∘ dropCols.lift (ix1 i)) = fun j : Fin 8192 => x (ix2 i j) :=
    funext fun k => congrArg x (lift_eq i k)
  rw [e]
  rfl

/-- A minimum-reduce over the columns from plus infinity, at row i: the fold of min from the top over the columns. -/
theorem rowMin (x : S8192x8192.Idx → EReal) (i : Fin 8192) :
    Host.reduce (FloatOps.minimumf (F := Ideal) (φ := .f32)) x (val_main_cst_20 (F := Ideal))
        reducesTo_S8192x8192_S8192_d1 h_S_ (ix1 i)
      = (Finset.univ : Finset (Fin 8192)).fold min ⊤ (fun j => x (ix2 i j)) := by
  rw [Host.reduce_eq_fold_single _ x _ reducesTo_S8192x8192_S8192_d1 dropCols h_S_ (ix1 i), val_main_cst_20_apply,
    Ideal.ofBits_def, pos_inf_word]
  have e : (x ∘ dropCols.lift (ix1 i)) = fun j : Fin 8192 => x (ix2 i j) :=
    funext fun k => congrArg x (lift_eq i k)
  rw [e]
  rfl

/-- The furthest positive of row i. -/
theorem foldPos (i : Fin 8192) :
    val_main_v81 (F := Ideal) x0 x1 x2 x3 x4 x5 x6 (ix1 i)
      = Spec.refFpos Spec.consts (refP x0 x4 x5 x6) (refQ x1 x4) (refA x2 x4) (refB x3 x4) i := by
  unfold val_main_v81
  rw [rowMax]
  unfold Spec.refFpos
  exact congrArg (fun f => (Finset.univ : Finset (Fin 8192)).fold max ⊥ f)
    (funext fun j => maskPos x0 x1 x2 x3 x4 x5 x6 i j)

/-- The closest negative of row i. -/
theorem foldNeg (i : Fin 8192) :
    val_main_v83 (F := Ideal) x0 x1 x2 x3 x4 x5 x6 (ix1 i)
      = Spec.refCneg Spec.consts (refP x0 x4 x5 x6) (refQ x1 x4) (refA x2 x4) (refB x3 x4) i := by
  unfold val_main_v83
  rw [rowMin]
  unfold Spec.refCneg
  exact congrArg (fun f => (Finset.univ : Finset (Fin 8192)).fold min ⊤ f)
    (funext fun j => selNeg x0 x1 x2 x3 x4 x5 x6 i j)

end Cert.RefValue

end
-- ==== Proof.RefLoss.lean ====
/-
  The tail of the reference: the two hinges of every row, their sums over the 8192 rows, the two divisions by the
  row count and the final sum — the specification's refLoss of the four selected arrays.
-/
import proofs.«167056_j70995809402955_2_alg».proof.Proof.RefFolds

noncomputable section

namespace Cert.RefValue

open Cert.ReferenceIdeal Cert.ReferenceIdeal.Gen Cert.ReferenceIdeal.Read Idealize.ShloMosaic Idealize.ShloMosaic.ValueIdx

variable (x0 x1 : (⟨S20000x3, .f32⟩ : BufTy).Contents (Elt Ideal)) (x2 x3 : (⟨S20000x32, .f32⟩ : BufTy).Contents (Elt Ideal))
  (x4 : (⟨S8192x2, .i32⟩ : BufTy).Contents (Elt Ideal)) (x5 : (⟨S3x3, .f32⟩ : BufTy).Contents (Elt Ideal))
  (x6 : (⟨S3x1, .f32⟩ : BufTy).Contents (Elt Ideal))

/-- A rank-1 index set of 8192 rows is its one coordinate's range. -/
def rowEquiv : S8192.Idx ≃ Fin 8192 where
  toFun j := j 0
  invFun i := ix1 i
  left_inv j := (eq_ix1 j).symm
  right_inv _ := rfl

/-- So a sum over it is the sum over the rows. -/
theorem sum_rows (f : S8192.Idx → EReal) : ∑ j, f j = ∑ i : Fin 8192, f (ix1 i) := by
  rw [← Equiv.sum_comp rowEquiv.symm f]
  rfl

/-- The positive hinge of row i. -/
theorem hingePos (i : Fin 8192) :
    val_main_v86 (F := Ideal) x0 x1 x2 x3 x4 x5 x6 (ix1 i)
      = Spec.relu (Spec.refFpos Spec.consts (refP x0 x4 x5 x6) (refQ x1 x4) (refA x2 x4) (refB x3 x4) i - Spec.consts.mpos) := by
  rw [val_main_v86_apply, val_main_v85_apply, val_main_v84_apply, val_main_cst_21_apply, val_main_call1_v0_apply,
    val_main_call1_cst_apply, foldPos, Ideal.maximumf_def, Ideal.subf_def, Ideal.ofBits_def, Ideal.ofBits_def,
    Ideal.ofBits_zero_f32]
  rfl

/-- The negative hinge of row i. -/
theorem hingeNeg (i : Fin 8192) :
    val_main_v89 (F := Ideal) x0 x1 x2 x3 x4 x5 x6 (ix1 i)
      = Spec.relu (Spec.consts.mneg - Spec.refCneg Spec.consts (refP x0 x4 x5 x6) (refQ x1 x4) (refA x2 x4) (refB x3 x4) i) := by
  rw [val_main_v89_apply, val_main_v88_apply, val_main_v87_apply, val_main_cst_22_apply, val_main_call2_v0_apply,
    val_main_call2_cst_apply, foldNeg, Ideal.maximumf_def, Ideal.subf_def, Ideal.ofBits_def, Ideal.ofBits_def,
    Ideal.ofBits_zero_f32]
  rfl

/-- The reference's result is the specification's reference form of the loss, over its four selected arrays. -/
theorem ref_loss :
    val_main_v94 (F := Ideal) x0 x1 x2 x3 x4 x5 x6
      = fun _ => Spec.refLoss Spec.consts (refP x0 x4 x5 x6) (refQ x1 x4) (refA x2 x4) (refB x3 x4) := by
  funext z
  rw [val_main_v94_apply, val_main_v91_apply, val_main_v93_apply, val_main_v90_apply, val_main_v92_apply,
    val_main_cst_23_apply, val_main_cst_25_apply, val_main_cst_24_apply, val_main_cst_26_apply, sum_rows, sum_rows]
  simp only [hingePos, hingeNeg, Ideal.ofBits_def, Ideal.ofBits_zero_f32, zero_add, Ideal.addf_def, Ideal.hostDivf_def]
  rfl

end Cert.RefValue

end
-- ==== Proof.MathTiles.lean ====
/-
  The running maximum (from 0) and the running minimum (from the squared fill) over the eight tiles of 1024 lanes
  are the maximum with 0, and the minimum with the squared fill, of one fold over all 8192 columns: every column
  j is lane j mod 1024 of tile j / 1024. Both are shown through their universal properties (what it means to be
  below every bound, or above).
-/
import proofs.«167056_j70995809402955_2_alg».proof.Proof.Spec
import Mathlib.Data.Finset.Fold

noncomputable section

namespace Cert.Math

open Cert.Spec

variable (k : Consts) (P Q : Fin N → Fin 3 → EReal) (A B : Fin N → Fin 32 → EReal)

/-- Column j is lane j mod 1024 of tile j / 1024. -/
theorem col_div_mod (j : Fin N) :
    col (j.val / 1024) ⟨j.val % 1024, Nat.mod_lt _ (by norm_num)⟩ = j := by
  apply Fin.ext
  show (1024 * (j.val / 1024) + j.val % 1024) % 8192 = j.val
  rw [Nat.div_add_mod, Nat.mod_eq_of_lt j.isLt]

/-- A property holds at every lane of the tiles 0 .. 7 exactly when it holds at every column. -/
theorem forall_tiles_iff (f : Fin N → Prop) : (∀ b ≤ 7, ∀ l, f (col b l)) ↔ ∀ j, f j := by
  constructor
  · intro h j
    have hj : j.val < 8192 := j.isLt
    have := h (j.val / 1024) (by omega) ⟨j.val % 1024, Nat.mod_lt _ (by norm_num)⟩
    rwa [col_div_mod] at this
  · intro h b _ l
    exact h _

/-- What bounds the running maximum after tile n from above. -/
theorem accMax_le_iff (i : Fin N) (n : ℕ) (c : EReal) :
    accMax k P Q A B i n ≤ c ↔ 0 ≤ c ∧ ∀ b ≤ n, ∀ l, selPos k P Q A B i (col b l) ≤ c := by
  induction n with
  | zero =>
    simp only [accMax, tileMax, max_le_iff, Finset.fold_max_le, bot_le, true_and, Finset.mem_univ,
      forall_true_left, Nat.le_zero, forall_eq]
  | succ n ih =>
    simp only [accMax, tileMax, max_le_iff, ih, Finset.fold_max_le, bot_le, true_and, Finset.mem_univ,
      forall_true_left]
    constructor
    · rintro ⟨⟨h0, h1⟩, h2⟩
      refine ⟨h0, fun b hb l => ?_⟩
      rcases Nat.le_succ_iff.mp hb with h | h
      · exact h1 b h l
      · subst h; exact h2 l
    · rintro ⟨h0, h1⟩
      exact ⟨⟨h0, fun b hb l => h1 b (Nat.le_succ_of_le hb) l⟩, fun l => h1 (n + 1) le_rfl l⟩

/-- What bounds the running minimum after tile n from below. -/
theorem le_accMin_iff (i : Fin N) (n : ℕ) (c : EReal) :
    c ≤ accMin k P Q A B i n ↔ c ≤ k.bigSq ∧ ∀ b ≤ n, ∀ l, c ≤ selNeg k P Q A B i (col b l) := by
  induction n with
  | zero =>
    simp only [accMin, tileMin, le_min_iff, Finset.le_fold_min, le_top, true_and, Finset.mem_univ,
      forall_true_left, Nat.le_zero, forall_eq]
  | succ n ih =>
    simp only [accMin, tileMin, le_min_iff, ih, Finset.le_fold_min, le_top, true_and, Finset.mem_univ,
      forall_true_left]
    constructor
    · rintro ⟨⟨h0, h1⟩, h2⟩
      refine ⟨h0, fun b hb l => ?_⟩
      rcases Nat.le_succ_iff.mp hb with h | h
      · exact h1 b h l
      · subst h; exact h2 l
    · rintro ⟨h0, h1⟩
      exact ⟨⟨h0, fun b hb l => h1 b (Nat.le_succ_of_le hb) l⟩, fun l => h1 (n + 1) le_rfl l⟩

/-- After the eighth tile the running maximum is the maximum of 0 and the fold over all columns. -/
theorem accMax_seven (i : Fin N) :
    accMax k P Q A B i 7
      = max 0 ((Finset.univ : Finset (Fin N)).fold max ⊥ (fun j => selPos k P Q A B i j)) := by
  apply eq_of_forall_ge_iff
  intro c
  rw [accMax_le_iff, max_le_iff, Finset.fold_max_le,
    forall_tiles_iff (fun j => selPos k P Q A B i j ≤ c)]
  simp only [bot_le, true_and, Finset.mem_univ, forall_true_left]

/-- After the eighth tile the running minimum is the minimum of the squared fill and the fold over all columns. -/
theorem accMin_seven (i : Fin N) :
    accMin k P Q A B i 7
      = min k.bigSq ((Finset.univ : Finset (Fin N)).fold min ⊤ (fun j => selNeg k P Q A B i j)) := by
  apply eq_of_forall_le_iff
  intro c
  rw [le_accMin_iff, le_min_iff, Finset.le_fold_min,
    forall_tiles_iff (fun j => c ≤ selNeg k P Q A B i j)]
  simp only [le_top, true_and, Finset.mem_univ, forall_true_left]

end Cert.Math

end
-- ==== Proof.MathRows.lean ====
/-
  Row by row, the kernel's form against the reference's form, for constants that are real numbers.

  Positive side: each term of the reference's maximum is the root of the kernel's selected squared distance, so
  the root of the running maximum is the maximum of 0 and the reference's maximum; all terms are nonnegative, so
  the 0 is absorbed. Negative side: the root of the running minimum is the reference's minimum clipped at the
  fill, and the hinge does not see the clip because the fill is at or above the margin.
-/
import proofs.«167056_j70995809402955_2_alg».proof.Proof.Spec
import proofs.«167056_j70995809402955_2_alg».proof.Proof.MathSqrt
import proofs.«167056_j70995809402955_2_alg».proof.Proof.MathTiles
import proofs.«167056_j70995809402955_2_alg».proof.Proof.MathReal

noncomputable section

namespace Cert.Math

open Idealize.ShloMosaic Cert.Spec

variable (k : Consts) {P Q : Fin N → Fin 3 → EReal} {A B : Fin N → Fin 32 → EReal}
  {p q : Fin N → Fin 3 → ℝ} {a b : Fin N → Fin 32 → ℝ}

/-- The kernel's positive selection is nonnegative. -/
theorem selPos_nonneg (P Q : Fin N → Fin 3 → EReal) (A B : Fin N → Fin 32 → EReal) (h0 : 0 ≤ k.eps)
    (i j : Fin N) : 0 ≤ selPos k P Q A B i j := by
  unfold selPos
  split_ifs
  · exact featSq_nonneg k A B h0 i j
  · exact le_rfl

/-- A term of the reference's maximum is the root of the kernel's positive selection. -/
theorem pos_term {e : ℝ} (he : k.eps = (e : EReal)) (he0 : 0 ≤ e)
    (hP : ∀ i c, P i c = (p i c : EReal)) (hQ : ∀ i c, Q i c = (q i c : EReal))
    (hA : ∀ i c, A i c = (a i c : EReal)) (hB : ∀ i c, B i c = (b i c : EReal))
    {r t : ℝ} (hr : k.rp = (r : EReal)) (hr0 : 0 < r) (ht : k.tp = (t : EReal)) (htr : t = r * r - e)
    (i j : Fin N) :
    Spec.dist k A B i j * (if Spec.dist k P Q i j < k.rp then 1 else 0)
      = Ideal.sqrt (selPos k P Q A B i j) := by
  have hiff := pos_test_iff k he he0 hP hQ hr hr0 ht htr i j
  unfold selPos
  by_cases h : diffSq P Q i j < k.tp
  · rw [if_pos h, if_pos (hiff.mpr h), mul_one, Spec.dist, featSq_eq_gemmSq k hA hB]
  · rw [if_neg h, if_neg (fun h' => h (hiff.mp h')), mul_zero, sqrt_zero]

/-- The kernel's positive result of a row is the reference's. -/
theorem kerFpos_eq {e : ℝ} (he : k.eps = (e : EReal)) (he0 : 0 ≤ e)
    (hP : ∀ i c, P i c = (p i c : EReal)) (hQ : ∀ i c, Q i c = (q i c : EReal))
    (hA : ∀ i c, A i c = (a i c : EReal)) (hB : ∀ i c, B i c = (b i c : EReal))
    {r t : ℝ} (hr : k.rp = (r : EReal)) (hr0 : 0 < r) (ht : k.tp = (t : EReal)) (htr : t = r * r - e)
    (i : Fin N) : kerFpos k P Q A B i = refFpos k P Q A B i := by
  have h0 : 0 ≤ k.eps := by rw [he]; exact EReal.coe_nonneg.mpr he0
  have href : refFpos k P Q A B i
      = (Finset.univ : Finset (Fin N)).fold max ⊥ (fun j => Ideal.sqrt (selPos k P Q A B i j)) :=
    Finset.fold_congr (fun j _ => pos_term k he he0 hP hQ hA hB hr hr0 ht htr i j)
  rw [kerFpos, accMax_seven, sqrt_max, sqrt_zero, sqrt_fold_max, Ideal.sqrt_bot, href]
  apply max_eq_right
  rw [Finset.le_fold_max]
  exact Or.inr ⟨⟨0, by norm_num⟩, Finset.mem_univ _, sqrt_nonneg (selPos_nonneg k P Q A B h0 i _)⟩

/-- A term of the reference's minimum is the root of the kernel's negative selection. -/
theorem neg_term {e : ℝ} (he : k.eps = (e : EReal)) (he0 : 0 ≤ e)
    (hP : ∀ i c, P i c = (p i c : EReal)) (hQ : ∀ i c, Q i c = (q i c : EReal))
    (hA : ∀ i c, A i c = (a i c : EReal)) (hB : ∀ i c, B i c = (b i c : EReal))
    {r t : ℝ} (hr : k.rn = (r : EReal)) (hr0 : 0 ≤ r) (ht : k.tn = (t : EReal)) (htr : t = r * r - e)
    {g gs : ℝ} (hg : k.big = (g : EReal)) (hgs : k.bigSq = (gs : EReal)) (hgs0 : 0 ≤ gs)
    (hroot : Real.sqrt gs = g) (i j : Fin N) :
    (if k.rn < Spec.dist k P Q i j then Spec.dist k A B i j else k.big)
      = Ideal.sqrt (selNeg k P Q A B i j) := by
  have hiff := neg_test_iff k he he0 hP hQ hr hr0 ht htr i j
  unfold selNeg
  by_cases h : k.tn < diffSq P Q i j
  · rw [if_pos h, if_pos (hiff.mpr h), Spec.dist, featSq_eq_gemmSq k hA hB]
  · rw [if_neg h, if_neg (fun h' => h (hiff.mp h')), hgs, sqrt_coe_of_nonneg hgs0, hroot, hg]

/-- The kernel's negative result of a row is the reference's, clipped at the fill. -/
theorem kerCneg_eq {e : ℝ} (he : k.eps = (e : EReal)) (he0 : 0 ≤ e)
    (hP : ∀ i c, P i c = (p i c : EReal)) (hQ : ∀ i c, Q i c = (q i c : EReal))
    (hA : ∀ i c, A i c = (a i c : EReal)) (hB : ∀ i c, B i c = (b i c : EReal))
    {r t : ℝ} (hr : k.rn = (r : EReal)) (hr0 : 0 ≤ r) (ht : k.tn = (t : EReal)) (htr : t = r * r - e)
    {g gs : ℝ} (hg : k.big = (g : EReal)) (hgs : k.bigSq = (gs : EReal)) (hgs0 : 0 ≤ gs)
    (hroot : Real.sqrt gs = g) (i : Fin N) :
    kerCneg k P Q A B i = min (g : EReal) (refCneg k P Q A B i) := by
  have href : refCneg k P Q A B i
      = (Finset.univ : Finset (Fin N)).fold min ⊤ (fun j => Ideal.sqrt (selNeg k P Q A B i j)) :=
    Finset.fold_congr
      (fun j _ => neg_term k he he0 hP hQ hA hB hr hr0 ht htr hg hgs hgs0 hroot i j)
  rw [kerCneg, accMin_seven, sqrt_min, sqrt_fold_min, Ideal.sqrt_top, href, hgs,
    sqrt_coe_of_nonneg hgs0, hroot]

/-- The two forms agree: the positive results are equal row by row, and the negative hinges are. -/
theorem kerLoss_eq_refLoss_of {e : ℝ} (he : k.eps = (e : EReal)) (he0 : 0 ≤ e)
    (hP : ∀ i c, P i c = (p i c : EReal)) (hQ : ∀ i c, Q i c = (q i c : EReal))
    (hA : ∀ i c, A i c = (a i c : EReal)) (hB : ∀ i c, B i c = (b i c : EReal))
    {rp tp : ℝ} (hrp : k.rp = (rp : EReal)) (hrp0 : 0 < rp) (htp : k.tp = (tp : EReal))
    (htpr : tp = rp * rp - e)
    {rn tn : ℝ} (hrn : k.rn = (rn : EReal)) (hrn0 : 0 ≤ rn) (htn : k.tn = (tn : EReal))
    (htnr : tn = rn * rn - e)
    {g gs : ℝ} (hg : k.big = (g : EReal)) (hgs : k.bigSq = (gs : EReal)) (hgs0 : 0 ≤ gs)
    (hroot : Real.sqrt gs = g)
    {m : ℝ} (hm : k.mneg = (m : EReal)) (hmg : m ≤ g) :
    kerLoss k P Q A B = refLoss k P Q A B := by
  have h1 : (fun i => relu (kerFpos k P Q A B i - k.mpos))
      = fun i => relu (refFpos k P Q A B i - k.mpos) := by
    funext i
    rw [kerFpos_eq k he he0 hP hQ hA hB hrp hrp0 htp htpr i]
  have h2 : (fun i => relu (k.mneg - kerCneg k P Q A B i))
      = fun i => relu (k.mneg - refCneg k P Q A B i) := by
    funext i
    rw [kerCneg_eq k he he0 hP hQ hA hB hrn hrn0 htn htnr hg hgs hgs0 hroot i, hm]
    exact hinge_clip hmg _
  unfold kerLoss refLoss lossOf
  rw [h1, h2]

end Cert.Math

end
-- ==== Proof.MathMain.lean ====
/-
  The kernel's closed form equals the reference's closed form at this pair's constants, for arrays with real
  entries: the constants are real numbers (their words evaluated once), the squared-domain thresholds are the
  squared radii less epsilon, the root of the squared fill is the fill, and the fill is above the negative margin.
-/
import proofs.«167056_j70995809402955_2_alg».proof.Proof.Spec
import proofs.«167056_j70995809402955_2_alg».proof.Proof.MathConsts
import proofs.«167056_j70995809402955_2_alg».proof.Proof.MathRows

noncomputable section

namespace Cert.Math

open Idealize.ShloMosaic Cert.Spec

/-- The root of the squared fill is the fill: 100000 * 100000 = 10^10. -/
theorem sqrt_bigSq : Real.sqrt (10000000000 : ℝ) = 100000 := by
  rw [show (10000000000 : ℝ) = 100000 * 100000 by norm_num]
  exact Real.sqrt_mul_self (by norm_num)

theorem kerLoss_eq_refLoss (P Q : Fin 8192 → Fin 3 → EReal) (A B : Fin 8192 → Fin 32 → EReal)
    (hP : ∀ i c, ∃ r : ℝ, P i c = (r : EReal)) (hQ : ∀ i c, ∃ r : ℝ, Q i c = r)
    (hA : ∀ i c, ∃ r : ℝ, A i c = r) (hB : ∀ i c, ∃ r : ℝ, B i c = r) :
    Cert.Spec.kerLoss Cert.Spec.consts P Q A B = Cert.Spec.refLoss Cert.Spec.consts P Q A B := by
  choose p hp using hP
  choose q hq using hQ
  choose a ha using hA
  choose b hb using hB
  exact kerLoss_eq_refLoss_of consts
    (e := 14073749 / 140737488355328) ofBits_eps (by norm_num) hp hq ha hb
    (rp := 5033165 / 134217728) (tp := 25330948477353 / 18014398509481984)
    ofBits_rp (by norm_num) rfl tp_eq
    (rn := 13421773 / 134217728) (tn := 180142189023657 / 18014398509481984)
    ofBits_rn (by norm_num) rfl tn_eq
    (g := 100000) (gs := 10000000000) ofBits_big ofBits_bigSq (by norm_num) sqrt_bigSq
    (m := 11744051 / 8388608) ofBits_mneg (by norm_num)

end Cert.Math

end
-- ==== Proof.FinArgs.lean ====
/-
  From the precondition to real entries.

  The precondition is the conjunction, over the six float arrays, of "every entry x has |x| < +inf". An extended
  real x with max x (-x) below the top element is neither infinity, so it is a real number.
-/
import proofs.«167056_j70995809402955_2_alg».proof.Defs
import proofs.«167056_j70995809402955_2_alg».proof.Proof.MathConsts
import Idealize.ShloMosaic.Lib.ReduceAll
import Idealize.ShloMosaic.Lib.ValueIdx

noncomputable section

namespace Cert.FinArgs

open Idealize.ShloMosaic Idealize.SL.Sem

instance : Subsingleton Cert.Pre_finite_inputs.S_.Idx := ⟨fun a b => funext fun d => d.elim0⟩

/-- An extended real whose absolute value compares below +inf is a real number. -/
theorem real_of_abs_lt_inf (x : EReal)
    (h : Ideal.cmp .olt (max x (-x)) (Ideal.ofBits .f32 0x7F800000#32) = 1#1) :
    ∃ r : ℝ, x = (r : EReal) := by
  rw [Cert.Math.ofBits_pos_inf] at h
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  obtain ⟨h1, h2⟩ := max_lt_iff.mp hlt
  have hne_top : x ≠ ⊤ := ne_of_lt h1
  have hne_bot : x ≠ ⊥ := by
    rintro rfl
    rw [EReal.neg_bot] at h2
    exact lt_irrefl _ h2
  exact ⟨x.toReal, (EReal.coe_toReal hne_top hne_bot).symm⟩

/-- One "all entries are finite" test that came out true: every entry of the array is a real number. -/
theorem all_real {n0 n1 : ℕ} (x : FVec Ideal ⟨2, ![n0, n1]⟩ .f32)
    (hb : Cert.Pre_finite_inputs.S_.BroadcastsInDim ⟨2, ![n0, n1]⟩ ![])
    (hr : (⟨2, ![n0, n1]⟩ : Shape).ReducesTo [0, 1] Cert.Pre_finite_inputs.S_)
    (hu : 0 < Cert.Pre_finite_inputs.S_.numel) (init : IVec Cert.Pre_finite_inputs.S_ 1)
    (e : Host.reduce IntOp.andi
        (cmpf .olt (Host.absf x)
          (broadcastInDim ⟨2, ![n0, n1]⟩ ![] hb
            (constant (F := Ideal) Cert.Pre_finite_inputs.S_ .f32 0x7F800000#32)))
        init hr hu ValueIdx.ix0 = 1#1)
    (j : (⟨2, ![n0, n1]⟩ : Shape).Idx) : ∃ r : ℝ, x j = (r : EReal) :=
  real_of_abs_lt_inf (x j) (Host.reduce_andi_all _ init hr hu ValueIdx.ix0 e j)

/-- Under the precondition every entry of the six float arrays is a real number. -/
theorem args_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ j, ∃ r : ℝ, m ((c.tc : Thread Cert.KernelIdeal.nD Cert.KernelIdeal.τ).loc Cert.KernelIdeal.main_arg0) j = (r : EReal))
    ∧ (∀ j, ∃ r : ℝ, m ((c.tc : Thread Cert.KernelIdeal.nD Cert.KernelIdeal.τ).loc Cert.KernelIdeal.main_arg1) j = (r : EReal))
    ∧ (∀ j, ∃ r : ℝ, m ((c.tc : Thread Cert.KernelIdeal.nD Cert.KernelIdeal.τ).loc Cert.KernelIdeal.main_arg2) j = (r : EReal))
    ∧ (∀ j, ∃ r : ℝ, m ((c.tc : Thread Cert.KernelIdeal.nD Cert.KernelIdeal.τ).loc Cert.KernelIdeal.main_arg3) j = (r : EReal))
    ∧ (∀ j, ∃ r : ℝ, m ((c.tc : Thread Cert.KernelIdeal.nD Cert.KernelIdeal.τ).loc Cert.KernelIdeal.main_arg5) j = (r : EReal))
    ∧ (∀ j, ∃ r : ℝ, m ((c.tc : Thread Cert.KernelIdeal.nD Cert.KernelIdeal.τ).loc Cert.KernelIdeal.main_arg6) j = (r : EReal)) := by
  have h0 := congrFun (h c) ValueIdx.ix0
  dsimp only [Cert.Pre_finite_inputs.fn, Cert.Pre_finite_inputs.fn_part1] at h0
  obtain ⟨h01235, h6⟩ := IntOp.andi_eq_one.1 h0
  obtain ⟨h0123, h5⟩ := IntOp.andi_eq_one.1 h01235
  obtain ⟨h012, h3⟩ := IntOp.andi_eq_one.1 h0123
  obtain ⟨h01, h2⟩ := IntOp.andi_eq_one.1 h012
  obtain ⟨h0', h1⟩ := IntOp.andi_eq_one.1 h01
  exact ⟨all_real _ _ _ _ _ h0', all_real _ _ _ _ _ h1, all_real _ _ _ _ _ h2, all_real _ _ _ _ _ h3,
    all_real _ _ _ _ _ h5, all_real _ _ _ _ _ h6⟩

end Cert.FinArgs

end
-- ==== Proof.Claims.lean ====
/-
  The five claims.

  Both idealized programs compute one hinge loss of the same four selected arrays. The kernel selects rows and
  then applies the rigid map to the selected points, the reference applies it to every point and then selects:
  the same array, because selecting a row commutes with a row-wise map. On real arrays the kernel's closed form
  (squared distances against squared-domain thresholds, one square root per row after eight tiles) and the
  reference's (distances against radii, maxima and minima over all columns) are one number: the two thresholds
  are the radii squared minus epsilon, the square root is monotone, and clipping the running minimum at the
  squared fill cannot change a hinge whose margin is below the fill. The inputs are real by the precondition.
-/
import proofs.«167056_j70995809402955_2_alg».proof.Proof.KerRun
import proofs.«167056_j70995809402955_2_alg».proof.Proof.KerHostPre
import proofs.«167056_j70995809402955_2_alg».proof.Proof.BridgeKer
import proofs.«167056_j70995809402955_2_alg».proof.Proof.RefLoss
import proofs.«167056_j70995809402955_2_alg».proof.Proof.MathMain
import proofs.«167056_j70995809402955_2_alg».proof.Proof.FinArgs
import proofs.«167056_j70995809402955_2_alg».proof.Proof.Gen.Kernel.Frame
import proofs.«167056_j70995809402955_2_alg».proof.Proof.Gen.Pre_finite_inputs
import Idealize.ShloMosaic.PureOps.IdealRules

noncomputable section

namespace Cert.Proof.Claims

open Idealize.ShloMosaic Idealize.ShloMosaic.TcCoe Idealize.SL.Sem Idealize.ShloMosaic.ValueIdx

/-! ## The four selected arrays are the same in both programs -/

section Arrays

variable (m : (ℓ : Loc Cert.KernelIdeal.nD Cert.KernelIdeal.τ Cert.KernelIdeal.sig) → Buf (Elt Ideal) ℓ) (c : Dev Cert.KernelIdeal.nD)

/-- The selected and transformed points of the rows. -/
theorem kP_eq : Cert.KerChain.kP m c = Cert.RefValue.refP (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) :=
  funext fun i => funext fun k => (congrFun (Cert.KerHost.V_v36 m c) (ix2 i k)).trans
    (congrFun (congrFun (Cert.Bridge.kerPts_eq_refP (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) i) k)

/-- The selected points of the columns. -/
theorem kQ_eq : Cert.KerChain.kQ m c = Cert.RefValue.refQ (m ((c.tc : Thread Cert.KernelIdeal.nD Cert.KernelIdeal.τ).loc Cert.KernelIdeal.main_arg1)) (m ((c.tc : Thread Cert.KernelIdeal.nD Cert.KernelIdeal.τ).loc Cert.KernelIdeal.main_arg4)) :=
  funext fun i => funext fun k => congrFun (Cert.KerHost.V_v17 m c) (ix2 i k)

/-- The selected features of the rows. -/
theorem kA_eq : Cert.KerChain.kA m c = Cert.RefValue.refA (m ((c.tc : Thread Cert.KernelIdeal.nD Cert.KernelIdeal.τ).loc Cert.KernelIdeal.main_arg2)) (m ((c.tc : Thread Cert.KernelIdeal.nD Cert.KernelIdeal.τ).loc Cert.KernelIdeal.main_arg4)) :=
  funext fun i => funext fun k => congrFun (Cert.KerHost.V_v24 m c) (ix2 i k)

/-- The selected features of the columns. -/
theorem kB_eq : Cert.KerChain.kB m c = Cert.RefValue.refB (m ((c.tc : Thread Cert.KernelIdeal.nD Cert.KernelIdeal.τ).loc Cert.KernelIdeal.main_arg3)) (m ((c.tc : Thread Cert.KernelIdeal.nD Cert.KernelIdeal.τ).loc Cert.KernelIdeal.main_arg4)) :=
  funext fun i => funext fun k => congrFun (Cert.KerHost.V_v31 m c) (ix2 i k)

end Arrays

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two named thresholds denote the rationals the table gives them. -/
theorem preserves : Cert.preserves_Kernel_KernelIdeal :=
  ⟨IdealRules.named_const.statement Cert.KernelIdeal.κ "pos_radius_sq_minus_eps" .f32 0x3AB84E91#32 ((25330948477353 / 18014398509481984 : ℝ) : EReal) rfl,
   IdealRules.named_const.statement Cert.KernelIdeal.κ "neg_radius_sq_minus_eps" .f32 0x3C23D69F#32 ((180142189023657 / 18014398509481984 : ℝ) : EReal) rfl⟩

/-- From memories agreeing on the arguments both programs end at the same loss. -/
theorem algebraic : Cert.algebraic_KernelIdeal_ReferenceIdeal := by
  intro m ρ m' ρ' hpre hagree
  refine ⟨fun c => (fun _ => Cert.Spec.kerLoss Cert.Spec.consts (Cert.KerChain.kP m c) (Cert.KerChain.kQ m c) (Cert.KerChain.kA m c) (Cert.KerChain.kB m c)),
    Cert.KerRun.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  obtain ⟨h0, h1, h2, h3, h5, h6⟩ := Cert.FinArgs.args_real m hpre c
  rw [Cert.ReferenceIdeal.Read.val_main_v94_eq, Cert.RefValue.ref_loss, a0, a1, a2, a3, a4, a5, a6]
  show _ = fun _ => Cert.Spec.kerLoss Cert.Spec.consts (Cert.KerChain.kP m c) (Cert.KerChain.kQ m c) (Cert.KerChain.kA m c) (Cert.KerChain.kB m c)
  rw [kP_eq m c, kQ_eq m c, kA_eq m c, kB_eq m c]
  exact congrArg (fun x : EReal => fun _ => x)
    (Cert.Math.kerLoss_eq_refLoss _ _ _ _
      (Cert.Bridge.refP_real _ _ _ _ h0 h5 h6) (Cert.Bridge.refQ_real _ _ h1) (Cert.Bridge.refA_real _ _ h2) (Cert.Bridge.refB_real _ _ h3)).symm

end Cert.Proof.Claims

end
-- ==== Proof.lean ====
/-
  The certificate: the idealized kernel and the idealized reference compute the same hardest-contrastive loss
  of every finite input. Proof/Claims.lean has the argument in words and the five claims; the modules under it
  read the kernel's run (Ker*), the reference's run (Ref*), the mathematics that joins the two closed forms
  (Math*), the rows' selection (Gath*, Bridge*) and the precondition (FinArgs).
-/
import proofs.«167056_j70995809402955_2_alg».proof.Defs
import proofs.«167056_j70995809402955_2_alg».proof.Proof.Gen.Kernel
import proofs.«167056_j70995809402955_2_alg».proof.Proof.Gen.KernelIdeal
import proofs.«167056_j70995809402955_2_alg».proof.Proof.Gen.ReferenceIdeal
import proofs.«167056_j70995809402955_2_alg».proof.Proof.Gen.ReferenceIdeal.Run
import proofs.«167056_j70995809402955_2_alg».proof.Proof.Gen.ReferenceIdeal.Read
import proofs.«167056_j70995809402955_2_alg».proof.Proof.Gen.Pre_finite_inputs
import proofs.«167056_j70995809402955_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
